-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S6x128x8 : Shape := ⟨3, ![6, 128, 8]⟩
abbrev S6x8 : Shape := ⟨2, ![6, 8]⟩
abbrev S48x128 : Shape := ⟨2, ![48, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S6x128x8 : S_.BroadcastsInDim S6x128x8 (![] : Fin 0 → Fin S6x128x8.rank)
  reducesTo_S6x128x8_S_d0_1_2 : S6x128x8.ReducesTo [0, 1, 2] S_
  bcast_S_S6x8 : S_.BroadcastsInDim S6x8 (![] : Fin 0 → Fin S6x8.rank)
  reducesTo_S6x8_S_d0_1 : S6x8.ReducesTo [0, 1] S_
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S6x8 .f32) (main_arg5 : FVec F S48x128 .f32) (main_arg6 : FVec F S128 .f32) (main_v13 : IVec S_ 1) (main_v16 : IVec S6x128x8 1) : IVec S_ 1 :=
  let main_c_5 : IVec S_ 1 := constantI S_ 1 1#1
  let main_v17 : IVec S_ 1 := (fun x v => Host.reduce IntOp.andi x v reducesTo_S6x128x8_S_d0_1_2 h_S_) main_v16 main_c_5
  let main_v18 : IVec S_ 1 := andi main_v13 main_v17
  let main_v19 : FVec F S6x8 .f32 := Host.absf main_arg4
  let main_cst_6 : FVec F S_ .f32 := constant S_ .f32 0x7F800000#32
  let main_v20 : FVec F S6x8 .f32 := broadcastInDim S6x8 ![] bcast_S_S6x8 main_cst_6
  let main_v21 : IVec S6x8 1 := cmpf .olt main_v19 main_v20
  let main_c_7 : IVec S_ 1 := constantI S_ 1 1#1
  let main_v22 : IVec S_ 1 := (fun x v => Host.reduce IntOp.andi x v reducesTo_S6x8_S_d0_1 h_S_) main_v21 main_c_7
  let main_v23 : IVec S_ 1 := andi main_v18 main_v22
  let main_v24 : FVec F S48x128 .f32 := Host.absf main_arg5
  let main_cst_8 : FVec F S_ .f32 := constant S_ .f32 0x7F800000#32
  let main_v25 : FVec F S48x128 .f32 := broadcastInDim S48x128 ![] bcast_S_S48x128 main_cst_8
  let main_v26 : IVec S48x128 1 := cmpf .olt main_v24 main_v25
  let main_c_9 : IVec S_ 1 := constantI S_ 1 1#1
  let main_v27 : IVec S_ 1 := (fun x v => Host.reduce IntOp.andi x v reducesTo_S48x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S10000x10000 .f32) (main_arg3 : FVec F S6x128x8 .f32) (main_arg4 : FVec F S6x8 .f32) (main_arg5 : FVec F S48x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S6x128x8 .f32 := Host.absf main_arg3
  let main_cst_4 : FVec F S_ .f32 := constant S_ .f32 0x7F800000#32
  let main_v15 : FVec F S6x128x8 .f32 := broadcastInDim S6x128x8 ![] bcast_S_S6x128x8 main_cst_4
  let main_v16 : IVec S6x128x8 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S6x128x8 : Shape := ⟨3, ![6, 128, 8]⟩
abbrev S6x8 : Shape := ⟨2, ![6, 8]⟩
abbrev S48x128 : Shape := ⟨2, ![48, 128]⟩
abbrev S128 : Shape := ⟨1, ![128]⟩
abbrev S1x128x8 : Shape := ⟨3, ![1, 128, 8]⟩
abbrev S128x8 : Shape := ⟨2, ![128, 8]⟩
abbrev S128x48 : Shape := ⟨2, ![128, 48]⟩
abbrev S1x8 : Shape := ⟨2, ![1, 8]⟩
abbrev S8 : Shape := ⟨1, ![8]⟩
abbrev S48 : Shape := ⟨1, ![48]⟩
abbrev S1x48 : Shape := ⟨2, ![1, 48]⟩
abbrev S1x128 : Shape := ⟨2, ![1, 128]⟩
abbrev S10000x24 : Shape := ⟨2, ![10000, 24]⟩
abbrev S2000x128 : Shape := ⟨2, ![2000, 128]⟩
abbrev S2000x24 : Shape := ⟨2, ![2000, 24]⟩
abbrev S2000x48 : Shape := ⟨2, ![2000, 48]⟩
abbrev S10000x16 : Shape := ⟨2, ![10000, 16]⟩
abbrev S10000x8 : Shape := ⟨2, ![10000, 8]⟩
abbrev S200x10000 : Shape := ⟨2, ![200, 10000]⟩
abbrev S200x16 : Shape := ⟨2, ![200, 16]⟩
abbrev S200x8 : Shape := ⟨2, ![200, 8]⟩
abbrev S200x24 : Shape := ⟨2, ![200, 24]⟩
abbrev S400x10000 : Shape := ⟨2, ![400, 10000]⟩
abbrev S400x8 : Shape := ⟨2, ![400, 8]⟩
abbrev S400x16 : Shape := ⟨2, ![400, 16]⟩
abbrev S400x128 : Shape := ⟨2, ![400, 128]⟩
abbrev S400x48 : Shape := ⟨2, ![400, 48]⟩
abbrev S1000x10000 : Shape := ⟨2, ![1000, 10000]⟩
abbrev S1000x128 : Shape := ⟨2, ![1000, 128]⟩

abbrev nBuf : Space → Nat
  | .hbm => 49
  | .vmem => 63
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S6x128x8, .f32⟩
  | .hbm, ⟨4, _⟩ => ⟨S6x8, .f32⟩
  | .hbm, ⟨5, _⟩ => ⟨S48x128, .f32⟩
  | .hbm, ⟨6, _⟩ => ⟨S128, .f32⟩
  | .hbm, ⟨7, _⟩ => ⟨S1x128x8, .f32⟩
  | .hbm, ⟨8, _⟩ => ⟨S128x8, .f32⟩
  | .hbm, ⟨9, _⟩ => ⟨S1x128x8, .f32⟩
  | .hbm, ⟨10, _⟩ => ⟨S128x8, .f32⟩
  | .hbm, ⟨11, _⟩ => ⟨S1x128x8, .f32⟩
  | .hbm, ⟨12, _⟩ => ⟨S128x8, .f32⟩
  | .hbm, ⟨13, _⟩ => ⟨S1x128x8, .f32⟩
  | .hbm, ⟨14, _⟩ => ⟨S128x8, .f32⟩
  | .hbm, ⟨15, _⟩ => ⟨S1x128x8, .f32⟩
  | .hbm, ⟨16, _⟩ => ⟨S128x8, .f32⟩
  | .hbm, ⟨17, _⟩ => ⟨S1x128x8, .f32⟩
  | .hbm, ⟨18, _⟩ => ⟨S128x8, .f32⟩
  | .hbm, ⟨19, _⟩ => ⟨S128x48, .f32⟩
  | .hbm, ⟨20, _⟩ => ⟨S1x8, .f32⟩
  | .hbm, ⟨21, _⟩ => ⟨S8, .f32⟩
  | .hbm, ⟨22, _⟩ => ⟨S1x8, .f32⟩
  | .hbm, ⟨23, _⟩ => ⟨S8, .f32⟩
  | .hbm, ⟨24, _⟩ => ⟨S1x8, .f32⟩
  | .hbm, ⟨25, _⟩ => ⟨S8, .f32⟩
  | .hbm, ⟨26, _⟩ => ⟨S1x8, .f32⟩
  | .hbm, ⟨27, _⟩ => ⟨S8, .f32⟩
  | .hbm, ⟨28, _⟩ => ⟨S1x8, .f32⟩
  | .hbm, ⟨29, _⟩ => ⟨S8, .f32⟩
  | .hbm, ⟨30, _⟩ => ⟨S1x8, .f32⟩
  | .hbm, ⟨31, _⟩ => ⟨S8, .f32⟩
  | .hbm, ⟨32, _⟩ => ⟨S48, .f32⟩
  | .hbm, ⟨33, _⟩ => ⟨S1x48, .f32⟩
  | .hbm, ⟨34, _⟩ => ⟨S1x128, .f32⟩
  | .hbm, ⟨35, _⟩ => ⟨S10000x24, .f32⟩
  | .hbm, ⟨36, _⟩ => ⟨S10000x24, .f32⟩
  | .hbm, ⟨37, _⟩ => ⟨S10000x16, .f32⟩
  | .hbm, ⟨38, _⟩ => ⟨S10000x8, .f32⟩
  | .hbm, ⟨39, _⟩ => ⟨S10000x16, .f32⟩
  | .hbm, ⟨40, _⟩ => ⟨S10000x8, .f32⟩
  | .hbm, ⟨41, _⟩ => ⟨S10000x10000, .bf16⟩
  | .hbm, ⟨42, _⟩ => ⟨S10000x10000, .bf16⟩
  | .hbm, ⟨43, _⟩ => ⟨S10000x8, .f32⟩
  | .hbm, ⟨44, _⟩ => ⟨S10000x8, .f32⟩
  | .hbm, ⟨45, _⟩ => ⟨S10000x8, .f32⟩
  | .hbm, ⟨46, _⟩ => ⟨S10000x8, .f32⟩
  | .hbm, ⟨47, _⟩ => ⟨S10000x128, .f32⟩
  | .hbm, ⟨48, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x48, .f32⟩
  | .local _ .vmem, ⟨3, _⟩ => ⟨S1x48, .f32⟩
  | .local _ .vmem, ⟨4, _⟩ => ⟨S2000x24, .f32⟩
  | .local _ .vmem, ⟨5, _⟩ => ⟨S2000x24, .f32⟩
  | .local _ .vmem, ⟨6, _⟩ => ⟨S2000x24, .f32⟩
  | .local _ .vmem, ⟨7, _⟩ => ⟨S2000x24, .f32⟩
  | .local _ .vmem, ⟨8, _⟩ => ⟨S200x10000, .f32⟩
  | .local _ .vmem, ⟨9, _⟩ => ⟨S200x10000, .f32⟩
  | .local _ .vmem, ⟨10, _⟩ => ⟨S200x10000, .f32⟩
  | .local _ .vmem, ⟨11, _⟩ => ⟨S200x10000, .f32⟩
  | .local _ .vmem, ⟨12, _⟩ => ⟨S10000x24, .f32⟩
  | .local _ .vmem, ⟨13, _⟩ => ⟨S10000x24, .f32⟩
  | .local _ .vmem, ⟨14, _⟩ => ⟨S200x16, .f32⟩
  | .local _ .vmem, ⟨15, _⟩ => ⟨S200x16, .f32⟩
  | .local _ .vmem, ⟨16, _⟩ => ⟨S200x8, .f32⟩
  | .local _ .vmem, ⟨17, _⟩ => ⟨S200x8, .f32⟩
  | .local _ .vmem, ⟨18, _⟩ => ⟨S200x16, .f32⟩
  | .local _ .vmem, ⟨19, _⟩ => ⟨S200x16, .f32⟩
  | .local _ .vmem, ⟨20, _⟩ => ⟨S200x8, .f32⟩
  | .local _ .vmem, ⟨21, _⟩ => ⟨S200x8, .f32⟩
  | .local _ .vmem, ⟨22, _⟩ => ⟨S200x10000, .bf16⟩
  | .local _ .vmem, ⟨23, _⟩ => ⟨S200x10000, .bf16⟩
  | .local _ .vmem, ⟨24, _⟩ => ⟨S200x10000, .bf16⟩
  | .local _ .vmem, ⟨25, _⟩ => ⟨S200x10000, .bf16⟩
  | .local _ .vmem, ⟨26, _⟩ => ⟨S400x10000, .bf16⟩
  | .local _ .vmem, ⟨27, _⟩ => ⟨S400x10000, .bf16⟩
  | .local _ .vmem, ⟨28, _⟩ => ⟨S400x10000, .bf16⟩
  | .local _ .vmem, ⟨29, _⟩ => ⟨S400x10000, .bf16⟩
  | .local _ .vmem, ⟨30, _⟩ => ⟨S10000x16, .f32⟩
  | .local _ .vmem, ⟨31, _⟩ => ⟨S10000x16, .f32⟩
  | .local _ .vmem, ⟨32, _⟩ => ⟨S400x8, .f32⟩
  | .local _ .vmem, ⟨33, _⟩ => ⟨S400x8, .f32⟩
  | .local _ .vmem, ⟨34, _⟩ => ⟨S400x8, .f32⟩
  | .local _ .vmem, ⟨35, _⟩ => ⟨S400x8, .f32⟩
  | .local _ .vmem, ⟨36, _⟩ => ⟨S400x8, .f32⟩
  | .local _ .vmem, ⟨37, _⟩ => ⟨S400x8, .f32⟩
  | .local _ .vmem, ⟨38, _⟩ => ⟨S400x8, .f32⟩
  | .local _ .vmem, ⟨39, _⟩ => ⟨S400x8, .f32⟩
  | .local _ .vmem, ⟨40, _⟩ => ⟨S400x10000, .bf16⟩
  | .local _ .vmem, ⟨41, _⟩ => ⟨S400x10000, .bf16⟩
  | .local _ .vmem, ⟨42, _⟩ => ⟨S400x10000, .bf16⟩
  | .local _ .vmem, ⟨43, _⟩ => ⟨S400x10000, .bf16⟩
  | .local _ .vmem, ⟨44, _⟩ => ⟨S10000x8, .f32⟩
  | .local _ .vmem, ⟨45, _⟩ => ⟨S10000x8, .f32⟩
  | .local _ .vmem, ⟨46, _⟩ => ⟨S400x8, .f32⟩
  | .local _ .vmem, ⟨47, _⟩ => ⟨S400x8, .f32⟩
  | .local _ .vmem, ⟨48, _⟩ => ⟨S400x8, .f32⟩
  | .local _ .vmem, ⟨49, _⟩ => ⟨S400x8, .f32⟩
  | .local _ .vmem, ⟨50, _⟩ => ⟨S400x8, .f32⟩
  | .local _ .vmem, ⟨51, _⟩ => ⟨S400x8, .f32⟩
  | .local _ .vmem, ⟨52, _⟩ => ⟨S400x8, .f32⟩
  | .local _ .vmem, ⟨53, _⟩ => ⟨S400x8, .f32⟩
  | .local _ .vmem, ⟨54, _⟩ => ⟨S48x128, .f32⟩
  | .local _ .vmem, ⟨55, _⟩ => ⟨S1x128, .f32⟩
  | .local _ .vmem, ⟨56, _⟩ => ⟨S400x128, .f32⟩
  | .local _ .vmem, ⟨57, _⟩ => ⟨S400x128, .f32⟩
  | .local _ .vmem, ⟨58, _⟩ => ⟨S1000x10000, .bf16⟩
  | .local _ .vmem, ⟨59, _⟩ => ⟨S1000x10000, .bf16⟩
  | .local _ .vmem, ⟨60, _⟩ => ⟨S10000x128, .f32⟩
  | .local _ .vmem, ⟨61, _⟩ => ⟨S1000x128, .f32⟩
  | .local _ .vmem, ⟨62, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev main_v29_4 : Ref sig .tc := ⟨.hbm, 41, rfl⟩
abbrev main_v29_5 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg10_1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg2_0 : Ref sig .tc := ⟨.vmem, 61, rfl⟩
abbrev cc4_stg2_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem3_0 : DmaSem sig := 45
abbrev cc3_sem4_0 : DmaSem sig := 46
abbrev cc3_sem4_1 : DmaSem sig := 47
abbrev cc3_sem5_0 : DmaSem sig := 48
abbrev cc3_sem5_1 : DmaSem sig := 49
abbrev cc3_sem6_0 : DmaSem sig := 50
abbrev cc3_sem6_1 : DmaSem sig := 51
abbrev cc3_sem7_0 : DmaSem sig := 52
abbrev cc3_sem7_1 : DmaSem sig := 53
abbrev cc3_sem8_0 : DmaSem sig := 54
abbrev cc3_sem9_0 : DmaSem sig := 55
abbrev cc3_sem10_0 : DmaSem sig := 56
abbrev cc3_sem10_1 : DmaSem sig := 57
abbrev cc4_sem0_0 : DmaSem sig := 58
abbrev cc4_sem0_1 : DmaSem sig := 59
abbrev cc4_sem1_0 : DmaSem sig := 60
abbrev cc4_sem2_0 : DmaSem sig := 61
abbrev cc4_sem2_1 : DmaSem sig := 62

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S200x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S200x10000 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S200x10000 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x10000 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S400x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x10000 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10000x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S400x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S400x8 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S400x8 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S48x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S400x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S6x128x8_S1x128x8_2_0_0 : S6x128x8.Slices ![2, 0, 0] S1x128x8
  shapeCasts_S1x128x8_S128x8 : S1x128x8.ShapeCasts S128x8
  slices_S6x128x8_S1x128x8_1_0_0 : S6x128x8.Slices ![1, 0, 0] S1x128x8
  slices_S6x128x8_S1x128x8_0_0_0 : S6x128x8.Slices ![0, 0, 0] S1x128x8
  slices_S6x128x8_S1x128x8_5_0_0 : S6x128x8.Slices ![5, 0, 0] S1x128x8
  slices_S6x128x8_S1x128x8_4_0_0 : S6x128x8.Slices ![4, 0, 0] S1x128x8
  slices_S6x128x8_S1x128x8_3_0_0 : S6x128x8.Slices ![3, 0, 0] S1x128x8
  concatenates_S128x8_S128x8_S128x8_S128x8_S128x8_S128x8_S128x48_d1 : Shape.Concatenates [S128x8, S128x8, S128x8, S128x8, S128x8, S128x8] S128x48 1
  slices_S6x8_S1x8_2_0 : S6x8.Slices ![2, 0] S1x8
  shapeCasts_S1x8_S8 : S1x8.ShapeCasts S8
  slices_S6x8_S1x8_1_0 : S6x8.Slices ![1, 0] S1x8
  slices_S6x8_S1x8_0_0 : S6x8.Slices ![0, 0] S1x8
  slices_S6x8_S1x8_5_0 : S6x8.Slices ![5, 0] S1x8
  slices_S6x8_S1x8_4_0 : S6x8.Slices ![4, 0] S1x8
  slices_S6x8_S1x8_3_0 : S6x8.Slices ![3, 0] S1x8
  concatenates_S8_S8_S8_S8_S8_S8_S48_d0 : Shape.Concatenates [S8, S8, S8, S8, S8, S8] S48 0
  shapeCasts_S48_S1x48 : S48.ShapeCasts S1x48
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x48_S128x48_0_0 : ∀ a, (![0, 0] : Fin 2 → Nat) a + S128x48.size a ≤ S128x48.size a
  h_S128x48 : 0 < S128x48.numel
  shapeCasts_S128x48_S128x48 : S128x48.ShapeCasts S128x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2000x48 : S1x48.Broadcasts S2000x48
  slices_S2000x48_o0_0_S2000x24 : S2000x48.Slices ![0, 0] S2000x24
  inb_S2000x24_S2000x24_0_0 : ∀ a, (![0, 0] : Fin 2 → Nat) a + S2000x24.size a ≤ S2000x24.size a
  h_S2000x24 : 0 < S2000x24.numel
  slices_S2000x48_o0_24_S2000x24 : S2000x48.Slices ![0, 24] S2000x24
  inb_S200x10000_S200x10000_0_0 : ∀ a, (![0, 0] : Fin 2 → Nat) a + S200x10000.size a ≤ S200x10000.size a
  h_S200x10000 : 0 < S200x10000.numel
  inb_S10000x24_S10000x24_0_0 : ∀ a, (![0, 0] : Fin 2 → Nat) a + S10000x24.size a ≤ S10000x24.size a
  h_S10000x24 : 0 < S10000x24.numel
  shapeCasts_S10000x24_S10000x24 : S10000x24.ShapeCasts S10000x24
  slices_S200x24_o0_0_S200x16 : S200x24.Slices ![0, 0] S200x16
  inb_S200x16_S200x16_0_0 : ∀ a, (![0, 0] : Fin 2 → Nat) a + S200x16.size a ≤ S200x16.size a
  h_S200x16 : 0 < S200x16.numel
  slices_S200x24_o0_16_S200x8 : S200x24.Slices ![0, 16] S200x8
  inb_S200x8_S200x8_0_0 : ∀ a, (![0, 0] : Fin 2 → Nat) a + S200x8.size a ≤ S200x8.size a
  h_S200x8 : 0 < S200x8.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  slices_S400x16_o0_0_S400x8 : S400x16.Slices ![0, 0] S400x8
  inb_S400x8_S400x8_0_0 : ∀ a, (![0, 0] : Fin 2 → Nat) a + S400x8.size a ≤ S400x8.size a
  h_S400x8 : 0 < S400x8.numel
  slices_S400x16_o0_8_S400x8 : S400x16.Slices ![0, 8] S400x8
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  shapeCasts_S400x8_S400x8 : S400x8.ShapeCasts S400x8
  concatenates_S400x8_S400x8_S400x8_S400x8_S400x8_S400x8_S400x48_d1 : Shape.Concatenates [S400x8, S400x8, S400x8, S400x8, S400x8, S400x8] S400x48 1
  inb_S48x128_S48x128_0_0 : ∀ a, (![0, 0] : Fin 2 → Nat) a + S48x128.size a ≤ S48x128.size a
  h_S48x128 : 0 < S48x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1000x128_S1000x128_0_0 : ∀ a, (![0, 0] : Fin 2 → Nat) a + S1000x128.size a ≤ S1000x128.size a
  h_S1000x128 : 0 < S1000x128.numel
  dot_S2000x128_S128x48_S2000x48_1_0_0_1_n_n_wf : DotDims.WF S2000x128 S128x48 S2000x48 [1] [0] [0] [1] [] []
  dot_S200x10000_S10000x24_S200x24_1_0_0_1_n_n_wf : DotDims.WF S200x10000 S10000x24 S200x24 [1] [0] [0] [1] [] []
  dot_S400x10000_S10000x16_S400x16_1_0_0_1_n_n_wf : DotDims.WF S400x10000 S10000x16 S400x16 [1] [0] [0] [1] [] []
  dot_S400x10000_S10000x8_S400x8_1_0_0_1_n_n_wf : DotDims.WF S400x10000 S10000x8 S400x8 [1] [0] [0] [1] [] []
  dot_S400x48_S48x128_S400x128_1_0_0_1_n_n_wf : DotDims.WF S400x48 S48x128 S400x128 [1] [0] [0] [1] [] []
  dot_S1000x10000_S10000x128_S1000x128_1_0_0_1_n_n_wf : DotDims.WF S1000x10000 S10000x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x48.size a ≤ S1x48.size a
  hwx0_2 : ∀ i : grid0.Coords, EltTy.bits .f32 = 32 ∨ (Rect.block (s := S1x48) S1x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x24.size a ≤ S10000x24.size a
  hwx0_3 : ∀ i : grid0.Coords, EltTy.bits .f32 = 32 ∨ (Rect.block (s := S10000x24) S2000x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x24.size a ≤ S10000x24.size a
  hwx0_4 : ∀ i : grid0.Coords, EltTy.bits .f32 = 32 ∨ (Rect.block (s := S10000x24) S2000x24.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x24.size a ≤ S10000x24.size a
  hwx1_2 : ∀ i : grid1.Coords, EltTy.bits .f32 = 32 ∨ (Rect.block (s := S10000x24) S10000x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x24.size a ≤ S10000x24.size a
  hwx1_3 : ∀ i : grid1.Coords, EltTy.bits .f32 = 32 ∨ (Rect.block (s := S10000x24) S10000x24.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x16.size a ≤ S10000x16.size a
  hwx1_4 : ∀ i : grid1.Coords, EltTy.bits .f32 = 32 ∨ (Rect.block (s := S10000x16) S200x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x8.size a ≤ S10000x8.size a
  hwx1_5 : ∀ i : grid1.Coords, EltTy.bits .f32 = 32 ∨ (Rect.block (s := S10000x8) S200x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x16.size a ≤ S10000x16.size a
  hwx1_6 : ∀ i : grid1.Coords, EltTy.bits .f32 = 32 ∨ (Rect.block (s := S10000x16) S200x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x8.size a ≤ S10000x8.size a
  hwx1_7 : ∀ i : grid1.Coords, EltTy.bits .f32 = 32 ∨ (Rect.block (s := S10000x8) S200x8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x10000.size a ≤ S10000x10000.size a
  hwx1_8 : ∀ i : grid1.Coords, EltTy.bits .bf16 = 32 ∨ (Rect.block (s := S10000x10000) S200x10000.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x10000.size a ≤ S10000x10000.size a
  hwx1_9 : ∀ i : grid1.Coords, EltTy.bits .bf16 = 32 ∨ (Rect.block (s := S10000x10000) S200x10000.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x10000.size a ≤ S10000x10000.size a
  hwx2_1 : ∀ i : grid2.Coords, EltTy.bits .bf16 = 32 ∨ (Rect.block (s := S10000x10000) S400x10000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S10000x16.size a
  hwx2_2 : ∀ i : grid2.Coords, EltTy.bits .f32 = 32 ∨ (Rect.block (s := S10000x16) S10000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S10000x16.size a
  hwx2_3 : ∀ i : grid2.Coords, EltTy.bits .f32 = 32 ∨ (Rect.block (s := S10000x16) S10000x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x8.size a ≤ S10000x8.size a
  hwx2_4 : ∀ i : grid2.Coords, EltTy.bits .f32 = 32 ∨ (Rect.block (s := S10000x8) S400x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x8.size a ≤ S10000x8.size a
  hwx2_5 : ∀ i : grid2.Coords, EltTy.bits .f32 = 32 ∨ (Rect.block (s := S10000x8) S400x8.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x8.size a ≤ S10000x8.size a
  hwx2_6 : ∀ i : grid2.Coords, EltTy.bits .f32 = 32 ∨ (Rect.block (s := S10000x8) S400x8.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x8.size a ≤ S10000x8.size a
  hwx2_7 : ∀ i : grid2.Coords, EltTy.bits .f32 = 32 ∨ (Rect.block (s := S10000x8) S400x8.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x10000.size a ≤ S10000x10000.size a
  hwx3_1 : ∀ i : grid3.Coords, EltTy.bits .bf16 = 32 ∨ (Rect.block (s := S10000x10000) S400x10000.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x8.size a ≤ S10000x8.size a
  hwx3_2 : ∀ i : grid3.Coords, EltTy.bits .f32 = 32 ∨ (Rect.block (s := S10000x8) S10000x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10000x8.size a ≤ S10000x8.size a
  hwx3_3 : ∀ i : grid3.Coords, EltTy.bits .f32 = 32 ∨ (Rect.block (s := S10000x8) S10000x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x8.size a ≤ S10000x8.size a
  hwx3_4 : ∀ i : grid3.Coords, EltTy.bits .f32 = 32 ∨ (Rect.block (s := S10000x8) S400x8.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S400x8.size a ≤ S10000x8.size a
  hwx3_5 : ∀ i : grid3.Coords, EltTy.bits .f32 = 32 ∨ (Rect.block (s := S10000x8) S400x8.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x8.size a ≤ S10000x8.size a
  hwx3_6 : ∀ i : grid3.Coords, EltTy.bits .f32 = 32 ∨ (Rect.block (s := S10000x8) S400x8.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x8.size a ≤ S10000x8.size a
  hwx3_7 : ∀ i : grid3.Coords, EltTy.bits .f32 = 32 ∨ (Rect.block (s := S10000x8) S400x8.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S48x128.size a ≤ S48x128.size a
  hwx3_8 : ∀ i : grid3.Coords, EltTy.bits .f32 = 32 ∨ (Rect.block (s := S48x128) S48x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S400x128.size a ≤ S10000x128.size a
  hwx3_10 : ∀ i : grid3.Coords, EltTy.bits .f32 = 32 ∨ (Rect.block (s := S10000x128) S400x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .f32 = 32 ∨ (Rect.block (s := S10000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S10000x128.size a
  hwx4_2 : ∀ i : grid4.Coords, EltTy.bits .f32 = 32 ∨ (Rect.block (s := S10000x128) S1000x128.size (cc4_transform_2 i) (hinb4_2 i)).WholeWords (EltTy.packing .f32)

variable [Facts₀]

def dot_S2000x128_S128x48_S2000x48_1_0_0_1_n_n : DotDims S2000x128 S128x48 S2000x48 where
  lhsContracting := [1]
  rhsContracting := [0]
  lhsNonContracting := [0]
  rhsNonContracting := [1]
  lhsBatch := []
  rhsBatch := []
  wf := dot_S2000x128_S128x48_S2000x48_1_0_0_1_n_n_wf
def dot_S200x10000_S10000x24_S200x24_1_0_0_1_n_n : DotDims S200x10000 S10000x24 S200x24 where
  lhsContracting := [1]
  rhsContracting := [0]
  lhsNonContracting := [0]
  rhsNonContracting := [1]
  lhsBatch := []
  rhsBatch := []
  wf := dot_S200x10000_S10000x24_S200x24_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x10000_S10000x8_S400x8_1_0_0_1_n_n : DotDims S400x10000 S10000x8 S400x8 where
  lhsContracting := [1]
  rhsContracting := [0]
  lhsNonContracting := [0]
  rhsNonContracting := [1]
  lhsBatch := []
  rhsBatch := []
  wf := dot_S400x10000_S10000x8_S400x8_1_0_0_1_n_n_wf
def dot_S400x48_S48x128_S400x128_1_0_0_1_n_n : DotDims S400x48 S48x128 S400x128 where
  lhsContracting := [1]
  rhsContracting := [0]
  lhsNonContracting := [0]
  rhsNonContracting := [1]
  lhsBatch := []
  rhsBatch := []
  wf := dot_S400x48_S48x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28_0) S2000x24.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_1) S2000x24.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S10000x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28_1) S10000x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29_0) S200x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29_1) S200x8.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_2) S200x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29_3) S200x8.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v29_4) S200x10000.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v29_5) S200x10000.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v29_4) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29_5) S400x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29_0) S10000x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29_2) S10000x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30_0) S400x8.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30_1) S400x8.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v30_2) S400x8.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v30_3) S400x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v29_4) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_5) S400x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30_0) S10000x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30_2) S10000x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29_1) S400x8.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v30_1) S400x8.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v29_3) S400x8.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v30_3) S400x8.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg5) S48x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v27) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v31) S400x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v29_4) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S6x128x8 : Shape := ⟨3, ![6, 128, 8]⟩
abbrev S6x8 : Shape := ⟨2, ![6, 8]⟩
abbrev S48x128 : Shape := ⟨2, ![48, 128]⟩
abbrev S128 : Shape := ⟨1, ![128]⟩
abbrev S1x128x8 : Shape := ⟨3, ![1, 128, 8]⟩
abbrev S128x8 : Shape := ⟨2, ![128, 8]⟩
abbrev S10000x8 : Shape := ⟨2, ![10000, 8]⟩
abbrev S1x8 : Shape := ⟨2, ![1, 8]⟩
abbrev S8 : Shape := ⟨1, ![8]⟩
abbrev S10000x48 : Shape := ⟨2, ![10000, 48]⟩
abbrev S_ : Shape := ⟨0, ![]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S6x128x8, .f32⟩
  | .hbm, ⟨4, _⟩ => ⟨S6x8, .f32⟩
  | .hbm, ⟨5, _⟩ => ⟨S48x128, .f32⟩
  | .hbm, ⟨6, _⟩ => ⟨S128, .f32⟩
  | .hbm, ⟨7, _⟩ => ⟨S1x128x8, .f32⟩
  | .hbm, ⟨8, _⟩ => ⟨S128x8, .f32⟩
  | .hbm, ⟨9, _⟩ => ⟨S10000x8, .f32⟩
  | .hbm, ⟨10, _⟩ => ⟨S1x8, .f32⟩
  | .hbm, ⟨11, _⟩ => ⟨S8, .f32⟩
  | .hbm, ⟨12, _⟩ => ⟨S1x8, .f32⟩
  | .hbm, ⟨13, _⟩ => ⟨S10000x8, .f32⟩
  | .hbm, ⟨14, _⟩ => ⟨S10000x8, .f32⟩
  | .hbm, ⟨15, _⟩ => ⟨S10000x8, .f32⟩
  | .hbm, ⟨16, _⟩ => ⟨S1x128x8, .f32⟩
  | .hbm, ⟨17, _⟩ => ⟨S128x8, .f32⟩
  | .hbm, ⟨18, _⟩ => ⟨S10000x8, .f32⟩
  | .hbm, ⟨19, _⟩ => ⟨S1x8, .f32⟩
  | .hbm, ⟨20, _⟩ => ⟨S8, .f32⟩
  | .hbm, ⟨21, _⟩ => ⟨S1x8, .f32⟩
  | .hbm, ⟨22, _⟩ => ⟨S10000x8, .f32⟩
  | .hbm, ⟨23, _⟩ => ⟨S10000x8, .f32⟩
  | .hbm, ⟨24, _⟩ => ⟨S10000x8, .f32⟩
  | .hbm, ⟨25, _⟩ => ⟨S10000x8, .f32⟩
  | .hbm, ⟨26, _⟩ => ⟨S1x128x8, .f32⟩
  | .hbm, ⟨27, _⟩ => ⟨S128x8, .f32⟩
  | .hbm, ⟨28, _⟩ => ⟨S10000x8, .f32⟩
  | .hbm, ⟨29, _⟩ => ⟨S1x8, .f32⟩
  | .hbm, ⟨30, _⟩ => ⟨S8, .f32⟩
  | .hbm, ⟨31, _⟩ => ⟨S1x8, .f32⟩
  | .hbm, ⟨32, _⟩ => ⟨S10000x8, .f32⟩
  | .hbm, ⟨33, _⟩ => ⟨S10000x8, .f32⟩
  | .hbm, ⟨34, _⟩ => ⟨S10000x8, .f32⟩
  | .hbm, ⟨35, _⟩ => ⟨S10000x8, .f32⟩
  | .hbm, ⟨36, _⟩ => ⟨S10000x8, .f32⟩
  | .hbm, ⟨37, _⟩ => ⟨S1x128x8, .f32⟩
  | .hbm, ⟨38, _⟩ => ⟨S128x8, .f32⟩
  | .hbm, ⟨39, _⟩ => ⟨S10000x8, .f32⟩
  | .hbm, ⟨40, _⟩ => ⟨S1x8, .f32⟩
  | .hbm, ⟨41, _⟩ => ⟨S8, .f32⟩
  | .hbm, ⟨42, _⟩ => ⟨S1x8, .f32⟩
  | .hbm, ⟨43, _⟩ => ⟨S10000x8, .f32⟩
  | .hbm, ⟨44, _⟩ => ⟨S10000x8, .f32⟩
  | .hbm, ⟨45, _⟩ => ⟨S10000x8, .f32⟩
  | .hbm, ⟨46, _⟩ => ⟨S10000x8, .f32⟩
  | .hbm, ⟨47, _⟩ => ⟨S1x128x8, .f32⟩
  | .hbm, ⟨48, _⟩ => ⟨S128x8, .f32⟩
  | .hbm, ⟨49, _⟩ => ⟨S10000x8, .f32⟩
  | .hbm, ⟨50, _⟩ => ⟨S1x8, .f32⟩
  | .hbm, ⟨51, _⟩ => ⟨S8, .f32⟩
  | .hbm, ⟨52, _⟩ => ⟨S1x8, .f32⟩
  | .hbm, ⟨53, _⟩ => ⟨S10000x8, .f32⟩
  | .hbm, ⟨54, _⟩ => ⟨S10000x8, .f32⟩
  | .hbm, ⟨55, _⟩ => ⟨S10000x8, .f32⟩
  | .hbm, ⟨56, _⟩ => ⟨S10000x8, .f32⟩
  | .hbm, ⟨57, _⟩ => ⟨S10000x8, .f32⟩
  | .hbm, ⟨58, _⟩ => ⟨S1x128x8, .f32⟩
  | .hbm, ⟨59, _⟩ => ⟨S128x8, .f32⟩
  | .hbm, ⟨60, _⟩ => ⟨S10000x8, .f32⟩
  | .hbm, ⟨61, _⟩ => ⟨S1x8, .f32⟩
  | .hbm, ⟨62, _⟩ => ⟨S8, .f32⟩
  | .hbm, ⟨63, _⟩ => ⟨S1x8, .f32⟩
  | .hbm, ⟨64, _⟩ => ⟨S10000x8, .f32⟩
  | .hbm, ⟨65, _⟩ => ⟨S10000x8, .f32⟩
  | .hbm, ⟨66, _⟩ => ⟨S10000x8, .f32⟩
  | .hbm, ⟨67, _⟩ => ⟨S10000x8, .f32⟩
  | .hbm, ⟨68, _⟩ => ⟨S10000x8, .f32⟩
  | .hbm, ⟨69, _⟩ => ⟨S10000x8, .f32⟩
  | .hbm, ⟨70, _⟩ => ⟨S10000x48, .f32⟩
  | .hbm, ⟨71, _⟩ => ⟨S_, .f32⟩
  | .hbm, ⟨72, _⟩ => ⟨S10000x48, .f32⟩
  | .hbm, ⟨73, _⟩ => ⟨S10000x48, .f32⟩
  | .hbm, ⟨74, _⟩ => ⟨S10000x128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_call0_cst : Ref sig .tc := ⟨.hbm, 71, rfl⟩
abbrev main_call0_v0 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩

abbrev nD : Nat := 1
abbrev τ : Topo := Topo.v7x

variable {F : FTy → Type} [FloatOps F]

class Facts₀ : Prop where
  slices_S6x128x8_S1x128x8_0_0_0 : S6x128x8.Slices ![0, 0, 0] S1x128x8
  shapeCasts_S1x128x8_S128x8 : S1x128x8.ShapeCasts S128x8
  slices_S6x8_S1x8_0_0 : S6x8.Slices ![0, 0] S1x8
  shapeCasts_S1x8_S8 : S1x8.ShapeCasts S8
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  slices_S6x128x8_S1x128x8_1_0_0 : S6x128x8.Slices ![1, 0, 0] S1x128x8
  slices_S6x8_S1x8_1_0 : S6x8.Slices ![1, 0] S1x8
  slices_S6x128x8_S1x128x8_2_0_0 : S6x128x8.Slices ![2, 0, 0] S1x128x8
  slices_S6x8_S1x8_2_0 : S6x8.Slices ![2, 0] S1x8
  slices_S6x128x8_S1x128x8_3_0_0 : S6x128x8.Slices ![3, 0, 0] S1x128x8
  slices_S6x8_S1x8_3_0 : S6x8.Slices ![3, 0] S1x8
  slices_S6x128x8_S1x128x8_4_0_0 : S6x128x8.Slices ![4, 0, 0] S1x128x8
  slices_S6x8_S1x8_4_0 : S6x8.Slices ![4, 0] S1x8
  slices_S6x128x8_S1x128x8_5_0_0 : S6x128x8.Slices ![5, 0, 0] S1x128x8
  slices_S6x8_S1x8_5_0 : S6x8.Slices ![5, 0] S1x8
  concatenates_S10000x8_S10000x8_S10000x8_S10000x8_S10000x8_S10000x8_S10000x48_d1 : Shape.Concatenates [S10000x8, S10000x8, S10000x8, S10000x8, S10000x8, S10000x8] S10000x48 1
  bcast_S_S10000x48 : S_.BroadcastsInDim S10000x48 (![] : Fin 0 → Fin S10000x48.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x8_S10000x8_1_0_0_1_n_n_wf : DotDims.WF S10000x128 S128x8 S10000x8 [1] [0] [0] [1] [] []
  dot_S10000x10000_S10000x8_S10000x8_1_0_0_1_n_n_wf : DotDims.WF S10000x10000 S10000x8 S10000x8 [1] [0] [0] [1] [] []
  dot_S10000x48_S48x128_S10000x128_1_0_0_1_n_n_wf : DotDims.WF S10000x48 S48x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf
def dot_S10000x48_S48x128_S10000x128_1_0_0_1_n_n : DotDims S10000x48 S48x128 S10000x128 where
  lhsContracting := [1]
  rhsContracting := [0]
  lhsNonContracting := [0]
  rhsNonContracting := [1]
  lhsBatch := []
  rhsBatch := []
  wf := dot_S10000x48_S48x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.D0.lean ====
/-
  Region 0 of @main (the pallas_call of `cc0__proj_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.Kernel.Launch
import proofs.«122926_g88072599371920_cont_sun_m_806_20_alg».proof.Proof.Gen.Kernel.Skeleton
import proofs.«122926_g88072599371920_cont_sun_m_806_20_alg».proof.Proof.Gen.Kernel.Points
import Idealize.ShloMosaic.Lib.Pipeline.FrameBody

noncomputable section

namespace Cert.Kernel.Fr

open Idealize.ShloMosaic Idealize.ShloMosaic.TcCoe
open Idealize.SL Idealize.SL.RA Idealize.SL.BI Idealize.SL.Sem
open Idealize.ShloMosaic.Pipeline (Dat Cfg Window)
open Cert.Kernel Cert.Kernel.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Output window 3's buffer after the body: the whole block stored once, holding `k0_pay2` of the input blocks. -/
def out0_3 (x0 : Vec F S2000x128 .f32) (x1 : Vec F S128x48 .f32) (x2 : Vec F S1x48 .f32) : Vec F S2000x24 .f32 :=
  View.canon [⟨(Rect.unit (s := S2000x24) ![0, 0] S2000x24.size inb_S2000x24_S2000x24_0_0), k0_pay2 (View.ld x0 (Rect.unit (s := S2000x128) ![0, 0] S2000x128.size inb_S2000x128_S2000x128_0_0)) (View.ld x1 (Rect.unit (s := S128x48) ![0, 0] S128x48.size inb_S128x48_S128x48_0_0)) (View.ld x2 (Rect.unit (s := S1x48) ![0, 0] S1x48.size inb_S1x48_S1x48_0_0))⟩]

/-- Output window 4's buffer after the body: the whole block stored once, holding `k0_pay3` of the input blocks. -/
def out0_4 (x0 : Vec F S2000x128 .f32) (x1 : Vec F S128x48 .f32) (x2 : Vec F S1x48 .f32) : Vec F S2000x24 .f32 :=
  View.canon [⟨(Rect.unit (s := S2000x24) ![0, 0] S2000x24.size inb_S2000x24_S2000x24_0_0), k0_pay3 (View.ld x0 (Rect.unit (s := S2000x128) ![0, 0] S2000x128.size inb_S2000x128_S2000x128_0_0)) (View.ld x1 (Rect.unit (s := S128x48) ![0, 0] S128x48.size inb_S128x48_S128x48_0_0)) (View.ld x2 (Rect.unit (s := S1x48) ![0, 0] S1x48.size inb_S1x48_S1x48_0_0))⟩]

/-- The proof data of pipeline 0 on core `c`: the arrays as the region finds them; after the body each input's
    buffer still at its block and each output's at its stored block; the scoped rest and the generator register ride
    through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

end Cert.Kernel.Fr

end
-- ==== Proof.K.B0.lean ====
/-
  Region 0 of @main (the pallas_call of `cc0__proj_kernel`): the run of the kernel body.
  Windows 0, 1, 2 are inputs (a row block of the features, the whole projection matrix, the whole bias row);
  windows 3 and 4 are outputs (the two column halves of the projected row block). The body loads the three input
  blocks whole, forms the projection once, and stores each half whole into its output buffer; so after the body each
  input buffer is as found and each output buffer is the stored block of the region's definitions module.
-/
import proofs.«122926_g88072599371920_cont_sun_m_806_20_alg».proof.Proof.K.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle with a long axis is decided structurally, one step per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- Input window 0's current buffer holds the window's block at every grid point, whether or not the pipeline fetched it
    at that point (an unfetched point has the block index of the point before, and the body leaves the block in place);
    stated for any proof data whose array is `V`'s and whose body leaves the block as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same at this region's proof data. -/
theorem before0_0 (c : Dev nD) (t : Fin cfg0.N) (d) : (dat0 V c).before 0 t d = iblk0 V c 0 t :=
  before0_0_of V (dat0 V c) (A_eq0 V c 0) (after0_0 V c) t d

/-- Input window 1's current buffer holds the window's block at every grid point, whether or not the pipeline fetched it
    at that point (an unfetched point has the block index of the point before, and the body leaves the block in place);
    stated for any proof data whose array is `V`'s and whose body leaves the block as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same at this region's proof data. -/
theorem before0_1 (c : Dev nD) (t : Fin cfg0.N) (d) : (dat0 V c).before 1 t d = iblk0 V c 1 t :=
  before0_1_of V (dat0 V c) (A_eq0 V c 1) (after0_1 V c) t d

/-- Input window 2's current buffer holds the window's block at every grid point, whether or not the pipeline fetched it
    at that point (an unfetched point has the block index of the point before, and the body leaves the block in place);
    stated for any proof data whose array is `V`'s and whose body leaves the block as found. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same at this region's proof data. -/
theorem before0_2 (c : Dev nD) (t : Fin cfg0.N) (d) : (dat0 V c).before 2 t d = iblk0 V c 2 t :=
  before0_2_of V (dat0 V c) (A_eq0 V c 2) (after0_2 V c) t d

/-! ## The body's stores cover its output windows -/

/-- The one whole-block store into output window 3's buffer covers the buffer. -/
theorem cover0_3 (p0 : Vec F S2000x24 .f32) (y : S2000x24.Idx) :
    ∃ pc ∈ ([⟨(Rect.unit (s := S2000x24) ![0, 0] S2000x24.size inb_S2000x24_S2000x24_0_0), p0⟩] : List (View.Piece (Elt F) S2000x24 .f32)), y ∈ pc.1.set :=
  View.cover_of_tiled [⟨(Rect.unit (s := S2000x24) ![0, 0] S2000x24.size inb_S2000x24_S2000x24_0_0), p0⟩] S2000x24.size (by rfl) y

/-- The one whole-block store into output window 4's buffer covers the buffer. -/
theorem cover0_4 (p0 : Vec F S2000x24 .f32) (y : S2000x24.Idx) :
    ∃ pc ∈ ([⟨(Rect.unit (s := S2000x24) ![0, 0] S2000x24.size inb_S2000x24_S2000x24_0_0), p0⟩] : List (View.Piece (Elt F) S2000x24 .f32)), y ∈ pc.1.set :=
  View.cover_of_tiled [⟨(Rect.unit (s := S2000x24) ![0, 0] S2000x24.size inb_S2000x24_S2000x24_0_0), p0⟩] S2000x24.size (by rfl) y

/-! ## The body's run -/

set_option maxHeartbeats 1000000 in
/-- The kernel function of region 0 on whole buffers: with the three input buffers at read contents `x0 x1 x2` and the two output buffers at anything, it runs to the continuation holding the inputs as they were and each output at its one whole-block store (`out0_3`, `out0_4`) of the inputs. -/
theorem sound_kernel0 (c : Dev nD) (E : Set ℕ) (i : grid0.Coords) (a0 : Memref sig .tc .vmem S2000x128 .f32) (h0 : a0.IsWhole) (a1 : Memref sig .tc .vmem S128x48 .f32) (h1 : a1.IsWhole) (a2 : Memref sig .tc .vmem S1x48 .f32) (h2 : a2.IsWhole) (a3 : Memref sig .tc .vmem S2000x24 .f32) (h3 : a3.IsWhole) (a4 : Memref sig .tc .vmem S2000x24 .f32) (h4 : a4.IsWhole)
    (x0 : Vec F S2000x128 .f32) (x1 : Vec F S128x48 .f32) (x2 : Vec F S1x48 .f32) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) a4 fullShare d)
        ∗ (iprop(owns (c : Thread nD τ) a0 fullShare x0
            ∗ owns (c : Thread nD τ) a1 fullShare x1
            ∗ owns (c : Thread nD τ) a2 fullShare x2
            ∗ owns (c : Thread nD τ) a3 fullShare (out0_3 x0 x1 x2)
            ∗ owns (c : Thread nD τ) a4 fullShare (out0_4 x0 x1 x2)) -∗ K ⟨⟩))
      ⊢ wp frame (wpE (defs₀ (F := F)) Variants.none c none) E (cc0__proj_kernel i a0 h0 a1 h1 a2 h2 a3 h3 a4 h4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic grid point -/

/-- What the pipeline hands the body at point `t`: the invariant, what the core owes, and every window's current buffer
    at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body hands back: the same invariant and debt, and every window's buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any grid point: each input buffer holds its window's block there, so the kernel function's run applies; the
    invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.D1.lean ====
/-
  Region 1 of @main (the pallas_call of `cc1__level1_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.Kernel.Launch
import proofs.«122926_g88072599371920_cont_sun_m_806_20_alg».proof.Proof.Gen.Kernel.Skeleton
import proofs.«122926_g88072599371920_cont_sun_m_806_20_alg».proof.Proof.Gen.Kernel.Points
import Idealize.ShloMosaic.Lib.Pipeline.FrameBody

noncomputable section

namespace Cert.Kernel.Fr

open Idealize.ShloMosaic Idealize.ShloMosaic.TcCoe
open Idealize.SL Idealize.SL.RA Idealize.SL.BI Idealize.SL.Sem
open Idealize.ShloMosaic.Pipeline (Dat Cfg Window)
open Cert.Kernel Cert.Kernel.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Output window 4's buffer after the body: the whole block stored once, holding `k1_pay3` of the input blocks. -/
def out1_4 (x0 : Vec F S200x10000 .f32) (x2 : Vec F S10000x24 .f32) : Vec F S200x16 .f32 :=
  View.canon [⟨(Rect.unit (s := S200x16) ![0, 0] S200x16.size inb_S200x16_S200x16_0_0), k1_pay3 (View.ld x0 (Rect.unit (s := S200x10000) ![0, 0] S200x10000.size inb_S200x10000_S200x10000_0_0)) (View.ld x2 (Rect.unit (s := S10000x24) ![0, 0] S10000x24.size inb_S10000x24_S10000x24_0_0))⟩]

/-- Output window 5's buffer after the body: the whole block stored once, holding `k1_pay4` of the input blocks. -/
def out1_5 (x0 : Vec F S200x10000 .f32) (x2 : Vec F S10000x24 .f32) : Vec F S200x8 .f32 :=
  View.canon [⟨(Rect.unit (s := S200x8) ![0, 0] S200x8.size inb_S200x8_S200x8_0_0), k1_pay4 (View.ld x0 (Rect.unit (s := S200x10000) ![0, 0] S200x10000.size inb_S200x10000_S200x10000_0_0)) (View.ld x2 (Rect.unit (s := S10000x24) ![0, 0] S10000x24.size inb_S10000x24_S10000x24_0_0))⟩]

/-- Output window 6's buffer after the body: the whole block stored once, holding `k1_pay5` of the input blocks. -/
def out1_6 (x1 : Vec F S200x10000 .f32) (x3 : Vec F S10000x24 .f32) : Vec F S200x16 .f32 :=
  View.canon [⟨(Rect.unit (s := S200x16) ![0, 0] S200x16.size inb_S200x16_S200x16_0_0), k1_pay5 (View.ld x1 (Rect.unit (s := S200x10000) ![0, 0] S200x10000.size inb_S200x10000_S200x10000_0_0)) (View.ld x3 (Rect.unit (s := S10000x24) ![0, 0] S10000x24.size inb_S10000x24_S10000x24_0_0))⟩]

/-- Output window 7's buffer after the body: the whole block stored once, holding `k1_pay6` of the input blocks. -/
def out1_7 (x1 : Vec F S200x10000 .f32) (x3 : Vec F S10000x24 .f32) : Vec F S200x8 .f32 :=
  View.canon [⟨(Rect.unit (s := S200x8) ![0, 0] S200x8.size inb_S200x8_S200x8_0_0), k1_pay6 (View.ld x1 (Rect.unit (s := S200x10000) ![0, 0] S200x10000.size inb_S200x10000_S200x10000_0_0)) (View.ld x3 (Rect.unit (s := S10000x24) ![0, 0] S10000x24.size inb_S10000x24_S10000x24_0_0))⟩]

/-- Output window 8's buffer after the body: the whole block stored once, holding `k1_pay7` of the input blocks. -/
def out1_8 (x0 : Vec F S200x10000 .f32) : Vec F S200x10000 .bf16 :=
  View.canon [⟨(Rect.unit (s := S200x10000) ![0, 0] S200x10000.size inb_S200x10000_S200x10000_0_0), k1_pay7 (View.ld x0 (Rect.unit (s := S200x10000) ![0, 0] S200x10000.size inb_S200x10000_S200x10000_0_0))⟩]

/-- Output window 9's buffer after the body: the whole block stored once, holding `k1_pay8` of the input blocks. -/
def out1_9 (x1 : Vec F S200x10000 .f32) : Vec F S200x10000 .bf16 :=
  View.canon [⟨(Rect.unit (s := S200x10000) ![0, 0] S200x10000.size inb_S200x10000_S200x10000_0_0), k1_pay8 (View.ld x1 (Rect.unit (s := S200x10000) ![0, 0] S200x10000.size inb_S200x10000_S200x10000_0_0))⟩]

/-- The proof data of pipeline 1 on core `c`: the arrays as the region finds them; after the body each input's
    buffer still at its block and each output's at its stored block; the scoped rest and the generator register ride
    through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 2 t)
    | ⟨5, _⟩ => out1_5 (iblk1 V c 0 t) (iblk1 V c 2 t)
    | ⟨6, _⟩ => out1_6 (iblk1 V c 1 t) (iblk1 V c 3 t)
    | ⟨7, _⟩ => out1_7 (iblk1 V c 1 t) (iblk1 V c 3 t)
    | ⟨8, _⟩ => out1_8 (iblk1 V c 0 t)
    | ⟨9, _⟩ => out1_9 (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 2 t) := by dsimp only [dat1]
theorem after1_5 (c : Dev nD) (t : Fin cfg1.N) : (dat1 V c).after 5 t = out1_5 (iblk1 V c 0 t) (iblk1 V c 2 t) := by dsimp only [dat1]
theorem after1_6 (c : Dev nD) (t : Fin cfg1.N) : (dat1 V c).after 6 t = out1_6 (iblk1 V c 1 t) (iblk1 V c 3 t) := by dsimp only [dat1]
theorem after1_7 (c : Dev nD) (t : Fin cfg1.N) : (dat1 V c).after 7 t = out1_7 (iblk1 V c 1 t) (iblk1 V c 3 t) := by dsimp only [dat1]
theorem after1_8 (c : Dev nD) (t : Fin cfg1.N) : (dat1 V c).after 8 t = out1_8 (iblk1 V c 0 t) := by dsimp only [dat1]
theorem after1_9 (c : Dev nD) (t : Fin cfg1.N) : (dat1 V c).after 9 t = out1_9 (iblk1 V c 1 t) := by dsimp only [dat1]

end Cert.Kernel.Fr

end
-- ==== Proof.K.B1.lean ====
/-
  Region 1 of @main (the pallas_call of `cc1__level1_kernel`): the run of the kernel body.
  Windows 0 and 1 are inputs (a row block of each of the two square operators), windows 2 and 3 are inputs (the two
  projected feature arrays, whole); windows 4 to 9 are outputs: the leading and trailing column panels of each of the two
  products (windows 4, 5 and 6, 7), and the two operator row blocks rounded to the 16-bit float type (windows 8, 9).
  The body loads the four input blocks whole, forms the two products, and stores every output's whole block once; so
  after the body each input buffer is as found and each output buffer is the stored block of the region's definitions module.
-/
import proofs.«122926_g88072599371920_cont_sun_m_806_20_alg».proof.Proof.K.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle with a long axis is decided structurally, one step per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- Input window 0's current buffer holds the window's block at every grid point, whether or not the pipeline fetched it
    at that point (an unfetched point has the block index of the point before, and the body leaves the block in place);
    stated for any proof data whose array is `V`'s and whose body leaves the block as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_0 (c : Dev nD) (t : Fin cfg1.N) (d) : (dat1 V c).before 0 t d = iblk1 V c 0 t :=
  before1_0_of V (dat1 V c) (A_eq1 V c 0) (after1_0 V c) t d

/-- Input window 1's current buffer holds the window's block at every grid point, whether or not the pipeline fetched it
    at that point (an unfetched point has the block index of the point before, and the body leaves the block in place);
    stated for any proof data whose array is `V`'s and whose body leaves the block as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_1 (c : Dev nD) (t : Fin cfg1.N) (d) : (dat1 V c).before 1 t d = iblk1 V c 1 t :=
  before1_1_of V (dat1 V c) (A_eq1 V c 1) (after1_1 V c) t d

/-- Input window 2's current buffer holds the window's block at every grid point, whether or not the pipeline fetched it
    at that point (an unfetched point has the block index of the point before, and the body leaves the block in place);
    stated for any proof data whose array is `V`'s and whose body leaves the block as found. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_2 (c : Dev nD) (t : Fin cfg1.N) (d) : (dat1 V c).before 2 t d = iblk1 V c 2 t :=
  before1_2_of V (dat1 V c) (A_eq1 V c 2) (after1_2 V c) t d

/-- Input window 3's current buffer holds the window's block at every grid point, whether or not the pipeline fetched it
    at that point (an unfetched point has the block index of the point before, and the body leaves the block in place);
    stated for any proof data whose array is `V`'s and whose body leaves the block as found. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_3 (c : Dev nD) (t : Fin cfg1.N) (d) : (dat1 V c).before 3 t d = iblk1 V c 3 t :=
  before1_3_of V (dat1 V c) (A_eq1 V c 3) (after1_3 V c) t d

/-! ## The body's stores cover its output windows -/

/-- The one whole-block store into output window 4's buffer covers the buffer. -/
theorem cover1_4 (p0 : Vec F S200x16 .f32) (y : S200x16.Idx) :
    ∃ pc ∈ ([⟨(Rect.unit (s := S200x16) ![0, 0] S200x16.size inb_S200x16_S200x16_0_0), p0⟩] : List (View.Piece (Elt F) S200x16 .f32)), y ∈ pc.1.set :=
  View.cover_of_tiled [⟨(Rect.unit (s := S200x16) ![0, 0] S200x16.size inb_S200x16_S200x16_0_0), p0⟩] S200x16.size (by rfl) y

/-- The one whole-block store into output window 5's buffer covers the buffer. -/
theorem cover1_5 (p0 : Vec F S200x8 .f32) (y : S200x8.Idx) :
    ∃ pc ∈ ([⟨(Rect.unit (s := S200x8) ![0, 0] S200x8.size inb_S200x8_S200x8_0_0), p0⟩] : List (View.Piece (Elt F) S200x8 .f32)), y ∈ pc.1.set :=
  View.cover_of_tiled [⟨(Rect.unit (s := S200x8) ![0, 0] S200x8.size inb_S200x8_S200x8_0_0), p0⟩] S200x8.size (by rfl) y

/-- The one whole-block store into output window 6's buffer covers the buffer. -/
theorem cover1_6 (p0 : Vec F S200x16 .f32) (y : S200x16.Idx) :
    ∃ pc ∈ ([⟨(Rect.unit (s := S200x16) ![0, 0] S200x16.size inb_S200x16_S200x16_0_0), p0⟩] : List (View.Piece (Elt F) S200x16 .f32)), y ∈ pc.1.set :=
  View.cover_of_tiled [⟨(Rect.unit (s := S200x16) ![0, 0] S200x16.size inb_S200x16_S200x16_0_0), p0⟩] S200x16.size (by rfl) y

/-- The one whole-block store into output window 7's buffer covers the buffer. -/
theorem cover1_7 (p0 : Vec F S200x8 .f32) (y : S200x8.Idx) :
    ∃ pc ∈ ([⟨(Rect.unit (s := S200x8) ![0, 0] S200x8.size inb_S200x8_S200x8_0_0), p0⟩] : List (View.Piece (Elt F) S200x8 .f32)), y ∈ pc.1.set :=
  View.cover_of_tiled [⟨(Rect.unit (s := S200x8) ![0, 0] S200x8.size inb_S200x8_S200x8_0_0), p0⟩] S200x8.size (by rfl) y

/-- The one whole-block store into output window 8's buffer covers the buffer. -/
theorem cover1_8 (p0 : Vec F S200x10000 .bf16) (y : S200x10000.Idx) :
    ∃ pc ∈ ([⟨(Rect.unit (s := S200x10000) ![0, 0] S200x10000.size inb_S200x10000_S200x10000_0_0), p0⟩] : List (View.Piece (Elt F) S200x10000 .bf16)), y ∈ pc.1.set :=
  View.cover_of_tiled [⟨(Rect.unit (s := S200x10000) ![0, 0] S200x10000.size inb_S200x10000_S200x10000_0_0), p0⟩] S200x10000.size (by rfl) y

/-- The one whole-block store into output window 9's buffer covers the buffer. -/
theorem cover1_9 (p0 : Vec F S200x10000 .bf16) (y : S200x10000.Idx) :
    ∃ pc ∈ ([⟨(Rect.unit (s := S200x10000) ![0, 0] S200x10000.size inb_S200x10000_S200x10000_0_0), p0⟩] : List (View.Piece (Elt F) S200x10000 .bf16)), y ∈ pc.1.set :=
  View.cover_of_tiled [⟨(Rect.unit (s := S200x10000) ![0, 0] S200x10000.size inb_S200x10000_S200x10000_0_0), p0⟩] S200x10000.size (by rfl) y

/-! ## The body's run -/

set_option maxHeartbeats 1000000 in
/-- The kernel function of region 1 on whole buffers: with the four input buffers at read contents `x0 x1 x2 x3` and the six output buffers at anything, it runs to the continuation holding the inputs as they were and each output at its one whole-block store (`out1_4` … `out1_9`) of the inputs. -/
theorem sound_kernel1 (c : Dev nD) (E : Set ℕ) (i : grid1.Coords) (a0 : Memref sig .tc .vmem S200x10000 .f32) (h0 : a0.IsWhole) (a1 : Memref sig .tc .vmem S200x10000 .f32) (h1 : a1.IsWhole) (a2 : Memref sig .tc .vmem S10000x24 .f32) (h2 : a2.IsWhole) (a3 : Memref sig .tc .vmem S10000x24 .f32) (h3 : a3.IsWhole) (a4 : Memref sig .tc .vmem S200x16 .f32) (h4 : a4.IsWhole) (a5 : Memref sig .tc .vmem S200x8 .f32) (h5 : a5.IsWhole) (a6 : Memref sig .tc .vmem S200x16 .f32) (h6 : a6.IsWhole) (a7 : Memref sig .tc .vmem S200x8 .f32) (h7 : a7.IsWhole) (a8 : Memref sig .tc .vmem S200x10000 .bf16) (h8 : a8.IsWhole) (a9 : Memref sig .tc .vmem S200x10000 .bf16) (h9 : a9.IsWhole)
    (x0 : Vec F S200x10000 .f32) (x1 : Vec F S200x10000 .f32) (x2 : Vec F S10000x24 .f32) (x3 : Vec F S10000x24 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ (∃ d, owns (c : Thread nD τ) a4 fullShare d)
        ∗ (∃ d, owns (c : Thread nD τ) a5 fullShare d)
        ∗ (∃ d, owns (c : Thread nD τ) a6 fullShare d)
        ∗ (∃ d, owns (c : Thread nD τ) a7 fullShare d)
        ∗ (∃ d, owns (c : Thread nD τ) a8 fullShare d)
        ∗ (∃ d, owns (c : Thread nD τ) a9 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare (out1_4 x0 x2)
            ∗ owns (c : Thread nD τ) a5 fullShare (out1_5 x0 x2)
            ∗ owns (c : Thread nD τ) a6 fullShare (out1_6 x1 x3)
            ∗ owns (c : Thread nD τ) a7 fullShare (out1_7 x1 x3)
            ∗ owns (c : Thread nD τ) a8 fullShare (out1_8 x0)
            ∗ owns (c : Thread nD τ) a9 fullShare (out1_9 x1)) -∗ K ⟨⟩))
      ⊢ wp frame (wpE (defs₀ (F := F)) Variants.none c none) E (cc1__level1_kernel i a0 h0 a1 h1 a2 h2 a3 h3 a4 h4 a5 h5 a6 h6 a7 h7 a8 h8 a9 h9) K := by
  simp only [cc1__level1_kernel_eq_skeleton]; unfold cc1__level1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The body obligation, at a generic grid point -/

/-- What the pipeline hands the body at point `t`: the invariant, what the core owes, and every window's current buffer
    at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What the body hands back: the same invariant and debt, and every window's buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any grid point: each input buffer holds its window's block there, so the kernel function's run applies; the
    invariant and the debt are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.D2.lean ====
/-
  Region 2 of @main (the pallas_call of `cc2__level2_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.Kernel.Launch
import proofs.«122926_g88072599371920_cont_sun_m_806_20_alg».proof.Proof.Gen.Kernel.Skeleton
import proofs.«122926_g88072599371920_cont_sun_m_806_20_alg».proof.Proof.Gen.Kernel.Points
import Idealize.ShloMosaic.Lib.Pipeline.FrameBody

noncomputable section

namespace Cert.Kernel.Fr

open Idealize.ShloMosaic Idealize.ShloMosaic.TcCoe
open Idealize.SL Idealize.SL.RA Idealize.SL.BI Idealize.SL.Sem
open Idealize.ShloMosaic.Pipeline (Dat Cfg Window)
open Cert.Kernel Cert.Kernel.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Output window 4's buffer after the body: the whole block stored once, holding `k2_pay3` of the input blocks. -/
def out2_4 (x0 : Vec F S400x10000 .bf16) (x2 : Vec F S10000x16 .f32) : Vec F S400x8 .f32 :=
  View.canon [⟨(Rect.unit (s := S400x8) ![0, 0] S400x8.size inb_S400x8_S400x8_0_0), k2_pay3 (View.ld x0 (Rect.unit (s := S400x10000) ![0, 0] S400x10000.size inb_S400x10000_S400x10000_0_0)) (View.ld x2 (Rect.unit (s := S10000x16) ![0, 0] S10000x16.size inb_S10000x16_S10000x16_0_0))⟩]

/-- Output window 5's buffer after the body: the whole block stored once, holding `k2_pay4` of the input blocks. -/
def out2_5 (x0 : Vec F S400x10000 .bf16) (x2 : Vec F S10000x16 .f32) : Vec F S400x8 .f32 :=
  View.canon [⟨(Rect.unit (s := S400x8) ![0, 0] S400x8.size inb_S400x8_S400x8_0_0), k2_pay4 (View.ld x0 (Rect.unit (s := S400x10000) ![0, 0] S400x10000.size inb_S400x10000_S400x10000_0_0)) (View.ld x2 (Rect.unit (s := S10000x16) ![0, 0] S10000x16.size inb_S10000x16_S10000x16_0_0))⟩]

/-- Output window 6's buffer after the body: the whole block stored once, holding `k2_pay5` of the input blocks. -/
def out2_6 (x1 : Vec F S400x10000 .bf16) (x3 : Vec F S10000x16 .f32) : Vec F S400x8 .f32 :=
  View.canon [⟨(Rect.unit (s := S400x8) ![0, 0] S400x8.size inb_S400x8_S400x8_0_0), k2_pay5 (View.ld x1 (Rect.unit (s := S400x10000) ![0, 0] S400x10000.size inb_S400x10000_S400x10000_0_0)) (View.ld x3 (Rect.unit (s := S10000x16) ![0, 0] S10000x16.size inb_S10000x16_S10000x16_0_0))⟩]

/-- Output window 7's buffer after the body: the whole block stored once, holding `k2_pay6` of the input blocks. -/
def out2_7 (x1 : Vec F S400x10000 .bf16) (x3 : Vec F S10000x16 .f32) : Vec F S400x8 .f32 :=
  View.canon [⟨(Rect.unit (s := S400x8) ![0, 0] S400x8.size inb_S400x8_S400x8_0_0), k2_pay6 (View.ld x1 (Rect.unit (s := S400x10000) ![0, 0] S400x10000.size inb_S400x10000_S400x10000_0_0)) (View.ld x3 (Rect.unit (s := S10000x16) ![0, 0] S10000x16.size inb_S10000x16_S10000x16_0_0))⟩]

/-- The proof data of pipeline 2 on core `c`: the arrays as the region finds them; after the body each input's
    buffer still at its block and each output's at its stored block; the scoped rest and the generator register ride
    through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 2 t)
    | ⟨5, _⟩ => out2_5 (iblk2 V c 0 t) (iblk2 V c 2 t)
    | ⟨6, _⟩ => out2_6 (iblk2 V c 1 t) (iblk2 V c 3 t)
    | ⟨7, _⟩ => out2_7 (iblk2 V c 1 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 2 t) := by dsimp only [dat2]
theorem after2_5 (c : Dev nD) (t : Fin cfg2.N) : (dat2 V c).after 5 t = out2_5 (iblk2 V c 0 t) (iblk2 V c 2 t) := by dsimp only [dat2]
theorem after2_6 (c : Dev nD) (t : Fin cfg2.N) : (dat2 V c).after 6 t = out2_6 (iblk2 V c 1 t) (iblk2 V c 3 t) := by dsimp only [dat2]
theorem after2_7 (c : Dev nD) (t : Fin cfg2.N) : (dat2 V c).after 7 t = out2_7 (iblk2 V c 1 t) (iblk2 V c 3 t) := by dsimp only [dat2]

end Cert.Kernel.Fr

end
-- ==== Proof.K.B2.lean ====
/-
  Region 2 of @main (the pallas_call of `cc2__level2_kernel`): the run of the kernel body.
  Windows 0 and 1 are inputs (a row block of each of the two operators in the 16-bit float type), windows 2 and 3 are
  inputs (the two continuing feature arrays of the level before, whole); windows 4 to 7 are outputs: the leading and
  trailing column panels of each of the two products. The body loads the four input blocks whole, forms the two
  products, and stores every output's whole block once; so after the body each input buffer is as found and each output
  buffer is the stored block of the region's definitions module.
-/
import proofs.«122926_g88072599371920_cont_sun_m_806_20_alg».proof.Proof.K.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle with a long axis is decided structurally, one step per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- Input window 0's current buffer holds the window's block at every grid point, whether or not the pipeline fetched it
    at that point (an unfetched point has the block index of the point before, and the body leaves the block in place);
    stated for any proof data whose array is `V`'s and whose body leaves the block as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_0 (c : Dev nD) (t : Fin cfg2.N) (d) : (dat2 V c).before 0 t d = iblk2 V c 0 t :=
  before2_0_of V (dat2 V c) (A_eq2 V c 0) (after2_0 V c) t d

/-- Input window 1's current buffer holds the window's block at every grid point, whether or not the pipeline fetched it
    at that point (an unfetched point has the block index of the point before, and the body leaves the block in place);
    stated for any proof data whose array is `V`'s and whose body leaves the block as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_1 (c : Dev nD) (t : Fin cfg2.N) (d) : (dat2 V c).before 1 t d = iblk2 V c 1 t :=
  before2_1_of V (dat2 V c) (A_eq2 V c 1) (after2_1 V c) t d

/-- Input window 2's current buffer holds the window's block at every grid point, whether or not the pipeline fetched it
    at that point (an unfetched point has the block index of the point before, and the body leaves the block in place);
    stated for any proof data whose array is `V`'s and whose body leaves the block as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_2 (c : Dev nD) (t : Fin cfg2.N) (d) : (dat2 V c).before 2 t d = iblk2 V c 2 t :=
  before2_2_of V (dat2 V c) (A_eq2 V c 2) (after2_2 V c) t d

/-- Input window 3's current buffer holds the window's block at every grid point, whether or not the pipeline fetched it
    at that point (an unfetched point has the block index of the point before, and the body leaves the block in place);
    stated for any proof data whose array is `V`'s and whose body leaves the block as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_3 (c : Dev nD) (t : Fin cfg2.N) (d) : (dat2 V c).before 3 t d = iblk2 V c 3 t :=
  before2_3_of V (dat2 V c) (A_eq2 V c 3) (after2_3 V c) t d

/-! ## The body's stores cover its output windows -/

/-- The one whole-block store into output window 4's buffer covers the buffer. -/
theorem cover2_4 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-- The one whole-block store into output window 5's buffer covers the buffer. -/
theorem cover2_5 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-- The one whole-block store into output window 6's buffer covers the buffer. -/
theorem cover2_6 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-- The one whole-block store into output window 7's buffer covers the buffer. -/
theorem cover2_7 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-! ## The body's run -/

set_option maxHeartbeats 1000000 in
/-- The kernel function of region 2 on whole buffers: with the four input buffers at read contents `x0 x1 x2 x3` and the four output buffers at anything, it runs to the continuation holding the inputs as they were and each output at its one whole-block store (`out2_4` … `out2_7`) of the inputs. -/
theorem sound_kernel2 (c : Dev nD) (E : Set ℕ) (i : grid2.Coords) (a0 : Memref sig .tc .vmem S400x10000 .bf16) (h0 : a0.IsWhole) (a1 : Memref sig .tc .vmem S400x10000 .bf16) (h1 : a1.IsWhole) (a2 : Memref sig .tc .vmem S10000x16 .f32) (h2 : a2.IsWhole) (a3 : Memref sig .tc .vmem S10000x16 .f32) (h3 : a3.IsWhole) (a4 : Memref sig .tc .vmem S400x8 .f32) (h4 : a4.IsWhole) (a5 : Memref sig .tc .vmem S400x8 .f32) (h5 : a5.IsWhole) (a6 : Memref sig .tc .vmem S400x8 .f32) (h6 : a6.IsWhole) (a7 : Memref sig .tc .vmem S400x8 .f32) (h7 : a7.IsWhole)
    (x0 : Vec F S400x10000 .bf16) (x1 : Vec F S400x10000 .bf16) (x2 : Vec F S10000x16 .f32) (x3 : Vec F S10000x16 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ (∃ d, owns (c : Thread nD τ) a4 fullShare d)
        ∗ (∃ d, owns (c : Thread nD τ) a5 fullShare d)
        ∗ (∃ d, owns (c : Thread nD τ) a6 fullShare d)
        ∗ (∃ d, owns (c : Thread nD τ) a7 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare (out2_4 x0 x2)
            ∗ owns (c : Thread nD τ) a5 fullShare (out2_5 x0 x2)
            ∗ owns (c : Thread nD τ) a6 fullShare (out2_6 x1 x3)
            ∗ owns (c : Thread nD τ) a7 fullShare (out2_7 x1 x3)) -∗ K ⟨⟩))
      ⊢ wp frame (wpE (defs₀ (F := F)) Variants.none c none) E (cc2__level2_kernel i a0 h0 a1 h1 a2 h2 a3 h3 a4 h4 a5 h5 a6 h6 a7 h7) K := by
  simp only [cc2__level2_kernel_eq_skeleton]; unfold cc2__level2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The body obligation, at a generic grid point -/

/-- What the pipeline hands the body at point `t`: the invariant, what the core owes, and every window's current buffer
    at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What the body hands back: the same invariant and debt, and every window's buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any grid point: each input buffer holds its window's block there, so the kernel function's run applies; the
    invariant and the debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.D3.lean ====
/-
  Region 3 of @main (the pallas_call of `cc3__level3_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.Kernel.Launch
import proofs.«122926_g88072599371920_cont_sun_m_806_20_alg».proof.Proof.Gen.Kernel.Skeleton
import proofs.«122926_g88072599371920_cont_sun_m_806_20_alg».proof.Proof.Gen.Kernel.Points
import Idealize.ShloMosaic.Lib.Pipeline.FrameBody

noncomputable section

namespace Cert.Kernel.Fr

open Idealize.ShloMosaic Idealize.ShloMosaic.TcCoe
open Idealize.SL Idealize.SL.RA Idealize.SL.BI Idealize.SL.Sem
open Idealize.ShloMosaic.Pipeline (Dat Cfg Window)
open Cert.Kernel Cert.Kernel.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Output window 10's buffer after the body: the whole block stored once, holding `k3_pay1` of the input blocks. -/
def out3_10 (x0 : Vec F S400x10000 .bf16) (x2 : Vec F S10000x8 .f32) (x1 : Vec F S400x10000 .bf16) (x3 : Vec F S10000x8 .f32) (x4 : Vec F S400x8 .f32) (x5 : Vec F S400x8 .f32) (x6 : Vec F S400x8 .f32) (x7 : Vec F S400x8 .f32) (x8 : Vec F S48x128 .f32) (x9 : Vec F S1x128 .f32) : Vec F S400x128 .f32 :=
  View.canon [⟨(Rect.unit (s := S400x128) ![0, 0] S400x128.size inb_S400x128_S400x128_0_0), k3_pay1 (View.ld x0 (Rect.unit (s := S400x10000) ![0, 0] S400x10000.size inb_S400x10000_S400x10000_0_0)) (View.ld x2 (Rect.unit (s := S10000x8) ![0, 0] S10000x8.size inb_S10000x8_S10000x8_0_0)) (View.ld x1 (Rect.unit (s := S400x10000) ![0, 0] S400x10000.size inb_S400x10000_S400x10000_0_0)) (View.ld x3 (Rect.unit (s := S10000x8) ![0, 0] S10000x8.size inb_S10000x8_S10000x8_0_0)) (View.ld x4 (Rect.unit (s := S400x8) ![0, 0] S400x8.size inb_S400x8_S400x8_0_0)) (View.ld x5 (Rect.unit (s := S400x8) ![0, 0] S400x8.size inb_S400x8_S400x8_0_0)) (View.ld x6 (Rect.unit (s := S400x8) ![0, 0] S400x8.size inb_S400x8_S400x8_0_0)) (View.ld x7 (Rect.unit (s := S400x8) ![0, 0] S400x8.size inb_S400x8_S400x8_0_0)) (View.ld x8 (Rect.unit (s := S48x128) ![0, 0] S48x128.size inb_S48x128_S48x128_0_0)) (View.ld x9 (Rect.unit (s := S1x128) ![0, 0] S1x128.size inb_S1x128_S1x128_0_0))⟩]

/-- The proof data of pipeline 3 on core `c`: the arrays as the region finds them; after the body each input's
    buffer still at its block and each output's at its stored block; the scoped rest and the generator register ride
    through untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 2 t) (iblk3 V c 1 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 2 t) (iblk3 V c 1 t) (iblk3 V c 3 t) (iblk3 V c 4 t) (iblk3 V c 5 t) (iblk3 V c 6 t) (iblk3 V c 7 t) (iblk3 V c 8 t) (iblk3 V c 9 t) := by dsimp only [dat3]

end Cert.Kernel.Fr

end
-- ==== Proof.K.B3.lean ====
/-
  Region 3 of @main (the call of `cc3__level3_kernel`): the run of the kernel body at a grid point.
  Windows 0 and 1 (400-row panels of the two bf16 operators), 4–7 (400-row panels of the four finished 8-wide channel
  arrays) are inputs with a new block at every point; windows 2, 3 (the two 10000x8 feature arrays), 8 (the 48x128
  head matrix) and 9 (its 1x128 bias) are inputs with one block for the whole grid; window 10 (the 400x128 output
  panel) is the output. The body reads every input block whole, forms the two third-level products (the second under
  absolute value), lays the six 8-wide channels side by side, clamps at zero, multiplies by the head matrix, adds the
  bias, and stores the result once over the whole output block. Proved here: each input's staging buffer holds its
  block at every point; the one store covers the output block; the body, run on whole staging buffers, leaves the
  inputs as they were and the output at `out3_10` of them; hence the pipeline's body obligation for `dat3`.
-/
import proofs.«122926_g88072599371920_cont_sun_m_806_20_alg».proof.Proof.K.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of these extents recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (the first operator's row panel, a new block at every point): its current staging buffer holds
    the block of the point, for any proof data over the arrays `V` whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the second operator's row panel, a new block at every point): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the first feature array, one block for the whole grid, brought in at the first point only): its
    staging buffer still holds that block at every later point, since its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the second feature array, one block for the whole grid): the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (a finished channel's row panel, a new block at every point): its buffer holds the point's block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 (a finished channel's row panel, a new block at every point): its buffer holds the point's block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 (a finished channel's row panel, a new block at every point): its buffer holds the point's block. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7 (a finished channel's row panel, a new block at every point): its buffer holds the point's block. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8 (the head matrix, one block for the whole grid): its buffer holds that block at every point. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9 (the head bias, one block for the whole grid): its buffer holds that block at every point. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The same at this region's proof data `dat3`: every input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## Each store covers its output block -/

/-- The body's one store into window 10 is over the whole 400x128 block, so every index of the block lies in it. -/
theorem cover3_10 (p0 : Vec F S400x128 .f32) (y : S400x128.Idx) :
    ∃ pc ∈ ([⟨Rect.unit (s := S400x128) ![0, 0] S400x128.size inb_S400x128_S400x128_0_0, p0⟩] : List (View.Piece (Elt F) S400x128 .f32)), y ∈ pc.1.set :=
  View.cover_of_tiled [⟨Rect.unit (s := S400x128) ![0, 0] S400x128.size inb_S400x128_S400x128_0_0, p0⟩] S400x128.size (by rfl) y

/-! ## The body's run -/

set_option maxHeartbeats 1000000 in
/-- The kernel body on whole staging buffers — the inputs' reading `x0` … `x9`, the output's holding anything — runs
    to a state where the inputs' are unchanged and the output's reads `out3_10` of them: the value its first part
    computes from the ten loaded blocks, stored over the whole block. -/
theorem sound_kernel3 (c : Dev nD) (E : Set ℕ) (i : grid3.Coords) (arg0 : Memref sig .tc .vmem S400x10000 .bf16) (harg0 : arg0.IsWhole) (arg1 : Memref sig .tc .vmem S400x10000 .bf16) (harg1 : arg1.IsWhole) (arg2 : Memref sig .tc .vmem S10000x8 .f32) (harg2 : arg2.IsWhole) (arg3 : Memref sig .tc .vmem S10000x8 .f32) (harg3 : arg3.IsWhole) (arg4 : Memref sig .tc .vmem S400x8 .f32) (harg4 : arg4.IsWhole) (arg5 : Memref sig .tc .vmem S400x8 .f32) (harg5 : arg5.IsWhole) (arg6 : Memref sig .tc .vmem S400x8 .f32) (harg6 : arg6.IsWhole) (arg7 : Memref sig .tc .vmem S400x8 .f32) (harg7 : arg7.IsWhole) (arg8 : Memref sig .tc .vmem S48x128 .f32) (harg8 : arg8.IsWhole) (arg9 : Memref sig .tc .vmem S1x128 .f32) (harg9 : arg9.IsWhole) (arg10 : Memref sig .tc .vmem S400x128 .f32) (harg10 : arg10.IsWhole)
    (x0 : Vec F S400x10000 .bf16) (x1 : Vec F S400x10000 .bf16) (x2 : Vec F S10000x8 .f32) (x3 : Vec F S10000x8 .f32) (x4 : Vec F S400x8 .f32) (x5 : Vec F S400x8 .f32) (x6 : Vec F S400x8 .f32) (x7 : Vec F S400x8 .f32) (x8 : Vec F S48x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out3_10 x0 x2 x1 x3 x4 x5 x6 x7 x8 x9)) -∗ K ⟨⟩))
      ⊢ wp frame (wpE (defs₀ (F := F)) Variants.none c none) E (cc3__level3_kernel i arg0 harg0 arg1 harg1 arg2 harg2 arg3 harg3 arg4 harg4 arg5 harg5 arg6 harg6 arg7 harg7 arg8 harg8 arg9 harg9 arg10 harg10) K := by
  simp only [cc3__level3_kernel_eq_skeleton]; unfold cc3__level3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover3_10 _)

/-! ## The body obligation -/

/-- What the body is handed at point `t`: the invariant, the core's debts, and each window's current staging buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- What it hands back: the same, each buffer at what the proof data say the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the inputs' buffers hold their blocks, so the body's run applies; the invariant and the
    debts are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation for `dat3`, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.D4.lean ====
/-
  Region 4 of @main (the pallas_call of `cc4__final_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.Kernel.Launch
import proofs.«122926_g88072599371920_cont_sun_m_806_20_alg».proof.Proof.Gen.Kernel.Skeleton
import proofs.«122926_g88072599371920_cont_sun_m_806_20_alg».proof.Proof.Gen.Kernel.Points
import Idealize.ShloMosaic.Lib.Pipeline.FrameBody

noncomputable section

namespace Cert.Kernel.Fr

open Idealize.ShloMosaic Idealize.ShloMosaic.TcCoe
open Idealize.SL Idealize.SL.RA Idealize.SL.BI Idealize.SL.Sem
open Idealize.ShloMosaic.Pipeline (Dat Cfg Window)
open Cert.Kernel Cert.Kernel.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Output window 2's buffer after the body: the whole block stored once, holding `k4_pay1` of the input blocks. -/
def out4_2 (x0 : Vec F S1000x10000 .bf16) (x1 : Vec F S10000x128 .f32) : Vec F S1000x128 .f32 :=
  View.canon [⟨(Rect.unit (s := S1000x128) ![0, 0] S1000x128.size inb_S1000x128_S1000x128_0_0), k4_pay1 (View.ld x0 (Rect.unit (s := S1000x10000) ![0, 0] S1000x10000.size inb_S1000x10000_S1000x10000_0_0)) (View.ld x1 (Rect.unit (s := S10000x128) ![0, 0] S10000x128.size inb_S10000x128_S10000x128_0_0))⟩]

/-- The proof data of pipeline 4 on core `c`: the arrays as the region finds them; after the body each input's
    buffer still at its block and each output's at its stored block; the scoped rest and the generator register ride
    through untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

end Cert.Kernel.Fr

end
-- ==== Proof.K.B4.lean ====
/-
  Region 4 of @main (the call of `cc4__final_kernel`): the run of the kernel body at a grid point.
  Windows 0 (a 1000-row panel of the bf16 operator) and 1 (the whole 10000x128 feature array) are inputs; window 2
  (the 1000x128 output panel) is the output. The body reads both input blocks whole, rounds the features to bf16,
  multiplies, and stores the product once over the whole output block. Proved here: each input's staging buffer holds
  its block at every point; the one store covers the output block; the body, run on whole staging buffers, leaves the
  inputs as they were and the output at `out4_2` of them; hence the pipeline's body obligation for `dat4`.
-/
import proofs.«122926_g88072599371920_cont_sun_m_806_20_alg».proof.Proof.K.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of these extents recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (the operator's row panel, a new block at every point): its current staging buffer holds the
    block of the point, for any proof data over the arrays `V` whose body leaves that block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the feature array, one block for the whole grid, brought in at the first point only): its
    staging buffer still holds that block at every later point, since its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same at this region's proof data `dat4`: every input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## Each store covers its output block -/

/-- The body's one store into window 2 is over the whole 1000x128 block, so every index of the block lies in it. -/
theorem cover4_2 (p0 : Vec F S1000x128 .f32) (y : S1000x128.Idx) :
    ∃ pc ∈ ([⟨Rect.unit (s := S1000x128) ![0, 0] S1000x128.size inb_S1000x128_S1000x128_0_0, p0⟩] : List (View.Piece (Elt F) S1000x128 .f32)), y ∈ pc.1.set :=
  View.cover_of_tiled [⟨Rect.unit (s := S1000x128) ![0, 0] S1000x128.size inb_S1000x128_S1000x128_0_0, p0⟩] S1000x128.size (by rfl) y

/-! ## The body's run -/

set_option maxHeartbeats 1000000 in
/-- The kernel body on whole staging buffers — the inputs' reading `x0`, `x1`, the output's holding anything — runs to
    a state where the inputs' are unchanged and the output's reads `out4_2 x0 x1`: the product stored over the whole block. -/
theorem sound_kernel4 (c : Dev nD) (E : Set ℕ) (i : grid4.Coords) (arg0 : Memref sig .tc .vmem S1000x10000 .bf16) (harg0 : arg0.IsWhole) (arg1 : Memref sig .tc .vmem S10000x128 .f32) (harg1 : arg1.IsWhole) (arg2 : Memref sig .tc .vmem S1000x128 .f32) (harg2 : arg2.IsWhole)
    (x0 : Vec F S1000x10000 .bf16) (x1 : Vec F S10000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__final_kernel i arg0 harg0 arg1 harg1 arg2 harg2) K := by
  simp only [cc4__final_kernel_eq_skeleton]; unfold cc4__final_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation -/

/-- What the body is handed at point `t`: the invariant, the core's debts, and each window's current staging buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- What it hands back: the same, each buffer at what the proof data say the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's run applies; the invariant and the
    debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for `dat4`, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Fold.lean ====
/-
  The buffer contents of a core at each segment boundary of @main, as a fold from the launch memory: the one stretch
  of host operations first, then the five regions back to back, each region's arrays left at what its write-backs
  fold to and every other buffer as the region found it.
-/
import proofs.«122926_g88072599371920_cont_sun_m_806_20_alg».proof.Proof.K.D0
import proofs.«122926_g88072599371920_cont_sun_m_806_20_alg».proof.Proof.K.D1
import proofs.«122926_g88072599371920_cont_sun_m_806_20_alg».proof.Proof.K.D2
import proofs.«122926_g88072599371920_cont_sun_m_806_20_alg».proof.Proof.K.D3
import proofs.«122926_g88072599371920_cont_sun_m_806_20_alg».proof.Proof.K.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, which region 2 is entered from). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents, which region 3 is entered from). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`). -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references (region 3's exit contents, which region 4 is entered from). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`). -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded), every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`). -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

end Cert.Kernel.Fr

end
-- ==== Proof.K.Run.lean ====
/-
  The run of @main over its six segments: the stretch of host operations, then the five regions entered one from
  the other's exit contents. Each region is a segment over the thread state "every unscoped buffer at the boundary's
  contents, the generator register at some state, nothing owed"; the five body obligations are hypotheses here. From
  the run: every unscoped buffer ends at the last boundary's contents, the seven argument arrays end as launched, and
  the result buffer ends at the fold's value.
-/
import proofs.«122926_g88072599371920_cont_sun_m_806_20_alg».proof.Proof.K.Fold

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
  (hb2 : ∀ (V : (c : Dev nD) → (b : Ref sig .tc) → Buf (Elt F) ((c : Thread nD τ).loc b)) (c : Dev nD),
    BodyObligation (dat2 (F := F) V c) (defs₀ (F := F)) Variants.none () Set.univ)
  (hb3 : ∀ (V : (c : Dev nD) → (b : Ref sig .tc) → Buf (Elt F) ((c : Thread nD τ).loc b)) (c : Dev nD),
    BodyObligation (dat3 (F := F) V c) (defs₀ (F := F)) Variants.none () Set.univ)
  (hb4 : ∀ (V : (c : Dev nD) → (b : Ref sig .tc) → Buf (Elt F) ((c : Thread nD τ).loc b)) (c : Dev nD),
    BodyObligation (dat4 (F := F) V c) (defs₀ (F := F)) Variants.none () Set.univ)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- REGION 0 over the thread state: entered from every unscoped buffer at `W1`, left at `W2`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W3`, left at `W4`. Its arrays split
    out of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W4`, left at `W5`. Its arrays split
    out of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W5`, left at `W6`. Its arrays split
    out of the unscoped buffers and put back at the exit contents; the generator register into the class invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1),
    .region (reg2 m ρ hb2),
    .region (reg3 m ρ hb3),
    .region (reg4 m ρ hb4) ]
include hb0 hb1 hb2 hb3 hb4 in
/-- @main IS the run of the segments: its chain of items, then the segments' run against that chain. -/
theorem main_run (c : Dev nD) : main (F := F) c = Pipeline.Seg.run (segs m ρ hb0 hb1 hb2 hb3 hb4) :=
  (main_chain c).trans (by chain_rfl)

include hb0 hb1 hb2 hb3 hb4 in
set_option backward.isDefEq.respectTransparency.types false in
/-- THE RUN: at the compiled mesh, from any memory with zero counters, every weakly fair execution of @main on the
    TensorCores terminates, nothing faulting, and in every final state every unscoped buffer of every core holds the
    last boundary's contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ hb0 hb1 hb2 hb3 hb4)
    (fun c Q => by rw [main_run m ρ hb0 hb1 hb2 hb3 hb4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## The arguments end as launched: no host operation and no region writes one (a region reads it through an
    input window or bypasses it), so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := (W5_arr m ρ c 8).trans (((dat3 (V4 m ρ) c).arrAt_in 8 rfl _).trans (A_eq3 (V4 m ρ) c 8))
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The frame claim and the result -/

include hb0 hb1 hb2 hb3 hb4 in
/-- THE FRAME: every weakly fair execution of @main on the TensorCores terminates, nothing faulting, and every final
    state has the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩)
    (run_all m ρ hb0 hb1 hb2 hb3 hb4)

include hb0 hb1 hb2 hb3 hb4 in
/-- THE RESULT: the same run, and in every final state the result buffer of every core holds the fold's value at it,
    beside the seven argument arrays as launched. -/
theorem run_result : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v32 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩)
    (run_all m ρ hb0 hb1 hb2 hb3 hb4)

end Cert.Kernel.Fr

end
-- ==== Proof.KI.D0.lean ====
/-
  Region 0 of @main (the pallas_call of `cc0__proj_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.KernelIdeal.Launch
import proofs.«122926_g88072599371920_cont_sun_m_806_20_alg».proof.Proof.Gen.KernelIdeal.Skeleton
import proofs.«122926_g88072599371920_cont_sun_m_806_20_alg».proof.Proof.Gen.KernelIdeal.Points
import Idealize.ShloMosaic.Lib.Pipeline.FrameBody

noncomputable section

namespace Cert.KernelIdeal.Fr

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Output window 3's buffer after the body: the whole block stored once, holding `k0_pay2` of the input blocks. -/
def out0_3 (x0 : Vec F S2000x128 .f32) (x1 : Vec F S128x48 .f32) (x2 : Vec F S1x48 .f32) : Vec F S2000x24 .f32 :=
  View.canon [⟨(Rect.unit (s := S2000x24) ![0, 0] S2000x24.size inb_S2000x24_S2000x24_0_0), k0_pay2 (View.ld x0 (Rect.unit (s := S2000x128) ![0, 0] S2000x128.size inb_S2000x128_S2000x128_0_0)) (View.ld x1 (Rect.unit (s := S128x48) ![0, 0] S128x48.size inb_S128x48_S128x48_0_0)) (View.ld x2 (Rect.unit (s := S1x48) ![0, 0] S1x48.size inb_S1x48_S1x48_0_0))⟩]

/-- Output window 4's buffer after the body: the whole block stored once, holding `k0_pay3` of the input blocks. -/
def out0_4 (x0 : Vec F S2000x128 .f32) (x1 : Vec F S128x48 .f32) (x2 : Vec F S1x48 .f32) : Vec F S2000x24 .f32 :=
  View.canon [⟨(Rect.unit (s := S2000x24) ![0, 0] S2000x24.size inb_S2000x24_S2000x24_0_0), k0_pay3 (View.ld x0 (Rect.unit (s := S2000x128) ![0, 0] S2000x128.size inb_S2000x128_S2000x128_0_0)) (View.ld x1 (Rect.unit (s := S128x48) ![0, 0] S128x48.size inb_S128x48_S128x48_0_0)) (View.ld x2 (Rect.unit (s := S1x48) ![0, 0] S1x48.size inb_S1x48_S1x48_0_0))⟩]

/-- The proof data of pipeline 0 on core `c`: the arrays as the region finds them; after the body each input's
    buffer still at its block and each output's at its stored block; the scoped rest and the generator register ride
    through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

end Cert.KernelIdeal.Fr

end
-- ==== Proof.KI.B0.lean ====
/-
  Region 0 of @main (the pallas_call of `cc0__proj_kernel`): the run of the kernel body.
  Windows 0, 1, 2 are inputs (a row block of the features, the whole projection matrix, the whole bias row);
  windows 3 and 4 are outputs (the two column halves of the projected row block). The body loads the three input
  blocks whole, forms the projection once, and stores each half whole into its output buffer; so after the body each
  input buffer is as found and each output buffer is the stored block of the region's definitions module.
-/
import proofs.«122926_g88072599371920_cont_sun_m_806_20_alg».proof.Proof.KI.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle with a long axis is decided structurally, one step per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- Input window 0's current buffer holds the window's block at every grid point, whether or not the pipeline fetched it
    at that point (an unfetched point has the block index of the point before, and the body leaves the block in place);
    stated for any proof data whose array is `V`'s and whose body leaves the block as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same at this region's proof data. -/
theorem before0_0 (c : Dev nD) (t : Fin cfg0.N) (d) : (dat0 V c).before 0 t d = iblk0 V c 0 t :=
  before0_0_of V (dat0 V c) (A_eq0 V c 0) (after0_0 V c) t d

/-- Input window 1's current buffer holds the window's block at every grid point, whether or not the pipeline fetched it
    at that point (an unfetched point has the block index of the point before, and the body leaves the block in place);
    stated for any proof data whose array is `V`'s and whose body leaves the block as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same at this region's proof data. -/
theorem before0_1 (c : Dev nD) (t : Fin cfg0.N) (d) : (dat0 V c).before 1 t d = iblk0 V c 1 t :=
  before0_1_of V (dat0 V c) (A_eq0 V c 1) (after0_1 V c) t d

/-- Input window 2's current buffer holds the window's block at every grid point, whether or not the pipeline fetched it
    at that point (an unfetched point has the block index of the point before, and the body leaves the block in place);
    stated for any proof data whose array is `V`'s and whose body leaves the block as found. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same at this region's proof data. -/
theorem before0_2 (c : Dev nD) (t : Fin cfg0.N) (d) : (dat0 V c).before 2 t d = iblk0 V c 2 t :=
  before0_2_of V (dat0 V c) (A_eq0 V c 2) (after0_2 V c) t d

/-! ## The body's stores cover its output windows -/

/-- The one whole-block store into output window 3's buffer covers the buffer. -/
theorem cover0_3 (p0 : Vec F S2000x24 .f32) (y : S2000x24.Idx) :
    ∃ pc ∈ ([⟨(Rect.unit (s := S2000x24) ![0, 0] S2000x24.size inb_S2000x24_S2000x24_0_0), p0⟩] : List (View.Piece (Elt F) S2000x24 .f32)), y ∈ pc.1.set :=
  View.cover_of_tiled [⟨(Rect.unit (s := S2000x24) ![0, 0] S2000x24.size inb_S2000x24_S2000x24_0_0), p0⟩] S2000x24.size (by rfl) y

/-- The one whole-block store into output window 4's buffer covers the buffer. -/
theorem cover0_4 (p0 : Vec F S2000x24 .f32) (y : S2000x24.Idx) :
    ∃ pc ∈ ([⟨(Rect.unit (s := S2000x24) ![0, 0] S2000x24.size inb_S2000x24_S2000x24_0_0), p0⟩] : List (View.Piece (Elt F) S2000x24 .f32)), y ∈ pc.1.set :=
  View.cover_of_tiled [⟨(Rect.unit (s := S2000x24) ![0, 0] S2000x24.size inb_S2000x24_S2000x24_0_0), p0⟩] S2000x24.size (by rfl) y

/-! ## The body's run -/

set_option maxHeartbeats 1000000 in
/-- The kernel function of region 0 on whole buffers: with the three input buffers at read contents `x0 x1 x2` and the two output buffers at anything, it runs to the continuation holding the inputs as they were and each output at its one whole-block store (`out0_3`, `out0_4`) of the inputs. -/
theorem sound_kernel0 (c : Dev nD) (E : Set ℕ) (i : grid0.Coords) (a0 : Memref sig .tc .vmem S2000x128 .f32) (h0 : a0.IsWhole) (a1 : Memref sig .tc .vmem S128x48 .f32) (h1 : a1.IsWhole) (a2 : Memref sig .tc .vmem S1x48 .f32) (h2 : a2.IsWhole) (a3 : Memref sig .tc .vmem S2000x24 .f32) (h3 : a3.IsWhole) (a4 : Memref sig .tc .vmem S2000x24 .f32) (h4 : a4.IsWhole)
    (x0 : Vec F S2000x128 .f32) (x1 : Vec F S128x48 .f32) (x2 : Vec F S1x48 .f32) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) a4 fullShare d)
        ∗ (iprop(owns (c : Thread nD τ) a0 fullShare x0
            ∗ owns (c : Thread nD τ) a1 fullShare x1
            ∗ owns (c : Thread nD τ) a2 fullShare x2
            ∗ owns (c : Thread nD τ) a3 fullShare (out0_3 x0 x1 x2)
            ∗ owns (c : Thread nD τ) a4 fullShare (out0_4 x0 x1 x2)) -∗ K ⟨⟩))
      ⊢ wp frame (wpE (defs₀ (F := F)) Variants.none c none) E (cc0__proj_kernel i a0 h0 a1 h1 a2 h2 a3 h3 a4 h4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic grid point -/

/-- What the pipeline hands the body at point `t`: the invariant, what the core owes, and every window's current buffer
    at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body hands back: the same invariant and debt, and every window's buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any grid point: each input buffer holds its window's block there, so the kernel function's run applies; the
    invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.D1.lean ====
/-
  Region 1 of @main (the pallas_call of `cc1__level1_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.KernelIdeal.Launch
import proofs.«122926_g88072599371920_cont_sun_m_806_20_alg».proof.Proof.Gen.KernelIdeal.Skeleton
import proofs.«122926_g88072599371920_cont_sun_m_806_20_alg».proof.Proof.Gen.KernelIdeal.Points
import Idealize.ShloMosaic.Lib.Pipeline.FrameBody

noncomputable section

namespace Cert.KernelIdeal.Fr

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Output window 4's buffer after the body: the whole block stored once, holding `k1_pay3` of the input blocks. -/
def out1_4 (x0 : Vec F S200x10000 .f32) (x2 : Vec F S10000x24 .f32) : Vec F S200x16 .f32 :=
  View.canon [⟨(Rect.unit (s := S200x16) ![0, 0] S200x16.size inb_S200x16_S200x16_0_0), k1_pay3 (View.ld x0 (Rect.unit (s := S200x10000) ![0, 0] S200x10000.size inb_S200x10000_S200x10000_0_0)) (View.ld x2 (Rect.unit (s := S10000x24) ![0, 0] S10000x24.size inb_S10000x24_S10000x24_0_0))⟩]

/-- Output window 5's buffer after the body: the whole block stored once, holding `k1_pay4` of the input blocks. -/
def out1_5 (x0 : Vec F S200x10000 .f32) (x2 : Vec F S10000x24 .f32) : Vec F S200x8 .f32 :=
  View.canon [⟨(Rect.unit (s := S200x8) ![0, 0] S200x8.size inb_S200x8_S200x8_0_0), k1_pay4 (View.ld x0 (Rect.unit (s := S200x10000) ![0, 0] S200x10000.size inb_S200x10000_S200x10000_0_0)) (View.ld x2 (Rect.unit (s := S10000x24) ![0, 0] S10000x24.size inb_S10000x24_S10000x24_0_0))⟩]

/-- Output window 6's buffer after the body: the whole block stored once, holding `k1_pay5` of the input blocks. -/
def out1_6 (x1 : Vec F S200x10000 .f32) (x3 : Vec F S10000x24 .f32) : Vec F S200x16 .f32 :=
  View.canon [⟨(Rect.unit (s := S200x16) ![0, 0] S200x16.size inb_S200x16_S200x16_0_0), k1_pay5 (View.ld x1 (Rect.unit (s := S200x10000) ![0, 0] S200x10000.size inb_S200x10000_S200x10000_0_0)) (View.ld x3 (Rect.unit (s := S10000x24) ![0, 0] S10000x24.size inb_S10000x24_S10000x24_0_0))⟩]

/-- Output window 7's buffer after the body: the whole block stored once, holding `k1_pay6` of the input blocks. -/
def out1_7 (x1 : Vec F S200x10000 .f32) (x3 : Vec F S10000x24 .f32) : Vec F S200x8 .f32 :=
  View.canon [⟨(Rect.unit (s := S200x8) ![0, 0] S200x8.size inb_S200x8_S200x8_0_0), k1_pay6 (View.ld x1 (Rect.unit (s := S200x10000) ![0, 0] S200x10000.size inb_S200x10000_S200x10000_0_0)) (View.ld x3 (Rect.unit (s := S10000x24) ![0, 0] S10000x24.size inb_S10000x24_S10000x24_0_0))⟩]

/-- Output window 8's buffer after the body: the whole block stored once, holding `k1_pay7` of the input blocks. -/
def out1_8 (x0 : Vec F S200x10000 .f32) : Vec F S200x10000 .bf16 :=
  View.canon [⟨(Rect.unit (s := S200x10000) ![0, 0] S200x10000.size inb_S200x10000_S200x10000_0_0), k1_pay7 (View.ld x0 (Rect.unit (s := S200x10000) ![0, 0] S200x10000.size inb_S200x10000_S200x10000_0_0))⟩]

/-- Output window 9's buffer after the body: the whole block stored once, holding `k1_pay8` of the input blocks. -/
def out1_9 (x1 : Vec F S200x10000 .f32) : Vec F S200x10000 .bf16 :=
  View.canon [⟨(Rect.unit (s := S200x10000) ![0, 0] S200x10000.size inb_S200x10000_S200x10000_0_0), k1_pay8 (View.ld x1 (Rect.unit (s := S200x10000) ![0, 0] S200x10000.size inb_S200x10000_S200x10000_0_0))⟩]

/-- The proof data of pipeline 1 on core `c`: the arrays as the region finds them; after the body each input's
    buffer still at its block and each output's at its stored block; the scoped rest and the generator register ride
    through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 2 t)
    | ⟨5, _⟩ => out1_5 (iblk1 V c 0 t) (iblk1 V c 2 t)
    | ⟨6, _⟩ => out1_6 (iblk1 V c 1 t) (iblk1 V c 3 t)
    | ⟨7, _⟩ => out1_7 (iblk1 V c 1 t) (iblk1 V c 3 t)
    | ⟨8, _⟩ => out1_8 (iblk1 V c 0 t)
    | ⟨9, _⟩ => out1_9 (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 2 t) := by dsimp only [dat1]
theorem after1_5 (c : Dev nD) (t : Fin cfg1.N) : (dat1 V c).after 5 t = out1_5 (iblk1 V c 0 t) (iblk1 V c 2 t) := by dsimp only [dat1]
theorem after1_6 (c : Dev nD) (t : Fin cfg1.N) : (dat1 V c).after 6 t = out1_6 (iblk1 V c 1 t) (iblk1 V c 3 t) := by dsimp only [dat1]
theorem after1_7 (c : Dev nD) (t : Fin cfg1.N) : (dat1 V c).after 7 t = out1_7 (iblk1 V c 1 t) (iblk1 V c 3 t) := by dsimp only [dat1]
theorem after1_8 (c : Dev nD) (t : Fin cfg1.N) : (dat1 V c).after 8 t = out1_8 (iblk1 V c 0 t) := by dsimp only [dat1]
theorem after1_9 (c : Dev nD) (t : Fin cfg1.N) : (dat1 V c).after 9 t = out1_9 (iblk1 V c 1 t) := by dsimp only [dat1]

end Cert.KernelIdeal.Fr

end
-- ==== Proof.KI.B1.lean ====
/-
  Region 1 of @main (the pallas_call of `cc1__level1_kernel`): the run of the kernel body.
  Windows 0 and 1 are inputs (a row block of each of the two square operators), windows 2 and 3 are inputs (the two
  projected feature arrays, whole); windows 4 to 9 are outputs: the leading and trailing column panels of each of the two
  products (windows 4, 5 and 6, 7), and the two operator row blocks rounded to the 16-bit float type (windows 8, 9).
  The body loads the four input blocks whole, forms the two products, and stores every output's whole block once; so
  after the body each input buffer is as found and each output buffer is the stored block of the region's definitions module.
-/
import proofs.«122926_g88072599371920_cont_sun_m_806_20_alg».proof.Proof.KI.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle with a long axis is decided structurally, one step per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- Input window 0's current buffer holds the window's block at every grid point, whether or not the pipeline fetched it
    at that point (an unfetched point has the block index of the point before, and the body leaves the block in place);
    stated for any proof data whose array is `V`'s and whose body leaves the block as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_0 (c : Dev nD) (t : Fin cfg1.N) (d) : (dat1 V c).before 0 t d = iblk1 V c 0 t :=
  before1_0_of V (dat1 V c) (A_eq1 V c 0) (after1_0 V c) t d

/-- Input window 1's current buffer holds the window's block at every grid point, whether or not the pipeline fetched it
    at that point (an unfetched point has the block index of the point before, and the body leaves the block in place);
    stated for any proof data whose array is `V`'s and whose body leaves the block as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_1 (c : Dev nD) (t : Fin cfg1.N) (d) : (dat1 V c).before 1 t d = iblk1 V c 1 t :=
  before1_1_of V (dat1 V c) (A_eq1 V c 1) (after1_1 V c) t d

/-- Input window 2's current buffer holds the window's block at every grid point, whether or not the pipeline fetched it
    at that point (an unfetched point has the block index of the point before, and the body leaves the block in place);
    stated for any proof data whose array is `V`'s and whose body leaves the block as found. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_2 (c : Dev nD) (t : Fin cfg1.N) (d) : (dat1 V c).before 2 t d = iblk1 V c 2 t :=
  before1_2_of V (dat1 V c) (A_eq1 V c 2) (after1_2 V c) t d

/-- Input window 3's current buffer holds the window's block at every grid point, whether or not the pipeline fetched it
    at that point (an unfetched point has the block index of the point before, and the body leaves the block in place);
    stated for any proof data whose array is `V`'s and whose body leaves the block as found. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same at this region's proof data. -/
theorem before1_3 (c : Dev nD) (t : Fin cfg1.N) (d) : (dat1 V c).before 3 t d = iblk1 V c 3 t :=
  before1_3_of V (dat1 V c) (A_eq1 V c 3) (after1_3 V c) t d

/-! ## The body's stores cover its output windows -/

/-- The one whole-block store into output window 4's buffer covers the buffer. -/
theorem cover1_4 (p0 : Vec F S200x16 .f32) (y : S200x16.Idx) :
    ∃ pc ∈ ([⟨(Rect.unit (s := S200x16) ![0, 0] S200x16.size inb_S200x16_S200x16_0_0), p0⟩] : List (View.Piece (Elt F) S200x16 .f32)), y ∈ pc.1.set :=
  View.cover_of_tiled [⟨(Rect.unit (s := S200x16) ![0, 0] S200x16.size inb_S200x16_S200x16_0_0), p0⟩] S200x16.size (by rfl) y

/-- The one whole-block store into output window 5's buffer covers the buffer. -/
theorem cover1_5 (p0 : Vec F S200x8 .f32) (y : S200x8.Idx) :
    ∃ pc ∈ ([⟨(Rect.unit (s := S200x8) ![0, 0] S200x8.size inb_S200x8_S200x8_0_0), p0⟩] : List (View.Piece (Elt F) S200x8 .f32)), y ∈ pc.1.set :=
  View.cover_of_tiled [⟨(Rect.unit (s := S200x8) ![0, 0] S200x8.size inb_S200x8_S200x8_0_0), p0⟩] S200x8.size (by rfl) y

/-- The one whole-block store into output window 6's buffer covers the buffer. -/
theorem cover1_6 (p0 : Vec F S200x16 .f32) (y : S200x16.Idx) :
    ∃ pc ∈ ([⟨(Rect.unit (s := S200x16) ![0, 0] S200x16.size inb_S200x16_S200x16_0_0), p0⟩] : List (View.Piece (Elt F) S200x16 .f32)), y ∈ pc.1.set :=
  View.cover_of_tiled [⟨(Rect.unit (s := S200x16) ![0, 0] S200x16.size inb_S200x16_S200x16_0_0), p0⟩] S200x16.size (by rfl) y

/-- The one whole-block store into output window 7's buffer covers the buffer. -/
theorem cover1_7 (p0 : Vec F S200x8 .f32) (y : S200x8.Idx) :
    ∃ pc ∈ ([⟨(Rect.unit (s := S200x8) ![0, 0] S200x8.size inb_S200x8_S200x8_0_0), p0⟩] : List (View.Piece (Elt F) S200x8 .f32)), y ∈ pc.1.set :=
  View.cover_of_tiled [⟨(Rect.unit (s := S200x8) ![0, 0] S200x8.size inb_S200x8_S200x8_0_0), p0⟩] S200x8.size (by rfl) y

/-- The one whole-block store into output window 8's buffer covers the buffer. -/
theorem cover1_8 (p0 : Vec F S200x10000 .bf16) (y : S200x10000.Idx) :
    ∃ pc ∈ ([⟨(Rect.unit (s := S200x10000) ![0, 0] S200x10000.size inb_S200x10000_S200x10000_0_0), p0⟩] : List (View.Piece (Elt F) S200x10000 .bf16)), y ∈ pc.1.set :=
  View.cover_of_tiled [⟨(Rect.unit (s := S200x10000) ![0, 0] S200x10000.size inb_S200x10000_S200x10000_0_0), p0⟩] S200x10000.size (by rfl) y

/-- The one whole-block store into output window 9's buffer covers the buffer. -/
theorem cover1_9 (p0 : Vec F S200x10000 .bf16) (y : S200x10000.Idx) :
    ∃ pc ∈ ([⟨(Rect.unit (s := S200x10000) ![0, 0] S200x10000.size inb_S200x10000_S200x10000_0_0), p0⟩] : List (View.Piece (Elt F) S200x10000 .bf16)), y ∈ pc.1.set :=
  View.cover_of_tiled [⟨(Rect.unit (s := S200x10000) ![0, 0] S200x10000.size inb_S200x10000_S200x10000_0_0), p0⟩] S200x10000.size (by rfl) y

/-! ## The body's run -/

set_option maxHeartbeats 1000000 in
/-- The kernel function of region 1 on whole buffers: with the four input buffers at read contents `x0 x1 x2 x3` and the six output buffers at anything, it runs to the continuation holding the inputs as they were and each output at its one whole-block store (`out1_4` … `out1_9`) of the inputs. -/
theorem sound_kernel1 (c : Dev nD) (E : Set ℕ) (i : grid1.Coords) (a0 : Memref sig .tc .vmem S200x10000 .f32) (h0 : a0.IsWhole) (a1 : Memref sig .tc .vmem S200x10000 .f32) (h1 : a1.IsWhole) (a2 : Memref sig .tc .vmem S10000x24 .f32) (h2 : a2.IsWhole) (a3 : Memref sig .tc .vmem S10000x24 .f32) (h3 : a3.IsWhole) (a4 : Memref sig .tc .vmem S200x16 .f32) (h4 : a4.IsWhole) (a5 : Memref sig .tc .vmem S200x8 .f32) (h5 : a5.IsWhole) (a6 : Memref sig .tc .vmem S200x16 .f32) (h6 : a6.IsWhole) (a7 : Memref sig .tc .vmem S200x8 .f32) (h7 : a7.IsWhole) (a8 : Memref sig .tc .vmem S200x10000 .bf16) (h8 : a8.IsWhole) (a9 : Memref sig .tc .vmem S200x10000 .bf16) (h9 : a9.IsWhole)
    (x0 : Vec F S200x10000 .f32) (x1 : Vec F S200x10000 .f32) (x2 : Vec F S10000x24 .f32) (x3 : Vec F S10000x24 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ (∃ d, owns (c : Thread nD τ) a4 fullShare d)
        ∗ (∃ d, owns (c : Thread nD τ) a5 fullShare d)
        ∗ (∃ d, owns (c : Thread nD τ) a6 fullShare d)
        ∗ (∃ d, owns (c : Thread nD τ) a7 fullShare d)
        ∗ (∃ d, owns (c : Thread nD τ) a8 fullShare d)
        ∗ (∃ d, owns (c : Thread nD τ) a9 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare (out1_4 x0 x2)
            ∗ owns (c : Thread nD τ) a5 fullShare (out1_5 x0 x2)
            ∗ owns (c : Thread nD τ) a6 fullShare (out1_6 x1 x3)
            ∗ owns (c : Thread nD τ) a7 fullShare (out1_7 x1 x3)
            ∗ owns (c : Thread nD τ) a8 fullShare (out1_8 x0)
            ∗ owns (c : Thread nD τ) a9 fullShare (out1_9 x1)) -∗ K ⟨⟩))
      ⊢ wp frame (wpE (defs₀ (F := F)) Variants.none c none) E (cc1__level1_kernel i a0 h0 a1 h1 a2 h2 a3 h3 a4 h4 a5 h5 a6 h6 a7 h7 a8 h8 a9 h9) K := by
  simp only [cc1__level1_kernel_eq_skeleton]; unfold cc1__level1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The body obligation, at a generic grid point -/

/-- What the pipeline hands the body at point `t`: the invariant, what the core owes, and every window's current buffer
    at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What the body hands back: the same invariant and debt, and every window's buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any grid point: each input buffer holds its window's block there, so the kernel function's run applies; the
    invariant and the debt are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.D2.lean ====
/-
  Region 2 of @main (the pallas_call of `cc2__level2_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.KernelIdeal.Launch
import proofs.«122926_g88072599371920_cont_sun_m_806_20_alg».proof.Proof.Gen.KernelIdeal.Skeleton
import proofs.«122926_g88072599371920_cont_sun_m_806_20_alg».proof.Proof.Gen.KernelIdeal.Points
import Idealize.ShloMosaic.Lib.Pipeline.FrameBody

noncomputable section

namespace Cert.KernelIdeal.Fr

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Output window 4's buffer after the body: the whole block stored once, holding `k2_pay3` of the input blocks. -/
def out2_4 (x0 : Vec F S400x10000 .bf16) (x2 : Vec F S10000x16 .f32) : Vec F S400x8 .f32 :=
  View.canon [⟨(Rect.unit (s := S400x8) ![0, 0] S400x8.size inb_S400x8_S400x8_0_0), k2_pay3 (View.ld x0 (Rect.unit (s := S400x10000) ![0, 0] S400x10000.size inb_S400x10000_S400x10000_0_0)) (View.ld x2 (Rect.unit (s := S10000x16) ![0, 0] S10000x16.size inb_S10000x16_S10000x16_0_0))⟩]

/-- Output window 5's buffer after the body: the whole block stored once, holding `k2_pay4` of the input blocks. -/
def out2_5 (x0 : Vec F S400x10000 .bf16) (x2 : Vec F S10000x16 .f32) : Vec F S400x8 .f32 :=
  View.canon [⟨(Rect.unit (s := S400x8) ![0, 0] S400x8.size inb_S400x8_S400x8_0_0), k2_pay4 (View.ld x0 (Rect.unit (s := S400x10000) ![0, 0] S400x10000.size inb_S400x10000_S400x10000_0_0)) (View.ld x2 (Rect.unit (s := S10000x16) ![0, 0] S10000x16.size inb_S10000x16_S10000x16_0_0))⟩]

/-- Output window 6's buffer after the body: the whole block stored once, holding `k2_pay5` of the input blocks. -/
def out2_6 (x1 : Vec F S400x10000 .bf16) (x3 : Vec F S10000x16 .f32) : Vec F S400x8 .f32 :=
  View.canon [⟨(Rect.unit (s := S400x8) ![0, 0] S400x8.size inb_S400x8_S400x8_0_0), k2_pay5 (View.ld x1 (Rect.unit (s := S400x10000) ![0, 0] S400x10000.size inb_S400x10000_S400x10000_0_0)) (View.ld x3 (Rect.unit (s := S10000x16) ![0, 0] S10000x16.size inb_S10000x16_S10000x16_0_0))⟩]

/-- Output window 7's buffer after the body: the whole block stored once, holding `k2_pay6` of the input blocks. -/
def out2_7 (x1 : Vec F S400x10000 .bf16) (x3 : Vec F S10000x16 .f32) : Vec F S400x8 .f32 :=
  View.canon [⟨(Rect.unit (s := S400x8) ![0, 0] S400x8.size inb_S400x8_S400x8_0_0), k2_pay6 (View.ld x1 (Rect.unit (s := S400x10000) ![0, 0] S400x10000.size inb_S400x10000_S400x10000_0_0)) (View.ld x3 (Rect.unit (s := S10000x16) ![0, 0] S10000x16.size inb_S10000x16_S10000x16_0_0))⟩]

/-- The proof data of pipeline 2 on core `c`: the arrays as the region finds them; after the body each input's
    buffer still at its block and each output's at its stored block; the scoped rest and the generator register ride
    through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 2 t)
    | ⟨5, _⟩ => out2_5 (iblk2 V c 0 t) (iblk2 V c 2 t)
    | ⟨6, _⟩ => out2_6 (iblk2 V c 1 t) (iblk2 V c 3 t)
    | ⟨7, _⟩ => out2_7 (iblk2 V c 1 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 2 t) := by dsimp only [dat2]
theorem after2_5 (c : Dev nD) (t : Fin cfg2.N) : (dat2 V c).after 5 t = out2_5 (iblk2 V c 0 t) (iblk2 V c 2 t) := by dsimp only [dat2]
theorem after2_6 (c : Dev nD) (t : Fin cfg2.N) : (dat2 V c).after 6 t = out2_6 (iblk2 V c 1 t) (iblk2 V c 3 t) := by dsimp only [dat2]
theorem after2_7 (c : Dev nD) (t : Fin cfg2.N) : (dat2 V c).after 7 t = out2_7 (iblk2 V c 1 t) (iblk2 V c 3 t) := by dsimp only [dat2]

end Cert.KernelIdeal.Fr

end
-- ==== Proof.KI.B2.lean ====
/-
  Region 2 of @main (the pallas_call of `cc2__level2_kernel`): the run of the kernel body.
  Windows 0 and 1 are inputs (a row block of each of the two operators in the 16-bit float type), windows 2 and 3 are
  inputs (the two continuing feature arrays of the level before, whole); windows 4 to 7 are outputs: the leading and
  trailing column panels of each of the two products. The body loads the four input blocks whole, forms the two
  products, and stores every output's whole block once; so after the body each input buffer is as found and each output
  buffer is the stored block of the region's definitions module.
-/
import proofs.«122926_g88072599371920_cont_sun_m_806_20_alg».proof.Proof.KI.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle with a long axis is decided structurally, one step per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- Input window 0's current buffer holds the window's block at every grid point, whether or not the pipeline fetched it
    at that point (an unfetched point has the block index of the point before, and the body leaves the block in place);
    stated for any proof data whose array is `V`'s and whose body leaves the block as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_0 (c : Dev nD) (t : Fin cfg2.N) (d) : (dat2 V c).before 0 t d = iblk2 V c 0 t :=
  before2_0_of V (dat2 V c) (A_eq2 V c 0) (after2_0 V c) t d

/-- Input window 1's current buffer holds the window's block at every grid point, whether or not the pipeline fetched it
    at that point (an unfetched point has the block index of the point before, and the body leaves the block in place);
    stated for any proof data whose array is `V`'s and whose body leaves the block as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_1 (c : Dev nD) (t : Fin cfg2.N) (d) : (dat2 V c).before 1 t d = iblk2 V c 1 t :=
  before2_1_of V (dat2 V c) (A_eq2 V c 1) (after2_1 V c) t d

/-- Input window 2's current buffer holds the window's block at every grid point, whether or not the pipeline fetched it
    at that point (an unfetched point has the block index of the point before, and the body leaves the block in place);
    stated for any proof data whose array is `V`'s and whose body leaves the block as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_2 (c : Dev nD) (t : Fin cfg2.N) (d) : (dat2 V c).before 2 t d = iblk2 V c 2 t :=
  before2_2_of V (dat2 V c) (A_eq2 V c 2) (after2_2 V c) t d

/-- Input window 3's current buffer holds the window's block at every grid point, whether or not the pipeline fetched it
    at that point (an unfetched point has the block index of the point before, and the body leaves the block in place);
    stated for any proof data whose array is `V`'s and whose body leaves the block as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The same at this region's proof data. -/
theorem before2_3 (c : Dev nD) (t : Fin cfg2.N) (d) : (dat2 V c).before 3 t d = iblk2 V c 3 t :=
  before2_3_of V (dat2 V c) (A_eq2 V c 3) (after2_3 V c) t d

/-! ## The body's stores cover its output windows -/

/-- The one whole-block store into output window 4's buffer covers the buffer. -/
theorem cover2_4 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-- The one whole-block store into output window 5's buffer covers the buffer. -/
theorem cover2_5 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-- The one whole-block store into output window 6's buffer covers the buffer. -/
theorem cover2_6 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-- The one whole-block store into output window 7's buffer covers the buffer. -/
theorem cover2_7 (p0 : Vec F S400x8 .f32) (y : S400x8.Idx) :
    ∃ pc ∈ ([⟨(Rect.unit (s := S400x8) ![0, 0] S400x8.size inb_S400x8_S400x8_0_0), p0⟩] : List (View.Piece (Elt F) S400x8 .f32)), y ∈ pc.1.set :=
  View.cover_of_tiled [⟨(Rect.unit (s := S400x8) ![0, 0] S400x8.size inb_S400x8_S400x8_0_0), p0⟩] S400x8.size (by rfl) y

/-! ## The body's run -/

set_option maxHeartbeats 1000000 in
/-- The kernel function of region 2 on whole buffers: with the four input buffers at read contents `x0 x1 x2 x3` and the four output buffers at anything, it runs to the continuation holding the inputs as they were and each output at its one whole-block store (`out2_4` … `out2_7`) of the inputs. -/
theorem sound_kernel2 (c : Dev nD) (E : Set ℕ) (i : grid2.Coords) (a0 : Memref sig .tc .vmem S400x10000 .bf16) (h0 : a0.IsWhole) (a1 : Memref sig .tc .vmem S400x10000 .bf16) (h1 : a1.IsWhole) (a2 : Memref sig .tc .vmem S10000x16 .f32) (h2 : a2.IsWhole) (a3 : Memref sig .tc .vmem S10000x16 .f32) (h3 : a3.IsWhole) (a4 : Memref sig .tc .vmem S400x8 .f32) (h4 : a4.IsWhole) (a5 : Memref sig .tc .vmem S400x8 .f32) (h5 : a5.IsWhole) (a6 : Memref sig .tc .vmem S400x8 .f32) (h6 : a6.IsWhole) (a7 : Memref sig .tc .vmem S400x8 .f32) (h7 : a7.IsWhole)
    (x0 : Vec F S400x10000 .bf16) (x1 : Vec F S400x10000 .bf16) (x2 : Vec F S10000x16 .f32) (x3 : Vec F S10000x16 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ (∃ d, owns (c : Thread nD τ) a4 fullShare d)
        ∗ (∃ d, owns (c : Thread nD τ) a5 fullShare d)
        ∗ (∃ d, owns (c : Thread nD τ) a6 fullShare d)
        ∗ (∃ d, owns (c : Thread nD τ) a7 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare (out2_4 x0 x2)
            ∗ owns (c : Thread nD τ) a5 fullShare (out2_5 x0 x2)
            ∗ owns (c : Thread nD τ) a6 fullShare (out2_6 x1 x3)
            ∗ owns (c : Thread nD τ) a7 fullShare (out2_7 x1 x3)) -∗ K ⟨⟩))
      ⊢ wp frame (wpE (defs₀ (F := F)) Variants.none c none) E (cc2__level2_kernel i a0 h0 a1 h1 a2 h2 a3 h3 a4 h4 a5 h5 a6 h6 a7 h7) K := by
  simp only [cc2__level2_kernel_eq_skeleton]; unfold cc2__level2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The body obligation, at a generic grid point -/

/-- What the pipeline hands the body at point `t`: the invariant, what the core owes, and every window's current buffer
    at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What the body hands back: the same invariant and debt, and every window's buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any grid point: each input buffer holds its window's block there, so the kernel function's run applies; the
    invariant and the debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.D3.lean ====
/-
  Region 3 of @main (the pallas_call of `cc3__level3_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.KernelIdeal.Launch
import proofs.«122926_g88072599371920_cont_sun_m_806_20_alg».proof.Proof.Gen.KernelIdeal.Skeleton
import proofs.«122926_g88072599371920_cont_sun_m_806_20_alg».proof.Proof.Gen.KernelIdeal.Points
import Idealize.ShloMosaic.Lib.Pipeline.FrameBody

noncomputable section

namespace Cert.KernelIdeal.Fr

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Output window 10's buffer after the body: the whole block stored once, holding `k3_pay1` of the input blocks. -/
def out3_10 (x0 : Vec F S400x10000 .bf16) (x2 : Vec F S10000x8 .f32) (x1 : Vec F S400x10000 .bf16) (x3 : Vec F S10000x8 .f32) (x4 : Vec F S400x8 .f32) (x5 : Vec F S400x8 .f32) (x6 : Vec F S400x8 .f32) (x7 : Vec F S400x8 .f32) (x8 : Vec F S48x128 .f32) (x9 : Vec F S1x128 .f32) : Vec F S400x128 .f32 :=
  View.canon [⟨(Rect.unit (s := S400x128) ![0, 0] S400x128.size inb_S400x128_S400x128_0_0), k3_pay1 (View.ld x0 (Rect.unit (s := S400x10000) ![0, 0] S400x10000.size inb_S400x10000_S400x10000_0_0)) (View.ld x2 (Rect.unit (s := S10000x8) ![0, 0] S10000x8.size inb_S10000x8_S10000x8_0_0)) (View.ld x1 (Rect.unit (s := S400x10000) ![0, 0] S400x10000.size inb_S400x10000_S400x10000_0_0)) (View.ld x3 (Rect.unit (s := S10000x8) ![0, 0] S10000x8.size inb_S10000x8_S10000x8_0_0)) (View.ld x4 (Rect.unit (s := S400x8) ![0, 0] S400x8.size inb_S400x8_S400x8_0_0)) (View.ld x5 (Rect.unit (s := S400x8) ![0, 0] S400x8.size inb_S400x8_S400x8_0_0)) (View.ld x6 (Rect.unit (s := S400x8) ![0, 0] S400x8.size inb_S400x8_S400x8_0_0)) (View.ld x7 (Rect.unit (s := S400x8) ![0, 0] S400x8.size inb_S400x8_S400x8_0_0)) (View.ld x8 (Rect.unit (s := S48x128) ![0, 0] S48x128.size inb_S48x128_S48x128_0_0)) (View.ld x9 (Rect.unit (s := S1x128) ![0, 0] S1x128.size inb_S1x128_S1x128_0_0))⟩]

/-- The proof data of pipeline 3 on core `c`: the arrays as the region finds them; after the body each input's
    buffer still at its block and each output's at its stored block; the scoped rest and the generator register ride
    through untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 2 t) (iblk3 V c 1 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 2 t) (iblk3 V c 1 t) (iblk3 V c 3 t) (iblk3 V c 4 t) (iblk3 V c 5 t) (iblk3 V c 6 t) (iblk3 V c 7 t) (iblk3 V c 8 t) (iblk3 V c 9 t) := by dsimp only [dat3]

end Cert.KernelIdeal.Fr

end
-- ==== Proof.KI.B3.lean ====
/-
  Region 3 of @main (the call of `cc3__level3_kernel`): the run of the kernel body at a grid point.
  Windows 0 and 1 (400-row panels of the two bf16 operators), 4–7 (400-row panels of the four finished 8-wide channel
  arrays) are inputs with a new block at every point; windows 2, 3 (the two 10000x8 feature arrays), 8 (the 48x128
  head matrix) and 9 (its 1x128 bias) are inputs with one block for the whole grid; window 10 (the 400x128 output
  panel) is the output. The body reads every input block whole, forms the two third-level products (the second under
  absolute value), lays the six 8-wide channels side by side, clamps at zero, multiplies by the head matrix, adds the
  bias, and stores the result once over the whole output block. Proved here: each input's staging buffer holds its
  block at every point; the one store covers the output block; the body, run on whole staging buffers, leaves the
  inputs as they were and the output at `out3_10` of them; hence the pipeline's body obligation for `dat3`.
-/
import proofs.«122926_g88072599371920_cont_sun_m_806_20_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of these extents recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (the first operator's row panel, a new block at every point): its current staging buffer holds
    the block of the point, for any proof data over the arrays `V` whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the second operator's row panel, a new block at every point): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the first feature array, one block for the whole grid, brought in at the first point only): its
    staging buffer still holds that block at every later point, since its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the second feature array, one block for the whole grid): the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (a finished channel's row panel, a new block at every point): its buffer holds the point's block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 (a finished channel's row panel, a new block at every point): its buffer holds the point's block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 (a finished channel's row panel, a new block at every point): its buffer holds the point's block. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7 (a finished channel's row panel, a new block at every point): its buffer holds the point's block. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8 (the head matrix, one block for the whole grid): its buffer holds that block at every point. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9 (the head bias, one block for the whole grid): its buffer holds that block at every point. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The same at this region's proof data `dat3`: every input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## Each store covers its output block -/

/-- The body's one store into window 10 is over the whole 400x128 block, so every index of the block lies in it. -/
theorem cover3_10 (p0 : Vec F S400x128 .f32) (y : S400x128.Idx) :
    ∃ pc ∈ ([⟨Rect.unit (s := S400x128) ![0, 0] S400x128.size inb_S400x128_S400x128_0_0, p0⟩] : List (View.Piece (Elt F) S400x128 .f32)), y ∈ pc.1.set :=
  View.cover_of_tiled [⟨Rect.unit (s := S400x128) ![0, 0] S400x128.size inb_S400x128_S400x128_0_0, p0⟩] S400x128.size (by rfl) y

/-! ## The body's run -/

set_option maxHeartbeats 1000000 in
/-- The kernel body on whole staging buffers — the inputs' reading `x0` … `x9`, the output's holding anything — runs
    to a state where the inputs' are unchanged and the output's reads `out3_10` of them: the value its first part
    computes from the ten loaded blocks, stored over the whole block. -/
theorem sound_kernel3 (c : Dev nD) (E : Set ℕ) (i : grid3.Coords) (arg0 : Memref sig .tc .vmem S400x10000 .bf16) (harg0 : arg0.IsWhole) (arg1 : Memref sig .tc .vmem S400x10000 .bf16) (harg1 : arg1.IsWhole) (arg2 : Memref sig .tc .vmem S10000x8 .f32) (harg2 : arg2.IsWhole) (arg3 : Memref sig .tc .vmem S10000x8 .f32) (harg3 : arg3.IsWhole) (arg4 : Memref sig .tc .vmem S400x8 .f32) (harg4 : arg4.IsWhole) (arg5 : Memref sig .tc .vmem S400x8 .f32) (harg5 : arg5.IsWhole) (arg6 : Memref sig .tc .vmem S400x8 .f32) (harg6 : arg6.IsWhole) (arg7 : Memref sig .tc .vmem S400x8 .f32) (harg7 : arg7.IsWhole) (arg8 : Memref sig .tc .vmem S48x128 .f32) (harg8 : arg8.IsWhole) (arg9 : Memref sig .tc .vmem S1x128 .f32) (harg9 : arg9.IsWhole) (arg10 : Memref sig .tc .vmem S400x128 .f32) (harg10 : arg10.IsWhole)
    (x0 : Vec F S400x10000 .bf16) (x1 : Vec F S400x10000 .bf16) (x2 : Vec F S10000x8 .f32) (x3 : Vec F S10000x8 .f32) (x4 : Vec F S400x8 .f32) (x5 : Vec F S400x8 .f32) (x6 : Vec F S400x8 .f32) (x7 : Vec F S400x8 .f32) (x8 : Vec F S48x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out3_10 x0 x2 x1 x3 x4 x5 x6 x7 x8 x9)) -∗ K ⟨⟩))
      ⊢ wp frame (wpE (defs₀ (F := F)) Variants.none c none) E (cc3__level3_kernel i arg0 harg0 arg1 harg1 arg2 harg2 arg3 harg3 arg4 harg4 arg5 harg5 arg6 harg6 arg7 harg7 arg8 harg8 arg9 harg9 arg10 harg10) K := by
  simp only [cc3__level3_kernel_eq_skeleton]; unfold cc3__level3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover3_10 _)

/-! ## The body obligation -/

/-- What the body is handed at point `t`: the invariant, the core's debts, and each window's current staging buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- What it hands back: the same, each buffer at what the proof data say the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the inputs' buffers hold their blocks, so the body's run applies; the invariant and the
    debts are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation for `dat3`, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.D4.lean ====
/-
  Region 4 of @main (the pallas_call of `cc4__final_kernel`), at the contents `V` its arrays hold when the region is entered:
  the block of each window at a grid point, what the body leaves in each output window's buffer as a function of the
  input blocks (its one whole-block store over the kernel's arithmetic), and the pipeline's proof data built from them.
  Definitions only; the body's run is proved beside this module, and the value lemmas read these definitions.
-/
import proofs.«122926_g88072599371920_cont_sun_m_806_20_alg».proof.Proof.Gen.KernelIdeal.Launch
import proofs.«122926_g88072599371920_cont_sun_m_806_20_alg».proof.Proof.Gen.KernelIdeal.Skeleton
import proofs.«122926_g88072599371920_cont_sun_m_806_20_alg».proof.Proof.Gen.KernelIdeal.Points
import Idealize.ShloMosaic.Lib.Pipeline.FrameBody

noncomputable section

namespace Cert.KernelIdeal.Fr

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Window `w`'s block at grid point `t`: the part of its array (as the region finds it) that the point works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Output window 2's buffer after the body: the whole block stored once, holding `k4_pay1` of the input blocks. -/
def out4_2 (x0 : Vec F S1000x10000 .bf16) (x1 : Vec F S10000x128 .f32) : Vec F S1000x128 .f32 :=
  View.canon [⟨(Rect.unit (s := S1000x128) ![0, 0] S1000x128.size inb_S1000x128_S1000x128_0_0), k4_pay1 (View.ld x0 (Rect.unit (s := S1000x10000) ![0, 0] S1000x10000.size inb_S1000x10000_S1000x10000_0_0)) (View.ld x1 (Rect.unit (s := S10000x128) ![0, 0] S10000x128.size inb_S10000x128_S10000x128_0_0))⟩]

/-- The proof data of pipeline 4 on core `c`: the arrays as the region finds them; after the body each input's
    buffer still at its block and each output's at its stored block; the scoped rest and the generator register ride
    through untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

end Cert.KernelIdeal.Fr

end
-- ==== Proof.KI.B4.lean ====
/-
  Region 4 of @main (the call of `cc4__final_kernel`): the run of the kernel body at a grid point.
  Windows 0 (a 1000-row panel of the bf16 operator) and 1 (the whole 10000x128 feature array) are inputs; window 2
  (the 1000x128 output panel) is the output. The body reads both input blocks whole, rounds the features to bf16,
  multiplies, and stores the product once over the whole output block. Proved here: each input's staging buffer holds
  its block at every point; the one store covers the output block; the body, run on whole staging buffers, leaves the
  inputs as they were and the output at `out4_2` of them; hence the pipeline's body obligation for `dat4`.
-/
import proofs.«122926_g88072599371920_cont_sun_m_806_20_alg».proof.Proof.KI.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of these extents recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (the operator's row panel, a new block at every point): its current staging buffer holds the
    block of the point, for any proof data over the arrays `V` whose body leaves that block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the feature array, one block for the whole grid, brought in at the first point only): its
    staging buffer still holds that block at every later point, since its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same at this region's proof data `dat4`: every input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## Each store covers its output block -/

/-- The body's one store into window 2 is over the whole 1000x128 block, so every index of the block lies in it. -/
theorem cover4_2 (p0 : Vec F S1000x128 .f32) (y : S1000x128.Idx) :
    ∃ pc ∈ ([⟨Rect.unit (s := S1000x128) ![0, 0] S1000x128.size inb_S1000x128_S1000x128_0_0, p0⟩] : List (View.Piece (Elt F) S1000x128 .f32)), y ∈ pc.1.set :=
  View.cover_of_tiled [⟨Rect.unit (s := S1000x128) ![0, 0] S1000x128.size inb_S1000x128_S1000x128_0_0, p0⟩] S1000x128.size (by rfl) y

/-! ## The body's run -/

set_option maxHeartbeats 1000000 in
/-- The kernel body on whole staging buffers — the inputs' reading `x0`, `x1`, the output's holding anything — runs to
    a state where the inputs' are unchanged and the output's reads `out4_2 x0 x1`: the product stored over the whole block. -/
theorem sound_kernel4 (c : Dev nD) (E : Set ℕ) (i : grid4.Coords) (arg0 : Memref sig .tc .vmem S1000x10000 .bf16) (harg0 : arg0.IsWhole) (arg1 : Memref sig .tc .vmem S10000x128 .f32) (harg1 : arg1.IsWhole) (arg2 : Memref sig .tc .vmem S1000x128 .f32) (harg2 : arg2.IsWhole)
    (x0 : Vec F S1000x10000 .bf16) (x1 : Vec F S10000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__final_kernel i arg0 harg0 arg1 harg1 arg2 harg2) K := by
  simp only [cc4__final_kernel_eq_skeleton]; unfold cc4__final_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation -/

/-- What the body is handed at point `t`: the invariant, the core's debts, and each window's current staging buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- What it hands back: the same, each buffer at what the proof data say the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's run applies; the invariant and the
    debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for `dat4`, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Fold.lean ====
/-
  The buffer contents of a core at each segment boundary of @main, as a fold from the launch memory: the one stretch
  of host operations first, then the five regions back to back, each region's arrays left at what its write-backs
  fold to and every other buffer as the region found it.
-/
import proofs.«122926_g88072599371920_cont_sun_m_806_20_alg».proof.Proof.KI.D0
import proofs.«122926_g88072599371920_cont_sun_m_806_20_alg».proof.Proof.KI.D1
import proofs.«122926_g88072599371920_cont_sun_m_806_20_alg».proof.Proof.KI.D2
import proofs.«122926_g88072599371920_cont_sun_m_806_20_alg».proof.Proof.KI.D3
import proofs.«122926_g88072599371920_cont_sun_m_806_20_alg».proof.Proof.KI.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, which region 2 is entered from). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents, which region 3 is entered from). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`). -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references (region 3's exit contents, which region 4 is entered from). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`). -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded), every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`). -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

end Cert.KernelIdeal.Fr

end
-- ==== Proof.KI.Run.lean ====
/-
  The run of @main over its six segments: the stretch of host operations, then the five regions entered one from
  the other's exit contents. Each region is a segment over the thread state "every unscoped buffer at the boundary's
  contents, the generator register at some state, nothing owed"; the five body obligations are hypotheses here. From
  the run: every unscoped buffer ends at the last boundary's contents, the seven argument arrays end as launched, and
  the result buffer ends at the fold's value.
-/
import proofs.«122926_g88072599371920_cont_sun_m_806_20_alg».proof.Proof.KI.Fold

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
  (hb2 : ∀ (V : (c : Dev nD) → (b : Ref sig .tc) → Buf (Elt F) ((c : Thread nD τ).loc b)) (c : Dev nD),
    BodyObligation (dat2 (F := F) V c) (defs₀ (F := F)) Variants.none () Set.univ)
  (hb3 : ∀ (V : (c : Dev nD) → (b : Ref sig .tc) → Buf (Elt F) ((c : Thread nD τ).loc b)) (c : Dev nD),
    BodyObligation (dat3 (F := F) V c) (defs₀ (F := F)) Variants.none () Set.univ)
  (hb4 : ∀ (V : (c : Dev nD) → (b : Ref sig .tc) → Buf (Elt F) ((c : Thread nD τ).loc b)) (c : Dev nD),
    BodyObligation (dat4 (F := F) V c) (defs₀ (F := F)) Variants.none () Set.univ)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- REGION 0 over the thread state: entered from every unscoped buffer at `W1`, left at `W2`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W3`, left at `W4`. Its arrays split
    out of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W4`, left at `W5`. Its arrays split
    out of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W5`, left at `W6`. Its arrays split
    out of the unscoped buffers and put back at the exit contents; the generator register into the class invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1),
    .region (reg2 m ρ hb2),
    .region (reg3 m ρ hb3),
    .region (reg4 m ρ hb4) ]
include hb0 hb1 hb2 hb3 hb4 in
/-- @main IS the run of the segments: its chain of items, then the segments' run against that chain. -/
theorem main_run (c : Dev nD) : main (F := F) c = Pipeline.Seg.run (segs m ρ hb0 hb1 hb2 hb3 hb4) :=
  (main_chain c).trans (by chain_rfl)

include hb0 hb1 hb2 hb3 hb4 in
set_option backward.isDefEq.respectTransparency.types false in
/-- THE RUN: at the compiled mesh, from any memory with zero counters, every weakly fair execution of @main on the
    TensorCores terminates, nothing faulting, and in every final state every unscoped buffer of every core holds the
    last boundary's contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ hb0 hb1 hb2 hb3 hb4)
    (fun c Q => by rw [main_run m ρ hb0 hb1 hb2 hb3 hb4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## The arguments end as launched: no host operation and no region writes one (a region reads it through an
    input window or bypasses it), so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := (W5_arr m ρ c 8).trans (((dat3 (V4 m ρ) c).arrAt_in 8 rfl _).trans (A_eq3 (V4 m ρ) c 8))
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The frame claim and the result -/

include hb0 hb1 hb2 hb3 hb4 in
/-- THE FRAME: every weakly fair execution of @main on the TensorCores terminates, nothing faulting, and every final
    state has the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩)
    (run_all m ρ hb0 hb1 hb2 hb3 hb4)

include hb0 hb1 hb2 hb3 hb4 in
/-- THE RESULT: the same run, and in every final state the result buffer of every core holds the fold's value at it,
    beside the seven argument arrays as launched. -/
theorem run_result : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v32 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩)
    (run_all m ρ hb0 hb1 hb2 hb3 hb4)

end Cert.KernelIdeal.Fr

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.KI.Val0.lean ====
/-
  Region 0 (the projection): what its two output arrays hold after the region, as functions of the arrays it reads.
  A grid point works on 2000 rows: it multiplies its 2000 × 128 block of the node features by the whole 128 × 48
  weight matrix, adds the 1 × 48 bias row to every row, and stores columns 0–23 into the first output and columns
  24–47 into the second.  So row p, column a of "features times weights plus bias" is
  (∑ d, X (p, d) · W (d, a)) + B (0, a), and the two outputs are its left and right halves.
-/
import proofs.«122926_g88072599371920_cont_sun_m_806_20_alg».proof.Proof.KI.D0
import proofs.«122926_g88072599371920_cont_sun_m_806_20_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.R0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Bridge

theorem hz2 : (![0, 0] : Fin 2 → Nat) = fun _ => 0 := funext fun a => by fin_cases a <;> rfl

/-- Row p, column a of X · W + (the bias row B under every row). -/
def affine (X : S10000x128.Idx → EReal) (W : S128x48.Idx → EReal) (B : S1x48.Idx → EReal) (p : Fin 10000) (a : Fin 48) : EReal :=
  (∑ d : Fin 128, X (ix2 p d) * W (ix2 d a)) + B (ix2 (0 : Fin 1) a)

/-- The body's full 2000 × 48 value at (r, a): the block's row r times column a of the weights, plus the bias. -/
theorem pay1_apply (x0 : Vec Ideal S2000x128 .f32) (x1 : Vec Ideal S128x48 .f32) (x2 : Vec Ideal S1x48 .f32)
    (r : Fin 2000) (a : Fin 48) :
    k0_pay1 x0 x1 x2 (ix2 r a) = (∑ d : Fin 128, x0 (ix2 r d) * x1 (ix2 d a)) + x2 (ix2 (0 : Fin 1) a) := by
  unfold k0_pay1
  simp only [addf_apply, shapeCast_self]
  exact congrArg₂ (· + ·)
    (matmul_zero_plain dot_S2000x128_S128x48_S2000x48_1_0_0_1_n_n rfl rfl rfl rfl rfl rfl none x0 x1 r a)
    (broadcastTo_1b_ab_apply x2 _ r a)

/-- The first output's block at (r, q) is column q of that value … -/
theorem pay2_apply (x0 : Vec Ideal S2000x128 .f32) (x1 : Vec Ideal S128x48 .f32) (x2 : Vec Ideal S1x48 .f32)
    (r : Fin 2000) (q : Fin 24) (a : Fin 48) (ha : a.val = 0 + q.val) :
    k0_pay2 x0 x1 x2 (ix2 r q) = (∑ d : Fin 128, x0 (ix2 r d) * x1 (ix2 d a)) + x2 (ix2 (0 : Fin 1) a) := by
  unfold k0_pay2
  exact (slice2_axis1_apply 0 _ _ r q a ha).trans (pay1_apply x0 x1 x2 r a)

/-- … and the second output's block at (r, q) is column 24 + q. -/
theorem pay3_apply (x0 : Vec Ideal S2000x128 .f32) (x1 : Vec Ideal S128x48 .f32) (x2 : Vec Ideal S1x48 .f32)
    (r : Fin 2000) (q : Fin 24) (a : Fin 48) (ha : a.val = 24 + q.val) :
    k0_pay3 x0 x1 x2 (ix2 r q) = (∑ d : Fin 128, x0 (ix2 r d) * x1 (ix2 d a)) + x2 (ix2 (0 : Fin 1) a) := by
  unfold k0_pay3
  exact (slice2_axis1_apply 24 _ _ r q a ha).trans (pay1_apply x0 x1 x2 r a)

/-- Where the windows' blocks sit: grid point t works on rows 2000 t … 2000 t + 1999 of the features and of both
    outputs, and on the whole weight matrix and bias row. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt0 (t : Fin cfg0.N) : t.val < 5 := lt_of_lt_of_eq t.isLt N_0

variable (V : (c : Dev nD) → (b : Ref sig .tc) → Buf (Elt Ideal) ((c : Thread nD τ).loc b))

/-- The features' block at point t, entry (r, d), is row 2000 t + r of the array. -/
theorem iblk0_0_apply (c : Dev nD) (t : Fin cfg0.N) (r : Fin 2000) (d : Fin 128) (p : Fin 10000) (hp : p.val = t.val * 2000 + r.val) :
    iblk0 V c 0 t (ix2 r d) = V c main_arg0 (ix2 p d) := by
  show V c main_arg0 (((cfg0.win 0).blk t).view.emb (ix2 r d)) = V c main_arg0 (ix2 p d)
  refine congrArg _ ?_
  funext a; apply Fin.ext
  match a with
  | ⟨0, _⟩ => show win0_0.index t (0 : Fin 2) * 2000 + 1 * r.val = p.val; rw [(idx0 t).1]; omega
  | ⟨1, _⟩ => show win0_0.index t (1 : Fin 2) * 128 + 1 * d.val = d.val; rw [(idx0 t).2.1]; omega

/-- The weights' block is the whole matrix … -/
theorem iblk0_1_apply (c : Dev nD) (t : Fin cfg0.N) (d : Fin 128) (a : Fin 48) :
    iblk0 V c 1 t (ix2 d a) = V c main_v12 (ix2 d a) := by
  show V c main_v12 (((cfg0.win 1).blk t).view.emb (ix2 d a)) = V c main_v12 (ix2 d a)
  refine congrArg _ ?_
  funext b; apply Fin.ext
  match b with
  | ⟨0, _⟩ => show win0_1.index t (0 : Fin 2) * 128 + 1 * d.val = d.val; rw [(idx0 t).2.2.1]; omega
  | ⟨1, _⟩ => show win0_1.index t (1 : Fin 2) * 48 + 1 * a.val = a.val; rw [(idx0 t).2.2.2.1]; omega

/-- … and the bias's block the whole row. -/
theorem iblk0_2_apply (c : Dev nD) (t : Fin cfg0.N) (z : Fin 1) (a : Fin 48) :
    iblk0 V c 2 t (ix2 z a) = V c main_v26 (ix2 z a) := by
  show V c main_v26 (((cfg0.win 2).blk t).view.emb (ix2 z a)) = V c main_v26 (ix2 z a)
  refine congrArg _ ?_
  funext b; apply Fin.ext
  match b with
  | ⟨0, _⟩ => show win0_2.index t (0 : Fin 2) * 1 + 1 * z.val = z.val; rw [(idx0 t).2.2.2.2.1]; omega
  | ⟨1, _⟩ => show win0_2.index t (1 : Fin 2) * 48 + 1 * a.val = a.val; rw [(idx0 t).2.2.2.2.2.1]; omega

/-- Columns 0–23 of "features times weights plus bias", as a whole 10000 × 24 array … -/
def leftHalf (X : S10000x128.Idx → EReal) (W : S128x48.Idx → EReal) (B : S1x48.Idx → EReal) : S10000x24.Idx → EReal :=
  fun i => affine X W B (i 0) ⟨(i 1).val, by have := idx2_lt1 i; omega⟩
/-- … and columns 24–47. -/
def rightHalf (X : S10000x128.Idx → EReal) (W : S128x48.Idx → EReal) (B : S1x48.Idx → EReal) : S10000x24.Idx → EReal :=
  fun i => affine X W B (i 0) ⟨24 + (i 1).val, by have := idx2_lt1 i; omega⟩

/-- What point t writes back into the first output is its 2000 rows of the left half. -/
theorem flushed0_3 (c : Dev nD) (t : Fin cfg0.N) :
    (dat0 V c).flushed 3 t = ((cfg0.win 3).blk t).view.read (Elt Ideal) (leftHalf (V c main_arg0) (V c main_v12) (V c main_v26)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x48) hz2, View.ld_unit_zero (S := S1x48) hz2]
  funext j
  obtain ⟨r, q, rfl⟩ : ∃ (r : Fin 2000) (q : Fin 24), j = ix2 r q := ⟨j 0, j 1, eq_ix2 j⟩
  have ht := t_lt0 t
  have hp : t.val * 2000 + r.val < 10000 := by have := r.isLt; omega
  have he : ((cfg0.win 3).blk t).view.emb (ix2 r q) = ix2 (⟨t.val * 2000 + r.val, hp⟩ : Fin 10000) q := by
    funext a; apply Fin.ext
    match a with
    | ⟨0, _⟩ => show win0_3.index t (0 : Fin 2) * 2000 + 1 * r.val = t.val * 2000 + r.val; rw [(idx0 t).2.2.2.2.2.2.1]; omega
    | ⟨1, _⟩ => show win0_3.index t (1 : Fin 2) * 24 + 1 * q.val = q.val; rw [(idx0 t).2.2.2.2.2.2.2.1]; omega
  show k0_pay2 (iblk0 V c 0 t) (iblk0 V c 1 t) (iblk0 V c 2 t) (ix2 r q)
    = leftHalf (V c main_arg0) (V c main_v12) (V c main_v26) (((cfg0.win 3).blk t).view.emb (ix2 r q))
  rw [he]
  refine (pay2_apply _ _ _ r q ⟨q.val, by have := q.isLt; omega⟩ (by simp)).trans ?_
  simp only [fun d => iblk0_0_apply V c t r d ⟨t.val * 2000 + r.val, hp⟩ rfl, iblk0_1_apply, iblk0_2_apply]
  rfl

/-- The same for the second output and the right half. -/
theorem flushed0_4 (c : Dev nD) (t : Fin cfg0.N) :
    (dat0 V c).flushed 4 t = ((cfg0.win 4).blk t).view.read (Elt Ideal) (rightHalf (V c main_arg0) (V c main_v12) (V c main_v26)) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x48) hz2, View.ld_unit_zero (S := S1x48) hz2]
  funext j
  obtain ⟨r, q, rfl⟩ : ∃ (r : Fin 2000) (q : Fin 24), j = ix2 r q := ⟨j 0, j 1, eq_ix2 j⟩
  have ht := t_lt0 t
  have hp : t.val * 2000 + r.val < 10000 := by have := r.isLt; omega
  have he : ((cfg0.win 4).blk t).view.emb (ix2 r q) = ix2 (⟨t.val * 2000 + r.val, hp⟩ : Fin 10000) q := by
    funext a; apply Fin.ext
    match a with
    | ⟨0, _⟩ => show win0_4.index t (0 : Fin 2) * 2000 + 1 * r.val = t.val * 2000 + r.val; rw [(idx0 t).2.2.2.2.2.2.2.2.1]; omega
    | ⟨1, _⟩ => show win0_4.index t (1 : Fin 2) * 24 + 1 * q.val = q.val; rw [(idx0 t).2.2.2.2.2.2.2.2.2]; omega
  show k0_pay3 (iblk0 V c 0 t) (iblk0 V c 1 t) (iblk0 V c 2 t) (ix2 r q)
    = rightHalf (V c main_arg0) (V c main_v12) (V c main_v26) (((cfg0.win 4).blk t).view.emb (ix2 r q))
  rw [he]
  refine (pay3_apply _ _ _ r q ⟨24 + q.val, by have := q.isLt; omega⟩ rfl).trans ?_
  simp only [fun d => iblk0_0_apply V c t r d ⟨t.val * 2000 + r.val, hp⟩ rfl, iblk0_1_apply, iblk0_2_apply]
  rfl

/-- An index of the first output lies in point t's block iff its row is among the point's 2000 rows. -/
theorem mem_blk0_3 (t : Fin cfg0.N) (i : S10000x24.Idx) :
    i ∈ ((cfg0.win 3).blk t).view.set ↔ ∀ a : Fin 2, win0_3.index t a * S2000x24.size a ≤ (i a).val ∧ (i a).val < win0_3.index t a * S2000x24.size a + S2000x24.size a := by
  show i ∈ ((View.whole main_v28_0).slice (win0_3.rect t)).set ↔ _
  rw [View.set_slice_whole, Rect.mem_set_unit]
  exact Iff.rfl
theorem mem_blk0_4 (t : Fin cfg0.N) (i : S10000x24.Idx) :
    i ∈ ((cfg0.win 4).blk t).view.set ↔ ∀ a : Fin 2, win0_4.index t a * S2000x24.size a ≤ (i a).val ∧ (i a).val < win0_4.index t a * S2000x24.size a + S2000x24.size a := by
  show i ∈ ((View.whole main_v28_1).slice (win0_4.rect t)).set ↔ _
  rw [View.set_slice_whole, Rect.mem_set_unit]
  exact Iff.rfl

/-- Every row belongs to the point numbered by its quotient by 2000. -/
theorem covers0_3 (i : S10000x24.Idx) : ∃ t : Fin cfg0.N, (cfg0.win 3).flush t = true ∧ i ∈ ((cfg0.win 3).blk t).view.set := by
  have hi0 := idx2_lt0 i
  have hi1 := idx2_lt1 i
  have hN : (i 0).val / 2000 < cfg0.N := by rw [show cfg0.N = 5 from N_0]; omega
  refine ⟨⟨(i 0).val / 2000, hN⟩, flush0_3 _, ?_⟩
  rw [mem_blk0_3]
  have e0 := (idx0 ⟨(i 0).val / 2000, hN⟩).2.2.2.2.2.2.1
  have e1 := (idx0 ⟨(i 0).val / 2000, hN⟩).2.2.2.2.2.2.2.1
  intro a
  match a with
  | ⟨0, _⟩ => show win0_3.index ⟨(i 0).val / 2000, hN⟩ (0 : Fin 2) * 2000 ≤ (i 0).val ∧ (i 0).val < win0_3.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win0_3.index ⟨(i 0).val / 2000, hN⟩ (1 : Fin 2) * 24 ≤ (i 1).val ∧ (i 1).val < win0_3.index ⟨(i 0).val / 2000, hN⟩ (1 : Fin 2) * 24 + 24; rw [e1]; omega
theorem covers0_4 (i : S10000x24.Idx) : ∃ t : Fin cfg0.N, (cfg0.win 4).flush t = true ∧ i ∈ ((cfg0.win 4).blk t).view.set := by
  have hi0 := idx2_lt0 i
  have hi1 := idx2_lt1 i
  have hN : (i 0).val / 2000 < cfg0.N := by rw [show cfg0.N = 5 from N_0]; omega
  refine ⟨⟨(i 0).val / 2000, hN⟩, flush0_4 _, ?_⟩
  rw [mem_blk0_4]
  have e0 := (idx0 ⟨(i 0).val / 2000, hN⟩).2.2.2.2.2.2.2.2.1
  have e1 := (idx0 ⟨(i 0).val / 2000, hN⟩).2.2.2.2.2.2.2.2.2
  intro a
  match a with
  | ⟨0, _⟩ => show win0_4.index ⟨(i 0).val / 2000, hN⟩ (0 : Fin 2) * 2000 ≤ (i 0).val ∧ (i 0).val < win0_4.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win0_4.index ⟨(i 0).val / 2000, hN⟩ (1 : Fin 2) * 24 ≤ (i 1).val ∧ (i 1).val < win0_4.index ⟨(i 0).val / 2000, hN⟩ (1 : Fin 2) * 24 + 24; rw [e1]; omega

/-- THE TWO ARRAYS AFTER THE REGION: the left and right halves of features times weights plus bias. -/
theorem val0_3 (c : Dev nD) : (dat0 V c).arrAt 3 cfg0.N = leftHalf (V c main_arg0) (V c main_v12) (V c main_v26) :=
  (dat0 V c).arrAt_eq_of_cover 3 _ (fun t _ => flushed0_3 V c t) covers0_3
theorem val0_4 (c : Dev nD) : (dat0 V c).arrAt 4 cfg0.N = rightHalf (V c main_arg0) (V c main_v12) (V c main_v26) :=
  (dat0 V c).arrAt_eq_of_cover 4 _ (fun t _ => flushed0_4 V c t) covers0_4

end Cert.KernelIdeal.Val.R0

end
-- ==== Proof.KI.Val1.lean ====
/-
  Region 1 (the first propagation): what its six output arrays hold after the region, as functions of the arrays it
  reads.  A grid point works on 200 rows: it multiplies its 200 × 10000 block of each graph matrix by the whole
  10000 × 24 projected-feature array of that matrix's channels, stores columns 0–15 and 16–23 of each product into
  two outputs, and copies its block of each matrix (narrowed in format, which on the extended reals changes nothing)
  into two more.  So the four product outputs are column bands of "matrix times projected features", and the two
  copies are the matrices themselves.
-/
import proofs.«122926_g88072599371920_cont_sun_m_806_20_alg».proof.Proof.KI.D1
import proofs.«122926_g88072599371920_cont_sun_m_806_20_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.R1

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Bridge

theorem hz2 : (![0, 0] : Fin 2 → Nat) = fun _ => 0 := funext fun a => by fin_cases a <;> rfl

/-- A block of 200 rows of a graph matrix times the whole projected-feature array, at (r, a). -/
theorem pay1_apply (x0 : Vec Ideal S200x10000 .f32) (x2 : Vec Ideal S10000x24 .f32) (r : Fin 200) (a : Fin 24) :
    k1_pay1 x0 x2 (ix2 r a) = ∑ k : Fin 10000, x0 (ix2 r k) * x2 (ix2 k a) := by
  unfold k1_pay1
  simp only [shapeCast_self]
  exact matmul_zero_plain dot_S200x10000_S10000x24_S200x24_1_0_0_1_n_n rfl rfl rfl rfl rfl rfl none x0 x2 r a
theorem pay2_apply (x1 : Vec Ideal S200x10000 .f32) (x5 : Vec Ideal S10000x24 .f32) (r : Fin 200) (a : Fin 24) :
    k1_pay2 x1 x5 (ix2 r a) = ∑ k : Fin 10000, x1 (ix2 r k) * x5 (ix2 k a) := by
  unfold k1_pay2
  simp only [shapeCast_self]
  exact matmul_zero_plain dot_S200x10000_S10000x24_S200x24_1_0_0_1_n_n rfl rfl rfl rfl rfl rfl none x1 x5 r a
/-- Its columns 0–15 … -/
theorem pay3_apply (x0 : Vec Ideal S200x10000 .f32) (x2 : Vec Ideal S10000x24 .f32) (r : Fin 200) (q : Fin 16) (a : Fin 24) (ha : a.val = 0 + q.val) :
    k1_pay3 x0 x2 (ix2 r q) = ∑ k : Fin 10000, x0 (ix2 r k) * x2 (ix2 k a) := by
  unfold k1_pay3
  exact (slice2_axis1_apply 0 _ _ r q a ha).trans (pay1_apply x0 x2 r a)
/-- … and 16–23. -/
theorem pay4_apply (x0 : Vec Ideal S200x10000 .f32) (x2 : Vec Ideal S10000x24 .f32) (r : Fin 200) (q : Fin 8) (a : Fin 24) (ha : a.val = 16 + q.val) :
    k1_pay4 x0 x2 (ix2 r q) = ∑ k : Fin 10000, x0 (ix2 r k) * x2 (ix2 k a) := by
  unfold k1_pay4
  exact (slice2_axis1_apply 16 _ _ r q a ha).trans (pay1_apply x0 x2 r a)
theorem pay5_apply (x1 : Vec Ideal S200x10000 .f32) (x5 : Vec Ideal S10000x24 .f32) (r : Fin 200) (q : Fin 16) (a : Fin 24) (ha : a.val = 0 + q.val) :
    k1_pay5 x1 x5 (ix2 r q) = ∑ k : Fin 10000, x1 (ix2 r k) * x5 (ix2 k a) := by
  unfold k1_pay5
  exact (slice2_axis1_apply 0 _ _ r q a ha).trans (pay2_apply x1 x5 r a)
theorem pay6_apply (x1 : Vec Ideal S200x10000 .f32) (x5 : Vec Ideal S10000x24 .f32) (r : Fin 200) (q : Fin 8) (a : Fin 24) (ha : a.val = 16 + q.val) :
    k1_pay6 x1 x5 (ix2 r q) = ∑ k : Fin 10000, x1 (ix2 r k) * x5 (ix2 k a) := by
  unfold k1_pay6
  exact (slice2_axis1_apply 16 _ _ r q a ha).trans (pay2_apply x1 x5 r a)

/-! ## Where the windows' blocks sit -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem t_lt1 (t : Fin cfg1.N) : t.val < 50 := lt_of_lt_of_eq t.isLt N_1

variable (V : (c : Dev nD) → (b : Ref sig .tc) → Buf (Elt Ideal) ((c : Thread nD τ).loc b))

/-- The smoothing matrix's window: the block at point t, entry (r, d), is row 200 t + r of the array. -/
theorem iblk1_0_apply (c : Dev nD) (t : Fin cfg1.N) (r : Fin 200) (d : Fin 10000) (p : Fin 10000) (hp : p.val = t.val * 200 + r.val) :
    iblk1 V c 0 t (ix2 r d) = V c main_arg1 (ix2 p d) := by
  show V c main_arg1 (((cfg1.win 0).blk t).view.emb (ix2 r d)) = V c main_arg1 (ix2 p d)
  refine congrArg _ ?_
  funext a; apply Fin.ext
  match a with
  | ⟨0, _⟩ => show win1_0.index t (0 : Fin 2) * 200 + 1 * r.val = p.val; rw [(idx1_0 t).1]; omega
  | ⟨1, _⟩ => show win1_0.index t (1 : Fin 2) * 10000 + 1 * d.val = d.val; rw [(idx1_0 t).2]; omega
/-- The wavelet matrix's window: the block at point t, entry (r, d), is row 200 t + r of the array. -/
theorem iblk1_1_apply (c : Dev nD) (t : Fin cfg1.N) (r : Fin 200) (d : Fin 10000) (p : Fin 10000) (hp : p.val = t.val * 200 + r.val) :
    iblk1 V c 1 t (ix2 r d) = V c main_arg2 (ix2 p d) := by
  show V c main_arg2 (((cfg1.win 1).blk t).view.emb (ix2 r d)) = V c main_arg2 (ix2 p d)
  refine congrArg _ ?_
  funext a; apply Fin.ext
  match a with
  | ⟨0, _⟩ => show win1_1.index t (0 : Fin 2) * 200 + 1 * r.val = p.val; rw [(idx1_1 t).1]; omega
  | ⟨1, _⟩ => show win1_1.index t (1 : Fin 2) * 10000 + 1 * d.val = d.val; rw [(idx1_1 t).2]; omega
/-- The smoothing channels' projected features: the block at every point is the whole array. -/
theorem iblk1_2_apply (c : Dev nD) (t : Fin cfg1.N) (a : Fin 10000) (b : Fin 24) :
    iblk1 V c 2 t (ix2 a b) = V c main_v28_0 (ix2 a b) := by
  show V c main_v28_0 (((cfg1.win 2).blk t).view.emb (ix2 a b)) = V c main_v28_0 (ix2 a b)
  refine congrArg _ ?_
  funext e; apply Fin.ext
  match e with
  | ⟨0, _⟩ => show win1_2.index t (0 : Fin 2) * 10000 + 1 * a.val = a.val; rw [(idx1_2 t).1]; omega
  | ⟨1, _⟩ => show win1_2.index t (1 : Fin 2) * 24 + 1 * b.val = b.val; rw [(idx1_2 t).2]; omega
/-- The wavelet channels' projected features: the block at every point is the whole array. -/
theorem iblk1_3_apply (c : Dev nD) (t : Fin cfg1.N) (a : Fin 10000) (b : Fin 24) :
    iblk1 V c 3 t (ix2 a b) = V c main_v28_1 (ix2 a b) := by
  show V c main_v28_1 (((cfg1.win 3).blk t).view.emb (ix2 a b)) = V c main_v28_1 (ix2 a b)
  refine congrArg _ ?_
  funext e; apply Fin.ext
  match e with
  | ⟨0, _⟩ => show win1_3.index t (0 : Fin 2) * 10000 + 1 * a.val = a.val; rw [(idx1_3 t).1]; omega
  | ⟨1, _⟩ => show win1_3.index t (1 : Fin 2) * 24 + 1 * b.val = b.val; rw [(idx1_3 t).2]; omega
/-- Output window 4: entry (r, q) of point t's block is row 200 t + r of the array. -/
theorem emb1_4 (t : Fin cfg1.N) (r : Fin 200) (q : Fin 16) (p : Fin 10000) (hp : p.val = t.val * 200 + r.val) :
    ((cfg1.win 4).blk t).view.emb (ix2 r q) = ix2 p q := by
  funext a; apply Fin.ext
  match a with
  | ⟨0, _⟩ => show win1_4.index t (0 : Fin 2) * 200 + 1 * r.val = p.val; rw [(idx1_4 t).1]; omega
  | ⟨1, _⟩ => show win1_4.index t (1 : Fin 2) * 16 + 1 * q.val = q.val; rw [(idx1_4 t).2]; omega
/-- An index of that array lies in point t's block iff its row is among the point's 200 rows. -/
theorem mem_blk1_4 (t : Fin cfg1.N) (i : S10000x16.Idx) :
    i ∈ ((cfg1.win 4).blk t).view.set ↔ ∀ a : Fin 2, win1_4.index t a * S200x16.size a ≤ (i a).val ∧ (i a).val < win1_4.index t a * S200x16.size a + S200x16.size a := by
  show i ∈ ((View.whole main_v29_0).slice (win1_4.rect t)).set ↔ _
  rw [View.set_slice_whole, Rect.mem_set_unit]
  exact Iff.rfl
/-- Every row belongs to the point numbered by its quotient by 200. -/
theorem covers1_4 (i : S10000x16.Idx) : ∃ t : Fin cfg1.N, (cfg1.win 4).flush t = true ∧ i ∈ ((cfg1.win 4).blk t).view.set := by
  have hi0 := idx2_lt0 i
  have hi1 := idx2_lt1 i
  have hN : (i 0).val / 200 < cfg1.N := by rw [show cfg1.N = 50 from N_1]; omega
  refine ⟨⟨(i 0).val / 200, hN⟩, flush1_4 _, ?_⟩
  rw [mem_blk1_4]
  have e0 := (idx1_4 ⟨(i 0).val / 200, hN⟩).1
  have e1 := (idx1_4 ⟨(i 0).val / 200, hN⟩).2
  intro a
  match a with
  | ⟨0, _⟩ => show win1_4.index ⟨(i 0).val / 200, hN⟩ (0 : Fin 2) * 200 ≤ (i 0).val ∧ (i 0).val < win1_4.index ⟨(i 0).val / 200, hN⟩ (0 : Fin 2) * 200 + 200; rw [e0]; show (i 0).val / 200 * 200 ≤ (i 0).val ∧ (i 0).val < (i 0).val / 200 * 200 + 200; omega
  | ⟨1, _⟩ => show win1_4.index ⟨(i 0).val / 200, hN⟩ (1 : Fin 2) * 16 ≤ (i 1).val ∧ (i 1).val < win1_4.index ⟨(i 0).val / 200, hN⟩ (1 : Fin 2) * 16 + 16; rw [e1]; omega
/-- Output window 5: entry (r, q) of point t's block is row 200 t + r of the array. -/
theorem emb1_5 (t : Fin cfg1.N) (r : Fin 200) (q : Fin 8) (p : Fin 10000) (hp : p.val = t.val * 200 + r.val) :
    ((cfg1.win 5).blk t).view.emb (ix2 r q) = ix2 p q := by
  funext a; apply Fin.ext
  match a with
  | ⟨0, _⟩ => show win1_5.index t (0 : Fin 2) * 200 + 1 * r.val = p.val; rw [(idx1_5 t).1]; omega
  | ⟨1, _⟩ => show win1_5.index t (1 : Fin 2) * 8 + 1 * q.val = q.val; rw [(idx1_5 t).2]; omega
/-- An index of that array lies in point t's block iff its row is among the point's 200 rows. -/
theorem mem_blk1_5 (t : Fin cfg1.N) (i : S10000x8.Idx) :
    i ∈ ((cfg1.win 5).blk t).view.set ↔ ∀ a : Fin 2, win1_5.index t a * S200x8.size a ≤ (i a).val ∧ (i a).val < win1_5.index t a * S200x8.size a + S200x8.size a := by
  show i ∈ ((View.whole main_v29_1).slice (win1_5.rect t)).set ↔ _
  rw [View.set_slice_whole, Rect.mem_set_unit]
  exact Iff.rfl
/-- Every row belongs to the point numbered by its quotient by 200. -/
theorem covers1_5 (i : S10000x8.Idx) : ∃ t : Fin cfg1.N, (cfg1.win 5).flush t = true ∧ i ∈ ((cfg1.win 5).blk t).view.set := by
  have hi0 := idx2_lt0 i
  have hi1 := idx2_lt1 i
  have hN : (i 0).val / 200 < cfg1.N := by rw [show cfg1.N = 50 from N_1]; omega
  refine ⟨⟨(i 0).val / 200, hN⟩, flush1_5 _, ?_⟩
  rw [mem_blk1_5]
  have e0 := (idx1_5 ⟨(i 0).val / 200, hN⟩).1
  have e1 := (idx1_5 ⟨(i 0).val / 200, hN⟩).2
  intro a
  match a with
  | ⟨0, _⟩ => show win1_5.index ⟨(i 0).val / 200, hN⟩ (0 : Fin 2) * 200 ≤ (i 0).val ∧ (i 0).val < win1_5.index ⟨(i 0).val / 200, hN⟩ (0 : Fin 2) * 200 + 200; rw [e0]; show (i 0).val / 200 * 200 ≤ (i 0).val ∧ (i 0).val < (i 0).val / 200 * 200 + 200; omega
  | ⟨1, _⟩ => show win1_5.index ⟨(i 0).val / 200, hN⟩ (1 : Fin 2) * 8 ≤ (i 1).val ∧ (i 1).val < win1_5.index ⟨(i 0).val / 200, hN⟩ (1 : Fin 2) * 8 + 8; rw [e1]; omega
/-- Output window 6: entry (r, q) of point t's block is row 200 t + r of the array. -/
theorem emb1_6 (t : Fin cfg1.N) (r : Fin 200) (q : Fin 16) (p : Fin 10000) (hp : p.val = t.val * 200 + r.val) :
    ((cfg1.win 6).blk t).view.emb (ix2 r q) = ix2 p q := by
  funext a; apply Fin.ext
  match a with
  | ⟨0, _⟩ => show win1_6.index t (0 : Fin 2) * 200 + 1 * r.val = p.val; rw [(idx1_6 t).1]; omega
  | ⟨1, _⟩ => show win1_6.index t (1 : Fin 2) * 16 + 1 * q.val = q.val; rw [(idx1_6 t).2]; omega
/-- An index of that array lies in point t's block iff its row is among the point's 200 rows. -/
theorem mem_blk1_6 (t : Fin cfg1.N) (i : S10000x16.Idx) :
    i ∈ ((cfg1.win 6).blk t).view.set ↔ ∀ a : Fin 2, win1_6.index t a * S200x16.size a ≤ (i a).val ∧ (i a).val < win1_6.index t a * S200x16.size a + S200x16.size a := by
  show i ∈ ((View.whole main_v29_2).slice (win1_6.rect t)).set ↔ _
  rw [View.set_slice_whole, Rect.mem_set_unit]
  exact Iff.rfl
/-- Every row belongs to the point numbered by its quotient by 200. -/
theorem covers1_6 (i : S10000x16.Idx) : ∃ t : Fin cfg1.N, (cfg1.win 6).flush t = true ∧ i ∈ ((cfg1.win 6).blk t).view.set := by
  have hi0 := idx2_lt0 i
  have hi1 := idx2_lt1 i
  have hN : (i 0).val / 200 < cfg1.N := by rw [show cfg1.N = 50 from N_1]; omega
  refine ⟨⟨(i 0).val / 200, hN⟩, flush1_6 _, ?_⟩
  rw [mem_blk1_6]
  have e0 := (idx1_6 ⟨(i 0).val / 200, hN⟩).1
  have e1 := (idx1_6 ⟨(i 0).val / 200, hN⟩).2
  intro a
  match a with
  | ⟨0, _⟩ => show win1_6.index ⟨(i 0).val / 200, hN⟩ (0 : Fin 2) * 200 ≤ (i 0).val ∧ (i 0).val < win1_6.index ⟨(i 0).val / 200, hN⟩ (0 : Fin 2) * 200 + 200; rw [e0]; show (i 0).val / 200 * 200 ≤ (i 0).val ∧ (i 0).val < (i 0).val / 200 * 200 + 200; omega
  | ⟨1, _⟩ => show win1_6.index ⟨(i 0).val / 200, hN⟩ (1 : Fin 2) * 16 ≤ (i 1).val ∧ (i 1).val < win1_6.index ⟨(i 0).val / 200, hN⟩ (1 : Fin 2) * 16 + 16; rw [e1]; omega
/-- Output window 7: entry (r, q) of point t's block is row 200 t + r of the array. -/
theorem emb1_7 (t : Fin cfg1.N) (r : Fin 200) (q : Fin 8) (p : Fin 10000) (hp : p.val = t.val * 200 + r.val) :
    ((cfg1.win 7).blk t).view.emb (ix2 r q) = ix2 p q := by
  funext a; apply Fin.ext
  match a with
  | ⟨0, _⟩ => show win1_7.index t (0 : Fin 2) * 200 + 1 * r.val = p.val; rw [(idx1_7 t).1]; omega
  | ⟨1, _⟩ => show win1_7.index t (1 : Fin 2) * 8 + 1 * q.val = q.val; rw [(idx1_7 t).2]; omega
/-- An index of that array lies in point t's block iff its row is among the point's 200 rows. -/
theorem mem_blk1_7 (t : Fin cfg1.N) (i : S10000x8.Idx) :
    i ∈ ((cfg1.win 7).blk t).view.set ↔ ∀ a : Fin 2, win1_7.index t a * S200x8.size a ≤ (i a).val ∧ (i a).val < win1_7.index t a * S200x8.size a + S200x8.size a := by
  show i ∈ ((View.whole main_v29_3).slice (win1_7.rect t)).set ↔ _
  rw [View.set_slice_whole, Rect.mem_set_unit]
  exact Iff.rfl
/-- Every row belongs to the point numbered by its quotient by 200. -/
theorem covers1_7 (i : S10000x8.Idx) : ∃ t : Fin cfg1.N, (cfg1.win 7).flush t = true ∧ i ∈ ((cfg1.win 7).blk t).view.set := by
  have hi0 := idx2_lt0 i
  have hi1 := idx2_lt1 i
  have hN : (i 0).val / 200 < cfg1.N := by rw [show cfg1.N = 50 from N_1]; omega
  refine ⟨⟨(i 0).val / 200, hN⟩, flush1_7 _, ?_⟩
  rw [mem_blk1_7]
  have e0 := (idx1_7 ⟨(i 0).val / 200, hN⟩).1
  have e1 := (idx1_7 ⟨(i 0).val / 200, hN⟩).2
  intro a
  match a with
  | ⟨0, _⟩ => show win1_7.index ⟨(i 0).val / 200, hN⟩ (0 : Fin 2) * 200 ≤ (i 0).val ∧ (i 0).val < win1_7.index ⟨(i 0).val / 200, hN⟩ (0 : Fin 2) * 200 + 200; rw [e0]; show (i 0).val / 200 * 200 ≤ (i 0).val ∧ (i 0).val < (i 0).val / 200 * 200 + 200; omega
  | ⟨1, _⟩ => show win1_7.index ⟨(i 0).val / 200, hN⟩ (1 : Fin 2) * 8 ≤ (i 1).val ∧ (i 1).val < win1_7.index ⟨(i 0).val / 200, hN⟩ (1 : Fin 2) * 8 + 8; rw [e1]; omega
/-- Output window 8: entry (r, q) of point t's block is row 200 t + r of the array. -/
theorem emb1_8 (t : Fin cfg1.N) (r : Fin 200) (q : Fin 10000) (p : Fin 10000) (hp : p.val = t.val * 200 + r.val) :
    ((cfg1.win 8).blk t).view.emb (ix2 r q) = ix2 p q := by
  funext a; apply Fin.ext
  match a with
  | ⟨0, _⟩ => show win1_8.index t (0 : Fin 2) * 200 + 1 * r.val = p.val; rw [(idx1_8 t).1]; omega
  | ⟨1, _⟩ => show win1_8.index t (1 : Fin 2) * 10000 + 1 * q.val = q.val; rw [(idx1_8 t).2]; omega
/-- An index of that array lies in point t's block iff its row is among the point's 200 rows. -/
theorem mem_blk1_8 (t : Fin cfg1.N) (i : S10000x10000.Idx) :
    i ∈ ((cfg1.win 8).blk t).view.set ↔ ∀ a : Fin 2, win1_8.index t a * S200x10000.size a ≤ (i a).val ∧ (i a).val < win1_8.index t a * S200x10000.size a + S200x10000.size a := by
  show i ∈ ((View.whole main_v29_4).slice (win1_8.rect t)).set ↔ _
  rw [View.set_slice_whole, Rect.mem_set_unit]
  exact Iff.rfl
/-- Every row belongs to the point numbered by its quotient by 200. -/
theorem covers1_8 (i : S10000x10000.Idx) : ∃ t : Fin cfg1.N, (cfg1.win 8).flush t = true ∧ i ∈ ((cfg1.win 8).blk t).view.set := by
  have hi0 := idx2_lt0 i
  have hi1 := idx2_lt1 i
  have hN : (i 0).val / 200 < cfg1.N := by rw [show cfg1.N = 50 from N_1]; omega
  refine ⟨⟨(i 0).val / 200, hN⟩, flush1_8 _, ?_⟩
  rw [mem_blk1_8]
  have e0 := (idx1_8 ⟨(i 0).val / 200, hN⟩).1
  have e1 := (idx1_8 ⟨(i 0).val / 200, hN⟩).2
  intro a
  match a with
  | ⟨0, _⟩ => show win1_8.index ⟨(i 0).val / 200, hN⟩ (0 : Fin 2) * 200 ≤ (i 0).val ∧ (i 0).val < win1_8.index ⟨(i 0).val / 200, hN⟩ (0 : Fin 2) * 200 + 200; rw [e0]; show (i 0).val / 200 * 200 ≤ (i 0).val ∧ (i 0).val < (i 0).val / 200 * 200 + 200; omega
  | ⟨1, _⟩ => show win1_8.index ⟨(i 0).val / 200, hN⟩ (1 : Fin 2) * 10000 ≤ (i 1).val ∧ (i 1).val < win1_8.index ⟨(i 0).val / 200, hN⟩ (1 : Fin 2) * 10000 + 10000; rw [e1]; omega
/-- Output window 9: entry (r, q) of point t's block is row 200 t + r of the array. -/
theorem emb1_9 (t : Fin cfg1.N) (r : Fin 200) (q : Fin 10000) (p : Fin 10000) (hp : p.val = t.val * 200 + r.val) :
    ((cfg1.win 9).blk t).view.emb (ix2 r q) = ix2 p q := by
  funext a; apply Fin.ext
  match a with
  | ⟨0, _⟩ => show win1_9.index t (0 : Fin 2) * 200 + 1 * r.val = p.val; rw [(idx1_9 t).1]; omega
  | ⟨1, _⟩ => show win1_9.index t (1 : Fin 2) * 10000 + 1 * q.val = q.val; rw [(idx1_9 t).2]; omega
/-- An index of that array lies in point t's block iff its row is among the point's 200 rows. -/
theorem mem_blk1_9 (t : Fin cfg1.N) (i : S10000x10000.Idx) :
    i ∈ ((cfg1.win 9).blk t).view.set ↔ ∀ a : Fin 2, win1_9.index t a * S200x10000.size a ≤ (i a).val ∧ (i a).val < win1_9.index t a * S200x10000.size a + S200x10000.size a := by
  show i ∈ ((View.whole main_v29_5).slice (win1_9.rect t)).set ↔ _
  rw [View.set_slice_whole, Rect.mem_set_unit]
  exact Iff.rfl
/-- Every row belongs to the point numbered by its quotient by 200. -/
theorem covers1_9 (i : S10000x10000.Idx) : ∃ t : Fin cfg1.N, (cfg1.win 9).flush t = true ∧ i ∈ ((cfg1.win 9).blk t).view.set := by
  have hi0 := idx2_lt0 i
  have hi1 := idx2_lt1 i
  have hN : (i 0).val / 200 < cfg1.N := by rw [show cfg1.N = 50 from N_1]; omega
  refine ⟨⟨(i 0).val / 200, hN⟩, flush1_9 _, ?_⟩
  rw [mem_blk1_9]
  have e0 := (idx1_9 ⟨(i 0).val / 200, hN⟩).1
  have e1 := (idx1_9 ⟨(i 0).val / 200, hN⟩).2
  intro a
  match a with
  | ⟨0, _⟩ => show win1_9.index ⟨(i 0).val / 200, hN⟩ (0 : Fin 2) * 200 ≤ (i 0).val ∧ (i 0).val < win1_9.index ⟨(i 0).val / 200, hN⟩ (0 : Fin 2) * 200 + 200; rw [e0]; show (i 0).val / 200 * 200 ≤ (i 0).val ∧ (i 0).val < (i 0).val / 200 * 200 + 200; omega
  | ⟨1, _⟩ => show win1_9.index ⟨(i 0).val / 200, hN⟩ (1 : Fin 2) * 10000 ≤ (i 1).val ∧ (i 1).val < win1_9.index ⟨(i 0).val / 200, hN⟩ (1 : Fin 2) * 10000 + 10000; rw [e1]; omega

/-! ## The product outputs -/

/-- Columns 0–15 of a graph matrix times a 10000 × 24 array. -/
def band16 (L : S10000x10000.Idx → EReal) (R : S10000x24.Idx → EReal) : S10000x16.Idx → EReal :=
  fun i => ∑ k : Fin 10000, L (ix2 (i 0) k) * R (ix2 k ⟨(i 1).val, by have := idx2_lt1 i; omega⟩)

/-- What point t writes back into output window 4 is its 200 rows of that array. -/
theorem flushed1_4 (c : Dev nD) (t : Fin cfg1.N) :
    (dat1 V c).flushed 4 t = ((cfg1.win 4).blk t).view.read (Elt Ideal) (band16 (V c main_arg1) (V c main_v28_0)) := by
  show (cfg1.win 4).cut (grid1.coords t) ((dat1 V c).after 4 t) = _
  rw [after1_4]
  unfold out1_4
  rw [View.canon_unit_zero hz2]
  simp only [View.ld_unit_zero (S := S200x10000) hz2, View.ld_unit_zero (S := S10000x24) hz2]
  funext j
  obtain ⟨r, q, rfl⟩ : ∃ (r : Fin 200) (q : Fin 16), j = ix2 r q := ⟨j 0, j 1, eq_ix2 j⟩
  have ht := t_lt1 t
  have hp : t.val * 200 + r.val < 10000 := by have := r.isLt; omega
  show k1_pay3 (iblk1 V c 0 t) (iblk1 V c 2 t) (ix2 r q)
    = band16 (V c main_arg1) (V c main_v28_0) (((cfg1.win 4).blk t).view.emb (ix2 r q))
  rw [emb1_4 t r q ⟨t.val * 200 + r.val, hp⟩ rfl]
  refine (pay3_apply _ _ r q ⟨q.val, by have := q.isLt; omega⟩ (by simp)).trans ?_
  simp only [fun d => iblk1_0_apply V c t r d ⟨t.val * 200 + r.val, hp⟩ rfl, iblk1_2_apply]
  rfl

theorem val1_4 (c : Dev nD) : (dat1 V c).arrAt 4 cfg1.N = band16 (V c main_arg1) (V c main_v28_0) :=
  (dat1 V c).arrAt_eq_of_cover 4 _ (fun t _ => flushed1_4 V c t) covers1_4
/-- Columns 16–23 of a graph matrix times a 10000 × 24 array. -/
def band8 (L : S10000x10000.Idx → EReal) (R : S10000x24.Idx → EReal) : S10000x8.Idx → EReal :=
  fun i => ∑ k : Fin 10000, L (ix2 (i 0) k) * R (ix2 k ⟨16 + (i 1).val, by have := idx2_lt1 i; omega⟩)

/-- What point t writes back into output window 5 is its 200 rows of that array. -/
theorem flushed1_5 (c : Dev nD) (t : Fin cfg1.N) :
    (dat1 V c).flushed 5 t = ((cfg1.win 5).blk t).view.read (Elt Ideal) (band8 (V c main_arg1) (V c main_v28_0)) := by
  show (cfg1.win 5).cut (grid1.coords t) ((dat1 V c).after 5 t) = _
  rw [after1_5]
  unfold out1_5
  rw [View.canon_unit_zero hz2]
  simp only [View.ld_unit_zero (S := S200x10000) hz2, View.ld_unit_zero (S := S10000x24) hz2]
  funext j
  obtain ⟨r, q, rfl⟩ : ∃ (r : Fin 200) (q : Fin 8), j = ix2 r q := ⟨j 0, j 1, eq_ix2 j⟩
  have ht := t_lt1 t
  have hp : t.val * 200 + r.val < 10000 := by have := r.isLt; omega
  show k1_pay4 (iblk1 V c 0 t) (iblk1 V c 2 t) (ix2 r q)
    = band8 (V c main_arg1) (V c main_v28_0) (((cfg1.win 5).blk t).view.emb (ix2 r q))
  rw [emb1_5 t r q ⟨t.val * 200 + r.val, hp⟩ rfl]
  refine (pay4_apply _ _ r q ⟨16 + q.val, by have := q.isLt; omega⟩ rfl).trans ?_
  simp only [fun d => iblk1_0_apply V c t r d ⟨t.val * 200 + r.val, hp⟩ rfl, iblk1_2_apply]
  rfl

theorem val1_5 (c : Dev nD) : (dat1 V c).arrAt 5 cfg1.N = band8 (V c main_arg1) (V c main_v28_0) :=
  (dat1 V c).arrAt_eq_of_cover 5 _ (fun t _ => flushed1_5 V c t) covers1_5
/-- What point t writes back into output window 6 is its 200 rows of that array. -/
theorem flushed1_6 (c : Dev nD) (t : Fin cfg1.N) :
    (dat1 V c).flushed 6 t = ((cfg1.win 6).blk t).view.read (Elt Ideal) (band16 (V c main_arg2) (V c main_v28_1)) := by
  show (cfg1.win 6).cut (grid1.coords t) ((dat1 V c).after 6 t) = _
  rw [after1_6]
  unfold out1_6
  rw [View.canon_unit_zero hz2]
  simp only [View.ld_unit_zero (S := S200x10000) hz2, View.ld_unit_zero (S := S10000x24) hz2]
  funext j
  obtain ⟨r, q, rfl⟩ : ∃ (r : Fin 200) (q : Fin 16), j = ix2 r q := ⟨j 0, j 1, eq_ix2 j⟩
  have ht := t_lt1 t
  have hp : t.val * 200 + r.val < 10000 := by have := r.isLt; omega
  show k1_pay5 (iblk1 V c 1 t) (iblk1 V c 3 t) (ix2 r q)
    = band16 (V c main_arg2) (V c main_v28_1) (((cfg1.win 6).blk t).view.emb (ix2 r q))
  rw [emb1_6 t r q ⟨t.val * 200 + r.val, hp⟩ rfl]
  refine (pay5_apply _ _ r q ⟨q.val, by have := q.isLt; omega⟩ (by simp)).trans ?_
  simp only [fun d => iblk1_1_apply V c t r d ⟨t.val * 200 + r.val, hp⟩ rfl, iblk1_3_apply]
  rfl

theorem val1_6 (c : Dev nD) : (dat1 V c).arrAt 6 cfg1.N = band16 (V c main_arg2) (V c main_v28_1) :=
  (dat1 V c).arrAt_eq_of_cover 6 _ (fun t _ => flushed1_6 V c t) covers1_6
/-- What point t writes back into output window 7 is its 200 rows of that array. -/
theorem flushed1_7 (c : Dev nD) (t : Fin cfg1.N) :
    (dat1 V c).flushed 7 t = ((cfg1.win 7).blk t).view.read (Elt Ideal) (band8 (V c main_arg2) (V c main_v28_1)) := by
  show (cfg1.win 7).cut (grid1.coords t) ((dat1 V c).after 7 t) = _
  rw [after1_7]
  unfold out1_7
  rw [View.canon_unit_zero hz2]
  simp only [View.ld_unit_zero (S := S200x10000) hz2, View.ld_unit_zero (S := S10000x24) hz2]
  funext j
  obtain ⟨r, q, rfl⟩ : ∃ (r : Fin 200) (q : Fin 8), j = ix2 r q := ⟨j 0, j 1, eq_ix2 j⟩
  have ht := t_lt1 t
  have hp : t.val * 200 + r.val < 10000 := by have := r.isLt; omega
  show k1_pay6 (iblk1 V c 1 t) (iblk1 V c 3 t) (ix2 r q)
    = band8 (V c main_arg2) (V c main_v28_1) (((cfg1.win 7).blk t).view.emb (ix2 r q))
  rw [emb1_7 t r q ⟨t.val * 200 + r.val, hp⟩ rfl]
  refine (pay6_apply _ _ r q ⟨16 + q.val, by have := q.isLt; omega⟩ rfl).trans ?_
  simp only [fun d => iblk1_1_apply V c t r d ⟨t.val * 200 + r.val, hp⟩ rfl, iblk1_3_apply]
  rfl

theorem val1_7 (c : Dev nD) : (dat1 V c).arrAt 7 cfg1.N = band8 (V c main_arg2) (V c main_v28_1) :=
  (dat1 V c).arrAt_eq_of_cover 7 _ (fun t _ => flushed1_7 V c t) covers1_7

/-! ## The two copies -/

/-- What point t writes back into output window 8 is its 200 rows of the matrix itself. -/
theorem flushed1_8 (c : Dev nD) (t : Fin cfg1.N) :
    (dat1 V c).flushed 8 t = ((cfg1.win 8).blk t).view.read (Elt Ideal) (fun i => (V c main_arg1 : S10000x10000.Idx → EReal) i) := by
  show (cfg1.win 8).cut (grid1.coords t) ((dat1 V c).after 8 t) = _
  rw [after1_8]
  unfold out1_8
  rw [View.canon_unit_zero hz2]
  simp only [View.ld_unit_zero (S := S200x10000) hz2]
  funext j
  obtain ⟨r, q, rfl⟩ : ∃ (r : Fin 200) (q : Fin 10000), j = ix2 r q := ⟨j 0, j 1, eq_ix2 j⟩
  have ht := t_lt1 t
  have hp : t.val * 200 + r.val < 10000 := by have := r.isLt; omega
  show k1_pay7 (iblk1 V c 0 t) (ix2 r q) = (V c main_arg1 : S10000x10000.Idx → EReal) (((cfg1.win 8).blk t).view.emb (ix2 r q))
  rw [emb1_8 t r q ⟨t.val * 200 + r.val, hp⟩ rfl]
  exact iblk1_0_apply V c t r q ⟨t.val * 200 + r.val, hp⟩ rfl

theorem val1_8 (c : Dev nD) : (dat1 V c).arrAt 8 cfg1.N = (fun i => (V c main_arg1 : S10000x10000.Idx → EReal) i) :=
  (dat1 V c).arrAt_eq_of_cover 8 _ (fun t _ => flushed1_8 V c t) covers1_8
/-- What point t writes back into output window 9 is its 200 rows of the matrix itself. -/
theorem flushed1_9 (c : Dev nD) (t : Fin cfg1.N) :
    (dat1 V c).flushed 9 t = ((cfg1.win 9).blk t).view.read (Elt Ideal) (fun i => (V c main_arg2 : S10000x10000.Idx → EReal) i) := by
  show (cfg1.win 9).cut (grid1.coords t) ((dat1 V c).after 9 t) = _
  rw [after1_9]
  unfold out1_9
  rw [View.canon_unit_zero hz2]
  simp only [View.ld_unit_zero (S := S200x10000) hz2]
  funext j
  obtain ⟨r, q, rfl⟩ : ∃ (r : Fin 200) (q : Fin 10000), j = ix2 r q := ⟨j 0, j 1, eq_ix2 j⟩
  have ht := t_lt1 t
  have hp : t.val * 200 + r.val < 10000 := by have := r.isLt; omega
  show k1_pay8 (iblk1 V c 1 t) (ix2 r q) = (V c main_arg2 : S10000x10000.Idx → EReal) (((cfg1.win 9).blk t).view.emb (ix2 r q))
  rw [emb1_9 t r q ⟨t.val * 200 + r.val, hp⟩ rfl]
  exact iblk1_1_apply V c t r q ⟨t.val * 200 + r.val, hp⟩ rfl

theorem val1_9 (c : Dev nD) : (dat1 V c).arrAt 9 cfg1.N = (fun i => (V c main_arg2 : S10000x10000.Idx → EReal) i) :=
  (dat1 V c).arrAt_eq_of_cover 9 _ (fun t _ => flushed1_9 V c t) covers1_9

end Cert.KernelIdeal.Val.R1

end
-- ==== Proof.KI.Val2.lean ====
/-
  Region 2 (the second propagation): what its four output arrays hold after the region.  A grid point works on 400
  rows: it multiplies its 400 × 10000 block of each graph matrix (the copies region 1 made) by the whole 10000 × 16
  "continues deeper" array of that matrix's channels, and stores columns 0–7 and 8–15 of each product into two
  outputs.  The narrowing of the right factor's format changes nothing on the extended reals.
-/
import proofs.«122926_g88072599371920_cont_sun_m_806_20_alg».proof.Proof.KI.D2
import proofs.«122926_g88072599371920_cont_sun_m_806_20_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.R2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Bridge

theorem hz2 : (![0, 0] : Fin 2 → Nat) = fun _ => 0 := funext fun a => by fin_cases a <;> rfl

/-- A block of 400 rows of a graph matrix times the whole 10000 × 16 array, at (r, a). -/
theorem pay1_apply (x0 : Vec Ideal S400x10000 .bf16) (x2 : Vec Ideal S10000x16 .f32) (r : Fin 400) (a : Fin 16) :
    k2_pay1 x0 x2 (ix2 r a) = ∑ k : Fin 10000, x0 (ix2 r k) * x2 (ix2 k a) := by
  unfold k2_pay1
  simp only [shapeCast_self]
  exact matmul_zero_plain dot_S400x10000_S10000x16_S400x16_1_0_0_1_n_n rfl rfl rfl rfl rfl rfl none x0 (truncf .bf16 x2 bitsLt_bf16_f32) r a
theorem pay2_apply (x6 : Vec Ideal S400x10000 .bf16) (x8 : Vec Ideal S10000x16 .f32) (r : Fin 400) (a : Fin 16) :
    k2_pay2 x6 x8 (ix2 r a) = ∑ k : Fin 10000, x6 (ix2 r k) * x8 (ix2 k a) := by
  unfold k2_pay2
  simp only [shapeCast_self]
  exact matmul_zero_plain dot_S400x10000_S10000x16_S400x16_1_0_0_1_n_n rfl rfl rfl rfl rfl rfl none x6 (truncf .bf16 x8 bitsLt_bf16_f32) r a
/-- Its columns 0–7 … -/
theorem pay3_apply (x0 : Vec Ideal S400x10000 .bf16) (x2 : Vec Ideal S10000x16 .f32) (r : Fin 400) (q : Fin 8) (a : Fin 16) (ha : a.val = 0 + q.val) :
    k2_pay3 x0 x2 (ix2 r q) = ∑ k : Fin 10000, x0 (ix2 r k) * x2 (ix2 k a) := by
  unfold k2_pay3
  exact (slice2_axis1_apply 0 _ _ r q a ha).trans (pay1_apply x0 x2 r a)
/-- … and 8–15. -/
theorem pay4_apply (x0 : Vec Ideal S400x10000 .bf16) (x2 : Vec Ideal S10000x16 .f32) (r : Fin 400) (q : Fin 8) (a : Fin 16) (ha : a.val = 8 + q.val) :
    k2_pay4 x0 x2 (ix2 r q) = ∑ k : Fin 10000, x0 (ix2 r k) * x2 (ix2 k a) := by
  unfold k2_pay4
  exact (slice2_axis1_apply 8 _ _ r q a ha).trans (pay1_apply x0 x2 r a)
theorem pay5_apply (x6 : Vec Ideal S400x10000 .bf16) (x8 : Vec Ideal S10000x16 .f32) (r : Fin 400) (q : Fin 8) (a : Fin 16) (ha : a.val = 0 + q.val) :
    k2_pay5 x6 x8 (ix2 r q) = ∑ k : Fin 10000, x6 (ix2 r k) * x8 (ix2 k a) := by
  unfold k2_pay5
  exact (slice2_axis1_apply 0 _ _ r q a ha).trans (pay2_apply x6 x8 r a)
theorem pay6_apply (x6 : Vec Ideal S400x10000 .bf16) (x8 : Vec Ideal S10000x16 .f32) (r : Fin 400) (q : Fin 8) (a : Fin 16) (ha : a.val = 8 + q.val) :
    k2_pay6 x6 x8 (ix2 r q) = ∑ k : Fin 10000, x6 (ix2 r k) * x8 (ix2 k a) := by
  unfold k2_pay6
  exact (slice2_axis1_apply 8 _ _ r q a ha).trans (pay2_apply x6 x8 r a)

/-! ## Where the windows' blocks sit -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem t_lt2 (t : Fin cfg2.N) : t.val < 25 := lt_of_lt_of_eq t.isLt N_2

variable (V : (c : Dev nD) → (b : Ref sig .tc) → Buf (Elt Ideal) ((c : Thread nD τ).loc b))

/-- The smoothing matrix's copy: the block at point t, entry (r, d), is row 400 t + r of the array. -/
theorem iblk2_0_apply (c : Dev nD) (t : Fin cfg2.N) (r : Fin 400) (d : Fin 10000) (p : Fin 10000) (hp : p.val = t.val * 400 + r.val) :
    iblk2 V c 0 t (ix2 r d) = V c main_v29_4 (ix2 p d) := by
  show V c main_v29_4 (((cfg2.win 0).blk t).view.emb (ix2 r d)) = V c main_v29_4 (ix2 p d)
  refine congrArg _ ?_
  funext a; apply Fin.ext
  match a with
  | ⟨0, _⟩ => show win2_0.index t (0 : Fin 2) * 400 + 1 * r.val = p.val; rw [(idx2_0 t).1]; omega
  | ⟨1, _⟩ => show win2_0.index t (1 : Fin 2) * 10000 + 1 * d.val = d.val; rw [(idx2_0 t).2]; omega
/-- The wavelet matrix's copy: the block at point t, entry (r, d), is row 400 t + r of the array. -/
theorem iblk2_1_apply (c : Dev nD) (t : Fin cfg2.N) (r : Fin 400) (d : Fin 10000) (p : Fin 10000) (hp : p.val = t.val * 400 + r.val) :
    iblk2 V c 1 t (ix2 r d) = V c main_v29_5 (ix2 p d) := by
  show V c main_v29_5 (((cfg2.win 1).blk t).view.emb (ix2 r d)) = V c main_v29_5 (ix2 p d)
  refine congrArg _ ?_
  funext a; apply Fin.ext
  match a with
  | ⟨0, _⟩ => show win2_1.index t (0 : Fin 2) * 400 + 1 * r.val = p.val; rw [(idx2_1 t).1]; omega
  | ⟨1, _⟩ => show win2_1.index t (1 : Fin 2) * 10000 + 1 * d.val = d.val; rw [(idx2_1 t).2]; omega
/-- The smoothing channels that continue deeper: the block at every point is the whole array. -/
theorem iblk2_2_apply (c : Dev nD) (t : Fin cfg2.N) (a : Fin 10000) (b : Fin 16) :
    iblk2 V c 2 t (ix2 a b) = V c main_v29_0 (ix2 a b) := by
  show V c main_v29_0 (((cfg2.win 2).blk t).view.emb (ix2 a b)) = V c main_v29_0 (ix2 a b)
  refine congrArg _ ?_
  funext e; apply Fin.ext
  match e with
  | ⟨0, _⟩ => show win2_2.index t (0 : Fin 2) * 10000 + 1 * a.val = a.val; rw [(idx2_2 t).1]; omega
  | ⟨1, _⟩ => show win2_2.index t (1 : Fin 2) * 16 + 1 * b.val = b.val; rw [(idx2_2 t).2]; omega
/-- The wavelet channels that continue deeper: the block at every point is the whole array. -/
theorem iblk2_3_apply (c : Dev nD) (t : Fin cfg2.N) (a : Fin 10000) (b : Fin 16) :
    iblk2 V c 3 t (ix2 a b) = V c main_v29_2 (ix2 a b) := by
  show V c main_v29_2 (((cfg2.win 3).blk t).view.emb (ix2 a b)) = V c main_v29_2 (ix2 a b)
  refine congrArg _ ?_
  funext e; apply Fin.ext
  match e with
  | ⟨0, _⟩ => show win2_3.index t (0 : Fin 2) * 10000 + 1 * a.val = a.val; rw [(idx2_3 t).1]; omega
  | ⟨1, _⟩ => show win2_3.index t (1 : Fin 2) * 16 + 1 * b.val = b.val; rw [(idx2_3 t).2]; omega
/-- Output window 4: entry (r, q) of point t's block is row 400 t + r of the array. -/
theorem emb2_4 (t : Fin cfg2.N) (r : Fin 400) (q : Fin 8) (p : Fin 10000) (hp : p.val = t.val * 400 + r.val) :
    ((cfg2.win 4).blk t).view.emb (ix2 r q) = ix2 p q := by
  funext a; apply Fin.ext
  match a with
  | ⟨0, _⟩ => show win2_4.index t (0 : Fin 2) * 400 + 1 * r.val = p.val; rw [(idx2_4 t).1]; omega
  | ⟨1, _⟩ => show win2_4.index t (1 : Fin 2) * 8 + 1 * q.val = q.val; rw [(idx2_4 t).2]; omega
/-- An index of that array lies in point t's block iff its row is among the point's 400 rows. -/
theorem mem_blk2_4 (t : Fin cfg2.N) (i : S10000x8.Idx) :
    i ∈ ((cfg2.win 4).blk t).view.set ↔ ∀ a : Fin 2, win2_4.index t a * S400x8.size a ≤ (i a).val ∧ (i a).val < win2_4.index t a * S400x8.size a + S400x8.size a := by
  show i ∈ ((View.whole main_v30_0).slice (win2_4.rect t)).set ↔ _
  rw [View.set_slice_whole, Rect.mem_set_unit]
  exact Iff.rfl
/-- Every row belongs to the point numbered by its quotient by 400. -/
theorem covers2_4 (i : S10000x8.Idx) : ∃ t : Fin cfg2.N, (cfg2.win 4).flush t = true ∧ i ∈ ((cfg2.win 4).blk t).view.set := by
  have hi0 := idx2_lt0 i
  have hi1 := idx2_lt1 i
  have hN : (i 0).val / 400 < cfg2.N := by rw [show cfg2.N = 25 from N_2]; omega
  refine ⟨⟨(i 0).val / 400, hN⟩, flush2_4 _, ?_⟩
  rw [mem_blk2_4]
  have e0 := (idx2_4 ⟨(i 0).val / 400, hN⟩).1
  have e1 := (idx2_4 ⟨(i 0).val / 400, hN⟩).2
  intro a
  match a with
  | ⟨0, _⟩ => show win2_4.index ⟨(i 0).val / 400, hN⟩ (0 : Fin 2) * 400 ≤ (i 0).val ∧ (i 0).val < win2_4.index ⟨(i 0).val / 400, hN⟩ (0 : Fin 2) * 400 + 400; rw [e0]; show (i 0).val / 400 * 400 ≤ (i 0).val ∧ (i 0).val < (i 0).val / 400 * 400 + 400; omega
  | ⟨1, _⟩ => show win2_4.index ⟨(i 0).val / 400, hN⟩ (1 : Fin 2) * 8 ≤ (i 1).val ∧ (i 1).val < win2_4.index ⟨(i 0).val / 400, hN⟩ (1 : Fin 2) * 8 + 8; rw [e1]; omega
/-- Output window 5: entry (r, q) of point t's block is row 400 t + r of the array. -/
theorem emb2_5 (t : Fin cfg2.N) (r : Fin 400) (q : Fin 8) (p : Fin 10000) (hp : p.val = t.val * 400 + r.val) :
    ((cfg2.win 5).blk t).view.emb (ix2 r q) = ix2 p q := by
  funext a; apply Fin.ext
  match a with
  | ⟨0, _⟩ => show win2_5.index t (0 : Fin 2) * 400 + 1 * r.val = p.val; rw [(idx2_5 t).1]; omega
  | ⟨1, _⟩ => show win2_5.index t (1 : Fin 2) * 8 + 1 * q.val = q.val; rw [(idx2_5 t).2]; omega
/-- An index of that array lies in point t's block iff its row is among the point's 400 rows. -/
theorem mem_blk2_5 (t : Fin cfg2.N) (i : S10000x8.Idx) :
    i ∈ ((cfg2.win 5).blk t).view.set ↔ ∀ a : Fin 2, win2_5.index t a * S400x8.size a ≤ (i a).val ∧ (i a).val < win2_5.index t a * S400x8.size a + S400x8.size a := by
  show i ∈ ((View.whole main_v30_1).slice (win2_5.rect t)).set ↔ _
  rw [View.set_slice_whole, Rect.mem_set_unit]
  exact Iff.rfl
/-- Every row belongs to the point numbered by its quotient by 400. -/
theorem covers2_5 (i : S10000x8.Idx) : ∃ t : Fin cfg2.N, (cfg2.win 5).flush t = true ∧ i ∈ ((cfg2.win 5).blk t).view.set := by
  have hi0 := idx2_lt0 i
  have hi1 := idx2_lt1 i
  have hN : (i 0).val / 400 < cfg2.N := by rw [show cfg2.N = 25 from N_2]; omega
  refine ⟨⟨(i 0).val / 400, hN⟩, flush2_5 _, ?_⟩
  rw [mem_blk2_5]
  have e0 := (idx2_5 ⟨(i 0).val / 400, hN⟩).1
  have e1 := (idx2_5 ⟨(i 0).val / 400, hN⟩).2
  intro a
  match a with
  | ⟨0, _⟩ => show win2_5.index ⟨(i 0).val / 400, hN⟩ (0 : Fin 2) * 400 ≤ (i 0).val ∧ (i 0).val < win2_5.index ⟨(i 0).val / 400, hN⟩ (0 : Fin 2) * 400 + 400; rw [e0]; show (i 0).val / 400 * 400 ≤ (i 0).val ∧ (i 0).val < (i 0).val / 400 * 400 + 400; omega
  | ⟨1, _⟩ => show win2_5.index ⟨(i 0).val / 400, hN⟩ (1 : Fin 2) * 8 ≤ (i 1).val ∧ (i 1).val < win2_5.index ⟨(i 0).val / 400, hN⟩ (1 : Fin 2) * 8 + 8; rw [e1]; omega
/-- Output window 6: entry (r, q) of point t's block is row 400 t + r of the array. -/
theorem emb2_6 (t : Fin cfg2.N) (r : Fin 400) (q : Fin 8) (p : Fin 10000) (hp : p.val = t.val * 400 + r.val) :
    ((cfg2.win 6).blk t).view.emb (ix2 r q) = ix2 p q := by
  funext a; apply Fin.ext
  match a with
  | ⟨0, _⟩ => show win2_6.index t (0 : Fin 2) * 400 + 1 * r.val = p.val; rw [(idx2_6 t).1]; omega
  | ⟨1, _⟩ => show win2_6.index t (1 : Fin 2) * 8 + 1 * q.val = q.val; rw [(idx2_6 t).2]; omega
/-- An index of that array lies in point t's block iff its row is among the point's 400 rows. -/
theorem mem_blk2_6 (t : Fin cfg2.N) (i : S10000x8.Idx) :
    i ∈ ((cfg2.win 6).blk t).view.set ↔ ∀ a : Fin 2, win2_6.index t a * S400x8.size a ≤ (i a).val ∧ (i a).val < win2_6.index t a * S400x8.size a + S400x8.size a := by
  show i ∈ ((View.whole main_v30_2).slice (win2_6.rect t)).set ↔ _
  rw [View.set_slice_whole, Rect.mem_set_unit]
  exact Iff.rfl
/-- Every row belongs to the point numbered by its quotient by 400. -/
theorem covers2_6 (i : S10000x8.Idx) : ∃ t : Fin cfg2.N, (cfg2.win 6).flush t = true ∧ i ∈ ((cfg2.win 6).blk t).view.set := by
  have hi0 := idx2_lt0 i
  have hi1 := idx2_lt1 i
  have hN : (i 0).val / 400 < cfg2.N := by rw [show cfg2.N = 25 from N_2]; omega
  refine ⟨⟨(i 0).val / 400, hN⟩, flush2_6 _, ?_⟩
  rw [mem_blk2_6]
  have e0 := (idx2_6 ⟨(i 0).val / 400, hN⟩).1
  have e1 := (idx2_6 ⟨(i 0).val / 400, hN⟩).2
  intro a
  match a with
  | ⟨0, _⟩ => show win2_6.index ⟨(i 0).val / 400, hN⟩ (0 : Fin 2) * 400 ≤ (i 0).val ∧ (i 0).val < win2_6.index ⟨(i 0).val / 400, hN⟩ (0 : Fin 2) * 400 + 400; rw [e0]; show (i 0).val / 400 * 400 ≤ (i 0).val ∧ (i 0).val < (i 0).val / 400 * 400 + 400; omega
  | ⟨1, _⟩ => show win2_6.index ⟨(i 0).val / 400, hN⟩ (1 : Fin 2) * 8 ≤ (i 1).val ∧ (i 1).val < win2_6.index ⟨(i 0).val / 400, hN⟩ (1 : Fin 2) * 8 + 8; rw [e1]; omega
/-- Output window 7: entry (r, q) of point t's block is row 400 t + r of the array. -/
theorem emb2_7 (t : Fin cfg2.N) (r : Fin 400) (q : Fin 8) (p : Fin 10000) (hp : p.val = t.val * 400 + r.val) :
    ((cfg2.win 7).blk t).view.emb (ix2 r q) = ix2 p q := by
  funext a; apply Fin.ext
  match a with
  | ⟨0, _⟩ => show win2_7.index t (0 : Fin 2) * 400 + 1 * r.val = p.val; rw [(idx2_7 t).1]; omega
  | ⟨1, _⟩ => show win2_7.index t (1 : Fin 2) * 8 + 1 * q.val = q.val; rw [(idx2_7 t).2]; omega
/-- An index of that array lies in point t's block iff its row is among the point's 400 rows. -/
theorem mem_blk2_7 (t : Fin cfg2.N) (i : S10000x8.Idx) :
    i ∈ ((cfg2.win 7).blk t).view.set ↔ ∀ a : Fin 2, win2_7.index t a * S400x8.size a ≤ (i a).val ∧ (i a).val < win2_7.index t a * S400x8.size a + S400x8.size a := by
  show i ∈ ((View.whole main_v30_3).slice (win2_7.rect t)).set ↔ _
  rw [View.set_slice_whole, Rect.mem_set_unit]
  exact Iff.rfl
/-- Every row belongs to the point numbered by its quotient by 400. -/
theorem covers2_7 (i : S10000x8.Idx) : ∃ t : Fin cfg2.N, (cfg2.win 7).flush t = true ∧ i ∈ ((cfg2.win 7).blk t).view.set := by
  have hi0 := idx2_lt0 i
  have hi1 := idx2_lt1 i
  have hN : (i 0).val / 400 < cfg2.N := by rw [show cfg2.N = 25 from N_2]; omega
  refine ⟨⟨(i 0).val / 400, hN⟩, flush2_7 _, ?_⟩
  rw [mem_blk2_7]
  have e0 := (idx2_7 ⟨(i 0).val / 400, hN⟩).1
  have e1 := (idx2_7 ⟨(i 0).val / 400, hN⟩).2
  intro a
  match a with
  | ⟨0, _⟩ => show win2_7.index ⟨(i 0).val / 400, hN⟩ (0 : Fin 2) * 400 ≤ (i 0).val ∧ (i 0).val < win2_7.index ⟨(i 0).val / 400, hN⟩ (0 : Fin 2) * 400 + 400; rw [e0]; show (i 0).val / 400 * 400 ≤ (i 0).val ∧ (i 0).val < (i 0).val / 400 * 400 + 400; omega
  | ⟨1, _⟩ => show win2_7.index ⟨(i 0).val / 400, hN⟩ (1 : Fin 2) * 8 ≤ (i 1).val ∧ (i 1).val < win2_7.index ⟨(i 0).val / 400, hN⟩ (1 : Fin 2) * 8 + 8; rw [e1]; omega

/-! ## The product outputs -/

/-- Columns 0–7 of a graph matrix times a 10000 × 16 array. -/
def lowBand (L : S10000x10000.Idx → EReal) (R : S10000x16.Idx → EReal) : S10000x8.Idx → EReal :=
  fun i => ∑ k : Fin 10000, L (ix2 (i 0) k) * R (ix2 k ⟨(i 1).val, by have := idx2_lt1 i; omega⟩)

/-- What point t writes back into output window 4 is its 400 rows of that array. -/
theorem flushed2_4 (c : Dev nD) (t : Fin cfg2.N) :
    (dat2 V c).flushed 4 t = ((cfg2.win 4).blk t).view.read (Elt Ideal) (lowBand (V c main_v29_4) (V c main_v29_0)) := by
  show (cfg2.win 4).cut (grid2.coords t) ((dat2 V c).after 4 t) = _
  rw [after2_4]
  unfold out2_4
  rw [View.canon_unit_zero hz2]
  simp only [View.ld_unit_zero (S := S400x10000) hz2, View.ld_unit_zero (S := S10000x16) hz2]
  funext j
  obtain ⟨r, q, rfl⟩ : ∃ (r : Fin 400) (q : Fin 8), j = ix2 r q := ⟨j 0, j 1, eq_ix2 j⟩
  have ht := t_lt2 t
  have hp : t.val * 400 + r.val < 10000 := by have := r.isLt; omega
  show k2_pay3 (iblk2 V c 0 t) (iblk2 V c 2 t) (ix2 r q)
    = lowBand (V c main_v29_4) (V c main_v29_0) (((cfg2.win 4).blk t).view.emb (ix2 r q))
  rw [emb2_4 t r q ⟨t.val * 400 + r.val, hp⟩ rfl]
  refine (pay3_apply _ _ r q ⟨q.val, by have := q.isLt; omega⟩ (by simp)).trans ?_
  simp only [fun d => iblk2_0_apply V c t r d ⟨t.val * 400 + r.val, hp⟩ rfl, iblk2_2_apply]
  rfl

theorem val2_4 (c : Dev nD) : (dat2 V c).arrAt 4 cfg2.N = lowBand (V c main_v29_4) (V c main_v29_0) :=
  (dat2 V c).arrAt_eq_of_cover 4 _ (fun t _ => flushed2_4 V c t) covers2_4
/-- Columns 8–15 of a graph matrix times a 10000 × 16 array. -/
def highBand (L : S10000x10000.Idx → EReal) (R : S10000x16.Idx → EReal) : S10000x8.Idx → EReal :=
  fun i => ∑ k : Fin 10000, L (ix2 (i 0) k) * R (ix2 k ⟨8 + (i 1).val, by have := idx2_lt1 i; omega⟩)

/-- What point t writes back into output window 5 is its 400 rows of that array. -/
theorem flushed2_5 (c : Dev nD) (t : Fin cfg2.N) :
    (dat2 V c).flushed 5 t = ((cfg2.win 5).blk t).view.read (Elt Ideal) (highBand (V c main_v29_4) (V c main_v29_0)) := by
  show (cfg2.win 5).cut (grid2.coords t) ((dat2 V c).after 5 t) = _
  rw [after2_5]
  unfold out2_5
  rw [View.canon_unit_zero hz2]
  simp only [View.ld_unit_zero (S := S400x10000) hz2, View.ld_unit_zero (S := S10000x16) hz2]
  funext j
  obtain ⟨r, q, rfl⟩ : ∃ (r : Fin 400) (q : Fin 8), j = ix2 r q := ⟨j 0, j 1, eq_ix2 j⟩
  have ht := t_lt2 t
  have hp : t.val * 400 + r.val < 10000 := by have := r.isLt; omega
  show k2_pay4 (iblk2 V c 0 t) (iblk2 V c 2 t) (ix2 r q)
    = highBand (V c main_v29_4) (V c main_v29_0) (((cfg2.win 5).blk t).view.emb (ix2 r q))
  rw [emb2_5 t r q ⟨t.val * 400 + r.val, hp⟩ rfl]
  refine (pay4_apply _ _ r q ⟨8 + q.val, by have := q.isLt; omega⟩ rfl).trans ?_
  simp only [fun d => iblk2_0_apply V c t r d ⟨t.val * 400 + r.val, hp⟩ rfl, iblk2_2_apply]
  rfl

theorem val2_5 (c : Dev nD) : (dat2 V c).arrAt 5 cfg2.N = highBand (V c main_v29_4) (V c main_v29_0) :=
  (dat2 V c).arrAt_eq_of_cover 5 _ (fun t _ => flushed2_5 V c t) covers2_5
/-- What point t writes back into output window 6 is its 400 rows of that array. -/
theorem flushed2_6 (c : Dev nD) (t : Fin cfg2.N) :
    (dat2 V c).flushed 6 t = ((cfg2.win 6).blk t).view.read (Elt Ideal) (lowBand (V c main_v29_5) (V c main_v29_2)) := by
  show (cfg2.win 6).cut (grid2.coords t) ((dat2 V c).after 6 t) = _
  rw [after2_6]
  unfold out2_6
  rw [View.canon_unit_zero hz2]
  simp only [View.ld_unit_zero (S := S400x10000) hz2, View.ld_unit_zero (S := S10000x16) hz2]
  funext j
  obtain ⟨r, q, rfl⟩ : ∃ (r : Fin 400) (q : Fin 8), j = ix2 r q := ⟨j 0, j 1, eq_ix2 j⟩
  have ht := t_lt2 t
  have hp : t.val * 400 + r.val < 10000 := by have := r.isLt; omega
  show k2_pay5 (iblk2 V c 1 t) (iblk2 V c 3 t) (ix2 r q)
    = lowBand (V c main_v29_5) (V c main_v29_2) (((cfg2.win 6).blk t).view.emb (ix2 r q))
  rw [emb2_6 t r q ⟨t.val * 400 + r.val, hp⟩ rfl]
  refine (pay5_apply _ _ r q ⟨q.val, by have := q.isLt; omega⟩ (by simp)).trans ?_
  simp only [fun d => iblk2_1_apply V c t r d ⟨t.val * 400 + r.val, hp⟩ rfl, iblk2_3_apply]
  rfl

theorem val2_6 (c : Dev nD) : (dat2 V c).arrAt 6 cfg2.N = lowBand (V c main_v29_5) (V c main_v29_2) :=
  (dat2 V c).arrAt_eq_of_cover 6 _ (fun t _ => flushed2_6 V c t) covers2_6
/-- What point t writes back into output window 7 is its 400 rows of that array. -/
theorem flushed2_7 (c : Dev nD) (t : Fin cfg2.N) :
    (dat2 V c).flushed 7 t = ((cfg2.win 7).blk t).view.read (Elt Ideal) (highBand (V c main_v29_5) (V c main_v29_2)) := by
  show (cfg2.win 7).cut (grid2.coords t) ((dat2 V c).after 7 t) = _
  rw [after2_7]
  unfold out2_7
  rw [View.canon_unit_zero hz2]
  simp only [View.ld_unit_zero (S := S400x10000) hz2, View.ld_unit_zero (S := S10000x16) hz2]
  funext j
  obtain ⟨r, q, rfl⟩ : ∃ (r : Fin 400) (q : Fin 8), j = ix2 r q := ⟨j 0, j 1, eq_ix2 j⟩
  have ht := t_lt2 t
  have hp : t.val * 400 + r.val < 10000 := by have := r.isLt; omega
  show k2_pay6 (iblk2 V c 1 t) (iblk2 V c 3 t) (ix2 r q)
    = highBand (V c main_v29_5) (V c main_v29_2) (((cfg2.win 7).blk t).view.emb (ix2 r q))
  rw [emb2_7 t r q ⟨t.val * 400 + r.val, hp⟩ rfl]
  refine (pay6_apply _ _ r q ⟨8 + q.val, by have := q.isLt; omega⟩ rfl).trans ?_
  simp only [fun d => iblk2_1_apply V c t r d ⟨t.val * 400 + r.val, hp⟩ rfl, iblk2_3_apply]
  rfl

theorem val2_7 (c : Dev nD) : (dat2 V c).arrAt 7 cfg2.N = highBand (V c main_v29_5) (V c main_v29_2) :=
  (dat2 V c).arrAt_eq_of_cover 7 _ (fun t _ => flushed2_7 V c t) covers2_7

end Cert.KernelIdeal.Val.R2

end
-- ==== Proof.KI.Val3.lean ====
/-
  Region 3 (the third propagation, the channel assembly and the head): what its output array holds after the region.
  A grid point works on 400 rows.  It multiplies its 400 × 10000 block of each graph matrix (the copies region 1 made)
  by the whole 10000 × 8 "continues deeper" array of that matrix's deepest channel; puts side by side, as 48 columns,
  the smoothing side's finished channels of levels one and two, its level-three product, and the absolute values of
  the wavelet side's finished channels of levels one and two and of its level-three product; clamps the 48 columns
  below at zero; and stores that 400 × 48 array times the 48 × 128 head weights plus the head's bias row.  The narrowing
  of the right factors' format changes nothing on the extended reals.
-/
import proofs.«122926_g88072599371920_cont_sun_m_806_20_alg».proof.Proof.KI.D3
import proofs.«122926_g88072599371920_cont_sun_m_806_20_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.R3

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Bridge

theorem hz2_3 : (![0, 0] : Fin 2 → Nat) = fun _ => 0 := funext fun a => by fin_cases a <;> rfl

/-! ## The six channels side by side, and the head -/

/-- The six 8-wide channels the region assembles, as functions of a node p and a column q: the smoothing side's finished
    channels of levels one and two, the smoothing matrix's copy times its deepest continuing channel, and the
    absolute values of the wavelet side's finished channels of levels one and two and of the wavelet matrix's copy times
    its deepest continuing channel. -/
def pieces3 (GB SB : S10000x10000.Idx → EReal) (G2C S2C G1D G2D S1D S2D : S10000x8.Idx → EReal) : Fin 6 → Fin 10000 → Fin 8 → EReal
  | ⟨0, _⟩ => fun p q => G1D (ix2 p q)
  | ⟨1, _⟩ => fun p q => G2D (ix2 p q)
  | ⟨2, _⟩ => fun p q => ∑ k : Fin 10000, GB (ix2 p k) * G2C (ix2 k q)
  | ⟨3, _⟩ => fun p q => max (S1D (ix2 p q)) (-(S1D (ix2 p q)))
  | ⟨4, _⟩ => fun p q => max (S2D (ix2 p q)) (-(S2D (ix2 p q)))
  | ⟨5, _⟩ => fun p q => max (∑ k : Fin 10000, SB (ix2 p k) * S2C (ix2 k q)) (-(∑ k : Fin 10000, SB (ix2 p k) * S2C (ix2 k q)))

/-- The head over six channels f: column a of the 48 side-by-side columns is column a % 8 of channel a / 8; each is clamped
    below at zero, and row p of the result is that row times the head weights plus the bias row. -/
def headOf (f : Fin 6 → Fin 10000 → Fin 8 → EReal) (Wr : S48x128.Idx → EReal) (BR : S1x128.Idx → EReal) : S10000x128.Idx → EReal :=
  fun i => (∑ a : Fin 48, max (f ⟨a.val / 8, by have := a.isLt; omega⟩ (i 0) ⟨a.val % 8, by omega⟩) 0 * Wr (ix2 a (i 1))) + BR (ix2 (0 : Fin 1) (i 1))

/-! ## The body's value at an index -/

/-- One of six values by its number. -/
def sel6 {α : Type} (y0 y1 y2 y3 y4 y5 : α) : Fin 6 → α
  | ⟨0, _⟩ => y0 | ⟨1, _⟩ => y1 | ⟨2, _⟩ => y2 | ⟨3, _⟩ => y3 | ⟨4, _⟩ => y4 | ⟨5, _⟩ => y5

/-- Six 400 × 8 arrays laid side by side, read at (r, a) with a = 8 ch + q: array ch at (r, q). -/
theorem cat6_apply (y0 y1 y2 y3 y4 y5 : FVec Ideal S400x8 .f32)
    (h : Shape.Concatenates [S400x8, S400x8, S400x8, S400x8, S400x8, S400x8] S400x48 1)
    (r : Fin 400) (a : Fin 48) (ch : Fin 6) (q : Fin 8) (ha : a.val = 8 * ch.val + q.val) :
    concatenate S400x48 1 [⟨S400x8, y0⟩, ⟨S400x8, y1⟩, ⟨S400x8, y2⟩, ⟨S400x8, y3⟩, ⟨S400x8, y4⟩, ⟨S400x8, y5⟩] h (ix2 r a)
      = sel6 y0 y1 y2 y3 y4 y5 ch (ix2 r q) := by
  have hi : ∀ b : Fin S400x8.rank, b.cast (rfl : S400x8.rank = S400x48.rank) ≠ (1 : Fin 2) →
      ((ix2 r q : S400x8.Idx) b).val = ((ix2 r a : S400x48.Idx) (b.cast rfl)).val := fun b hb => by
    match b with
    | ⟨0, _⟩ => rfl
    | ⟨1, _⟩ => exact absurd rfl hb
  match ch with
  | ⟨0, _⟩ => exact concatenate_apply_piece (t := S400x48) (1 : Fin 2) [⟨S400x8, y0⟩, ⟨S400x8, y1⟩, ⟨S400x8, y2⟩, ⟨S400x8, y3⟩, ⟨S400x8, y4⟩, ⟨S400x8, y5⟩] h (ix2 r a) 0 (by simp) S400x8 y0 rfl rfl 0 rfl (ix2 r q) hi (by show 0 + q.val = a.val; have : a.val = 8 * 0 + q.val := ha; omega)
  | ⟨1, _⟩ => exact concatenate_apply_piece (t := S400x48) (1 : Fin 2) [⟨S400x8, y0⟩, ⟨S400x8, y1⟩, ⟨S400x8, y2⟩, ⟨S400x8, y3⟩, ⟨S400x8, y4⟩, ⟨S400x8, y5⟩] h (ix2 r a) 1 (by simp) S400x8 y1 rfl rfl 8 rfl (ix2 r q) hi (by show 8 + q.val = a.val; have : a.val = 8 * 1 + q.val := ha; omega)
  | ⟨2, _⟩ => exact concatenate_apply_piece (t := S400x48) (1 : Fin 2) [⟨S400x8, y0⟩, ⟨S400x8, y1⟩, ⟨S400x8, y2⟩, ⟨S400x8, y3⟩, ⟨S400x8, y4⟩, ⟨S400x8, y5⟩] h (ix2 r a) 2 (by simp) S400x8 y2 rfl rfl 16 rfl (ix2 r q) hi (by show 16 + q.val = a.val; have : a.val = 8 * 2 + q.val := ha; omega)
  | ⟨3, _⟩ => exact concatenate_apply_piece (t := S400x48) (1 : Fin 2) [⟨S400x8, y0⟩, ⟨S400x8, y1⟩, ⟨S400x8, y2⟩, ⟨S400x8, y3⟩, ⟨S400x8, y4⟩, ⟨S400x8, y5⟩] h (ix2 r a) 3 (by simp) S400x8 y3 rfl rfl 24 rfl (ix2 r q) hi (by show 24 + q.val = a.val; have : a.val = 8 * 3 + q.val := ha; omega)
  | ⟨4, _⟩ => exact concatenate_apply_piece (t := S400x48) (1 : Fin 2) [⟨S400x8, y0⟩, ⟨S400x8, y1⟩, ⟨S400x8, y2⟩, ⟨S400x8, y3⟩, ⟨S400x8, y4⟩, ⟨S400x8, y5⟩] h (ix2 r a) 4 (by simp) S400x8 y4 rfl rfl 32 rfl (ix2 r q) hi (by show 32 + q.val = a.val; have : a.val = 8 * 4 + q.val := ha; omega)
  | ⟨5, _⟩ => exact concatenate_apply_piece (t := S400x48) (1 : Fin 2) [⟨S400x8, y0⟩, ⟨S400x8, y1⟩, ⟨S400x8, y2⟩, ⟨S400x8, y3⟩, ⟨S400x8, y4⟩, ⟨S400x8, y5⟩] h (ix2 r a) 5 (by simp) S400x8 y5 rfl rfl 40 rfl (ix2 r q) hi (by show 40 + q.val = a.val; have : a.val = 8 * 5 + q.val := ha; omega)

/-- The same clamped below at zero. -/
theorem clampCat6_apply (y0 y1 y2 y3 y4 y5 : FVec Ideal S400x8 .f32)
    (h : Shape.Concatenates [S400x8, S400x8, S400x8, S400x8, S400x8, S400x8] S400x48 1)
    (r : Fin 400) (a : Fin 48) (ch : Fin 6) (q : Fin 8) (ha : a.val = 8 * ch.val + q.val) :
    maximumf (concatenate S400x48 1 [⟨S400x8, y0⟩, ⟨S400x8, y1⟩, ⟨S400x8, y2⟩, ⟨S400x8, y3⟩, ⟨S400x8, y4⟩, ⟨S400x8, y5⟩] h)
        (broadcast S400x48 (Scalar.ofBits (F := Ideal) .f32 0x00000000#32)) (ix2 r a)
      = max (sel6 y0 y1 y2 y3 y4 y5 ch (ix2 r q)) 0 := by
  rw [maximumf_apply, broadcast_apply, cat6_apply y0 y1 y2 y3 y4 y5 h r a ch q ha]
  exact congrArg (max _) Ideal.ofBits_zero_f32

/-- The six channels of a block of 400 rows, from the blocks the point reads: channel ch at row r, column q. -/
def rowPieces3 (x0 x1 : S400x10000.Idx → EReal) (x2 x3 : S10000x8.Idx → EReal) (x4 x5 x6 x7 : S400x8.Idx → EReal)
    (r : Fin 400) : Fin 6 → Fin 8 → EReal
  | ⟨0, _⟩ => fun q => x4 (ix2 r q)
  | ⟨1, _⟩ => fun q => x5 (ix2 r q)
  | ⟨2, _⟩ => fun q => ∑ k : Fin 10000, x0 (ix2 r k) * x2 (ix2 k q)
  | ⟨3, _⟩ => fun q => max (x6 (ix2 r q)) (-(x6 (ix2 r q)))
  | ⟨4, _⟩ => fun q => max (x7 (ix2 r q)) (-(x7 (ix2 r q)))
  | ⟨5, _⟩ => fun q => max (∑ k : Fin 10000, x1 (ix2 r k) * x3 (ix2 k q)) (-(∑ k : Fin 10000, x1 (ix2 r k) * x3 (ix2 k q)))

/-- The six arrays the body lays side by side, read at (r, q), are the six channels of the block: the two inner
    products are plain sums (the narrowing of the right factor is the identity on the extended reals), and the
    absolute value is the maximum with the negation. -/
theorem rowPieces3_sel (x0 : FVec Ideal S400x10000 .bf16) (x2 : FVec Ideal S10000x8 .f32) (x1 : FVec Ideal S400x10000 .bf16)
    (x3 : FVec Ideal S10000x8 .f32) (x4 x5 x6 x7 : FVec Ideal S400x8 .f32) (r : Fin 400) (ch : Fin 6) (q : Fin 8) :
    sel6 (α := FVec Ideal S400x8 .f32) x4 x5
        (matmul dot_S400x10000_S10000x8_S400x8_1_0_0_1_n_n none x0 (truncf .bf16 x2 bitsLt_bf16_f32) (constant S400x8 .f32 0x00000000#32))
        (absf (F := Ideal) x6) (absf (F := Ideal) x7)
        (absf (matmul dot_S400x10000_S10000x8_S400x8_1_0_0_1_n_n none x1 (truncf .bf16 x3 bitsLt_bf16_f32) (constant S400x8 .f32 0x00000000#32)))
        ch (ix2 r q)
      = rowPieces3 x0 x1 x2 x3 x4 x5 x6 x7 r ch q := by
  match ch with
  | ⟨0, _⟩ => rfl
  | ⟨1, _⟩ => rfl
  | ⟨2, _⟩ => exact matmul_zero_plain dot_S400x10000_S10000x8_S400x8_1_0_0_1_n_n rfl rfl rfl rfl rfl rfl none x0 (truncf .bf16 x2 bitsLt_bf16_f32) r q
  | ⟨3, _⟩ => rfl
  | ⟨4, _⟩ => rfl
  | ⟨5, _⟩ => exact congrArg (fun z : EReal => max z (-z)) (matmul_zero_plain dot_S400x10000_S10000x8_S400x8_1_0_0_1_n_n rfl rfl rfl rfl rfl rfl none x1 (truncf .bf16 x3 bitsLt_bf16_f32) r q)

/-- The body's 400 × 128 value at (r, j): the clamped 48 columns of row r times column j of the head weights, plus the bias. -/
theorem k3_pay1_apply (x0 : Vec Ideal S400x10000 .bf16) (x2 : Vec Ideal S10000x8 .f32) (x1 : Vec Ideal S400x10000 .bf16)
    (x3 : Vec Ideal S10000x8 .f32) (x4 x5 x6 x7 : Vec Ideal S400x8 .f32) (x8 : Vec Ideal S48x128 .f32) (x9 : Vec Ideal S1x128 .f32)
    (r : Fin 400) (j : Fin 128) :
    k3_pay1 x0 x2 x1 x3 x4 x5 x6 x7 x8 x9 (ix2 r j)
      = (∑ a : Fin 48, max (rowPieces3 x0 x1 x2 x3 x4 x5 x6 x7 r ⟨a.val / 8, by have := a.isLt; omega⟩ ⟨a.val % 8, by omega⟩) 0 * x8 (ix2 a j))
        + x9 (ix2 (0 : Fin 1) j) := by
  unfold k3_pay1
  simp only [addf_apply, shapeCast_self]
  refine congrArg₂ (· + ·)
    ((matmul_zero_plain dot_S400x48_S48x128_S400x128_1_0_0_1_n_n rfl rfl rfl rfl rfl rfl none _ x8 r j).trans ?_)
    (broadcastTo_1b_ab_apply x9 _ r j)
  refine Finset.sum_congr rfl fun a _ => ?_
  refine congrArg (· * x8 (ix2 a j)) ?_
  have h6 : a.val / 8 < 6 := by have := a.isLt; omega
  have h8 : a.val % 8 < 8 := by omega
  refine (clampCat6_apply _ _ _ _ _ _ _ r a ⟨a.val / 8, h6⟩ ⟨a.val % 8, h8⟩ (by show a.val = 8 * (a.val / 8) + a.val % 8; omega)).trans ?_
  simp only [shapeCast_self]
  exact congrArg (max · 0) (rowPieces3_sel x0 x2 x1 x3 x4 x5 x6 x7 r ⟨a.val / 8, h6⟩ ⟨a.val % 8, h8⟩)

/-! ## Where the windows' blocks sit -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)
theorem idx3_10 : ∀ t : Fin cfg3.N, win3_10.index t (0 : Fin 2) = t.val ∧ win3_10.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem t_lt3 (t : Fin cfg3.N) : t.val < 25 := lt_of_lt_of_eq t.isLt N_3

variable (V : (c : Dev nD) → (b : Ref sig .tc) → Buf (Elt Ideal) ((c : Thread nD τ).loc b))

/-- The smoothing matrix's copy: the block at point t, entry (r, d), is row 400 t + r of the array. -/
theorem iblk3_0_apply (c : Dev nD) (t : Fin cfg3.N) (r : Fin 400) (d : Fin 10000) (p : Fin 10000) (hp : p.val = t.val * 400 + r.val) :
    iblk3 V c 0 t (ix2 r d) = V c main_v29_4 (ix2 p d) := by
  show V c main_v29_4 (((cfg3.win 0).blk t).view.emb (ix2 r d)) = V c main_v29_4 (ix2 p d)
  refine congrArg _ ?_
  funext a; apply Fin.ext
  match a with
  | ⟨0, _⟩ => show win3_0.index t (0 : Fin 2) * 400 + 1 * r.val = p.val; rw [(idx3_0 t).1]; omega
  | ⟨1, _⟩ => show win3_0.index t (1 : Fin 2) * 10000 + 1 * d.val = d.val; rw [(idx3_0 t).2]; omega

/-- The wavelet matrix's copy: the block at point t, entry (r, d), is row 400 t + r of the array. -/
theorem iblk3_1_apply (c : Dev nD) (t : Fin cfg3.N) (r : Fin 400) (d : Fin 10000) (p : Fin 10000) (hp : p.val = t.val * 400 + r.val) :
    iblk3 V c 1 t (ix2 r d) = V c main_v29_5 (ix2 p d) := by
  show V c main_v29_5 (((cfg3.win 1).blk t).view.emb (ix2 r d)) = V c main_v29_5 (ix2 p d)
  refine congrArg _ ?_
  funext a; apply Fin.ext
  match a with
  | ⟨0, _⟩ => show win3_1.index t (0 : Fin 2) * 400 + 1 * r.val = p.val; rw [(idx3_1 t).1]; omega
  | ⟨1, _⟩ => show win3_1.index t (1 : Fin 2) * 10000 + 1 * d.val = d.val; rw [(idx3_1 t).2]; omega

/-- The smoothing side's deepest continuing channel: the block at every point is the whole array. -/
theorem iblk3_2_apply (c : Dev nD) (t : Fin cfg3.N) (a : Fin 10000) (b : Fin 8) :
    iblk3 V c 2 t (ix2 a b) = V c main_v30_0 (ix2 a b) := by
  show V c main_v30_0 (((cfg3.win 2).blk t).view.emb (ix2 a b)) = V c main_v30_0 (ix2 a b)
  refine congrArg _ ?_
  funext e; apply Fin.ext
  match e with
  | ⟨0, _⟩ => show win3_2.index t (0 : Fin 2) * 10000 + 1 * a.val = a.val; rw [(idx3_2 t).1]; omega
  | ⟨1, _⟩ => show win3_2.index t (1 : Fin 2) * 8 + 1 * b.val = b.val; rw [(idx3_2 t).2]; omega

/-- The wavelet side's deepest continuing channel: the block at every point is the whole array. -/
theorem iblk3_3_apply (c : Dev nD) (t : Fin cfg3.N) (a : Fin 10000) (b : Fin 8) :
    iblk3 V c 3 t (ix2 a b) = V c main_v30_2 (ix2 a b) := by
  show V c main_v30_2 (((cfg3.win 3).blk t).view.emb (ix2 a b)) = V c main_v30_2 (ix2 a b)
  refine congrArg _ ?_
  funext e; apply Fin.ext
  match e with
  | ⟨0, _⟩ => show win3_3.index t (0 : Fin 2) * 10000 + 1 * a.val = a.val; rw [(idx3_3 t).1]; omega
  | ⟨1, _⟩ => show win3_3.index t (1 : Fin 2) * 8 + 1 * b.val = b.val; rw [(idx3_3 t).2]; omega

/-- The smoothing side's finished channel of level one: the block at point t, entry (r, d), is row 400 t + r of the array. -/
theorem iblk3_4_apply (c : Dev nD) (t : Fin cfg3.N) (r : Fin 400) (d : Fin 8) (p : Fin 10000) (hp : p.val = t.val * 400 + r.val) :
    iblk3 V c 4 t (ix2 r d) = V c main_v29_1 (ix2 p d) := by
  show V c main_v29_1 (((cfg3.win 4).blk t).view.emb (ix2 r d)) = V c main_v29_1 (ix2 p d)
  refine congrArg _ ?_
  funext a; apply Fin.ext
  match a with
  | ⟨0, _⟩ => show win3_4.index t (0 : Fin 2) * 400 + 1 * r.val = p.val; rw [(idx3_4 t).1]; omega
  | ⟨1, _⟩ => show win3_4.index t (1 : Fin 2) * 8 + 1 * d.val = d.val; rw [(idx3_4 t).2]; omega

/-- The smoothing side's finished channel of level two: the block at point t, entry (r, d), is row 400 t + r of the array. -/
theorem iblk3_5_apply (c : Dev nD) (t : Fin cfg3.N) (r : Fin 400) (d : Fin 8) (p : Fin 10000) (hp : p.val = t.val * 400 + r.val) :
    iblk3 V c 5 t (ix2 r d) = V c main_v30_1 (ix2 p d) := by
  show V c main_v30_1 (((cfg3.win 5).blk t).view.emb (ix2 r d)) = V c main_v30_1 (ix2 p d)
  refine congrArg _ ?_
  funext a; apply Fin.ext
  match a with
  | ⟨0, _⟩ => show win3_5.index t (0 : Fin 2) * 400 + 1 * r.val = p.val; rw [(idx3_5 t).1]; omega
  | ⟨1, _⟩ => show win3_5.index t (1 : Fin 2) * 8 + 1 * d.val = d.val; rw [(idx3_5 t).2]; omega

/-- The wavelet side's finished channel of level one: the block at point t, entry (r, d), is row 400 t + r of the array. -/
theorem iblk3_6_apply (c : Dev nD) (t : Fin cfg3.N) (r : Fin 400) (d : Fin 8) (p : Fin 10000) (hp : p.val = t.val * 400 + r.val) :
    iblk3 V c 6 t (ix2 r d) = V c main_v29_3 (ix2 p d) := by
  show V c main_v29_3 (((cfg3.win 6).blk t).view.emb (ix2 r d)) = V c main_v29_3 (ix2 p d)
  refine congrArg _ ?_
  funext a; apply Fin.ext
  match a with
  | ⟨0, _⟩ => show win3_6.index t (0 : Fin 2) * 400 + 1 * r.val = p.val; rw [(idx3_6 t).1]; omega
  | ⟨1, _⟩ => show win3_6.index t (1 : Fin 2) * 8 + 1 * d.val = d.val; rw [(idx3_6 t).2]; omega

/-- The wavelet side's finished channel of level two: the block at point t, entry (r, d), is row 400 t + r of the array. -/
theorem iblk3_7_apply (c : Dev nD) (t : Fin cfg3.N) (r : Fin 400) (d : Fin 8) (p : Fin 10000) (hp : p.val = t.val * 400 + r.val) :
    iblk3 V c 7 t (ix2 r d) = V c main_v30_3 (ix2 p d) := by
  show V c main_v30_3 (((cfg3.win 7).blk t).view.emb (ix2 r d)) = V c main_v30_3 (ix2 p d)
  refine congrArg _ ?_
  funext a; apply Fin.ext
  match a with
  | ⟨0, _⟩ => show win3_7.index t (0 : Fin 2) * 400 + 1 * r.val = p.val; rw [(idx3_7 t).1]; omega
  | ⟨1, _⟩ => show win3_7.index t (1 : Fin 2) * 8 + 1 * d.val = d.val; rw [(idx3_7 t).2]; omega

/-- The head weights: the block at every point is the whole array. -/
theorem iblk3_8_apply (c : Dev nD) (t : Fin cfg3.N) (a : Fin 48) (b : Fin 128) :
    iblk3 V c 8 t (ix2 a b) = V c main_arg5 (ix2 a b) := by
  show V c main_arg5 (((cfg3.win 8).blk t).view.emb (ix2 a b)) = V c main_arg5 (ix2 a b)
  refine congrArg _ ?_
  funext e; apply Fin.ext
  match e with
  | ⟨0, _⟩ => show win3_8.index t (0 : Fin 2) * 48 + 1 * a.val = a.val; rw [(idx3_8 t).1]; omega
  | ⟨1, _⟩ => show win3_8.index t (1 : Fin 2) * 128 + 1 * b.val = b.val; rw [(idx3_8 t).2]; omega

/-- The head's bias row: the block at every point is the whole array. -/
theorem iblk3_9_apply (c : Dev nD) (t : Fin cfg3.N) (a : Fin 1) (b : Fin 128) :
    iblk3 V c 9 t (ix2 a b) = V c main_v27 (ix2 a b) := by
  show V c main_v27 (((cfg3.win 9).blk t).view.emb (ix2 a b)) = V c main_v27 (ix2 a b)
  refine congrArg _ ?_
  funext e; apply Fin.ext
  match e with
  | ⟨0, _⟩ => show win3_9.index t (0 : Fin 2) * 1 + 1 * a.val = a.val; rw [(idx3_9 t).1]; omega
  | ⟨1, _⟩ => show win3_9.index t (1 : Fin 2) * 128 + 1 * b.val = b.val; rw [(idx3_9 t).2]; omega

/-- The output window: entry (r, q) of point t's block is row 400 t + r of the array. -/
theorem emb3_10 (t : Fin cfg3.N) (r : Fin 400) (q : Fin 128) (p : Fin 10000) (hp : p.val = t.val * 400 + r.val) :
    ((cfg3.win 10).blk t).view.emb (ix2 r q) = ix2 p q := by
  funext a; apply Fin.ext
  match a with
  | ⟨0, _⟩ => show win3_10.index t (0 : Fin 2) * 400 + 1 * r.val = p.val; rw [(idx3_10 t).1]; omega
  | ⟨1, _⟩ => show win3_10.index t (1 : Fin 2) * 128 + 1 * q.val = q.val; rw [(idx3_10 t).2]; omega
/-- An index of the output array lies in point t's block iff its row is among the point's 400 rows. -/
theorem mem_blk3_10 (t : Fin cfg3.N) (i : S10000x128.Idx) :
    i ∈ ((cfg3.win 10).blk t).view.set ↔ ∀ a : Fin 2, win3_10.index t a * S400x128.size a ≤ (i a).val ∧ (i a).val < win3_10.index t a * S400x128.size a + S400x128.size a := by
  show i ∈ ((View.whole main_v31).slice (win3_10.rect t)).set ↔ _
  rw [View.set_slice_whole, Rect.mem_set_unit]
  exact Iff.rfl
/-- Every row belongs to the point numbered by its quotient by 400. -/
theorem covers3_10 (i : S10000x128.Idx) : ∃ t : Fin cfg3.N, (cfg3.win 10).flush t = true ∧ i ∈ ((cfg3.win 10).blk t).view.set := by
  have hi0 := idx2_lt0 i
  have hi1 := idx2_lt1 i
  have hN : (i 0).val / 400 < cfg3.N := by rw [show cfg3.N = 25 from N_3]; omega
  refine ⟨⟨(i 0).val / 400, hN⟩, flush3_10 _, ?_⟩
  rw [mem_blk3_10]
  have e0 := (idx3_10 ⟨(i 0).val / 400, hN⟩).1
  have e1 := (idx3_10 ⟨(i 0).val / 400, hN⟩).2
  intro a
  match a with
  | ⟨0, _⟩ => show win3_10.index ⟨(i 0).val / 400, hN⟩ (0 : Fin 2) * 400 ≤ (i 0).val ∧ (i 0).val < win3_10.index ⟨(i 0).val / 400, hN⟩ (0 : Fin 2) * 400 + 400; rw [e0]; show (i 0).val / 400 * 400 ≤ (i 0).val ∧ (i 0).val < (i 0).val / 400 * 400 + 400; omega
  | ⟨1, _⟩ => show win3_10.index ⟨(i 0).val / 400, hN⟩ (1 : Fin 2) * 128 ≤ (i 1).val ∧ (i 1).val < win3_10.index ⟨(i 0).val / 400, hN⟩ (1 : Fin 2) * 128 + 128; rw [e1]; omega

/-! ## The output -/

/-- The six channels of point t's 400 rows, from the blocks it reads, are rows 400 t … 400 t + 399 of the six whole-array channels. -/
theorem rowPieces3_blocks (c : Dev nD) (t : Fin cfg3.N) (r : Fin 400) (p : Fin 10000) (hp : p.val = t.val * 400 + r.val) (ch : Fin 6) (q : Fin 8) :
    rowPieces3 (iblk3 V c 0 t) (iblk3 V c 1 t) (iblk3 V c 2 t) (iblk3 V c 3 t) (iblk3 V c 4 t) (iblk3 V c 5 t) (iblk3 V c 6 t) (iblk3 V c 7 t) r ch q
      = pieces3 (V c main_v29_4) (V c main_v29_5) (V c main_v30_0) (V c main_v30_2) (V c main_v29_1) (V c main_v30_1) (V c main_v29_3) (V c main_v30_3) ch p q := by
  match ch with
  | ⟨0, _⟩ => exact iblk3_4_apply V c t r q p hp
  | ⟨1, _⟩ => exact iblk3_5_apply V c t r q p hp
  | ⟨2, _⟩ => simp only [rowPieces3, pieces3, fun k => iblk3_0_apply V c t r k p hp, iblk3_2_apply]
  | ⟨3, _⟩ => simp only [rowPieces3, pieces3, iblk3_6_apply V c t r q p hp]
  | ⟨4, _⟩ => simp only [rowPieces3, pieces3, iblk3_7_apply V c t r q p hp]
  | ⟨5, _⟩ => simp only [rowPieces3, pieces3, fun k => iblk3_1_apply V c t r k p hp, iblk3_3_apply]

/-- What point t writes back into the output window is its 400 rows of the head over the six channels. -/
theorem flushed3_10 (c : Dev nD) (t : Fin cfg3.N) :
    (dat3 V c).flushed 10 t = ((cfg3.win 10).blk t).view.read (Elt Ideal)
      (headOf (pieces3 (V c main_v29_4) (V c main_v29_5) (V c main_v30_0) (V c main_v30_2) (V c main_v29_1) (V c main_v30_1) (V c main_v29_3) (V c main_v30_3)) (V c main_arg5) (V c main_v27)) := by
  show (cfg3.win 10).cut (grid3.coords t) ((dat3 V c).after 10 t) = _
  rw [after3_10]
  unfold out3_10
  rw [View.canon_unit_zero hz2_3]
  simp only [View.ld_unit_zero (S := S400x10000) hz2_3, View.ld_unit_zero (S := S10000x8) hz2_3, View.ld_unit_zero (S := S400x8) hz2_3,
    View.ld_unit_zero (S := S48x128) hz2_3, View.ld_unit_zero (S := S1x128) hz2_3]
  funext j
  obtain ⟨r, q, rfl⟩ : ∃ (r : Fin 400) (q : Fin 128), j = ix2 r q := ⟨j 0, j 1, eq_ix2 j⟩
  have ht := t_lt3 t
  have hp : t.val * 400 + r.val < 10000 := by have := r.isLt; omega
  show k3_pay1 (iblk3 V c 0 t) (iblk3 V c 2 t) (iblk3 V c 1 t) (iblk3 V c 3 t) (iblk3 V c 4 t) (iblk3 V c 5 t) (iblk3 V c 6 t) (iblk3 V c 7 t) (iblk3 V c 8 t) (iblk3 V c 9 t) (ix2 r q)
    = headOf (pieces3 (V c main_v29_4) (V c main_v29_5) (V c main_v30_0) (V c main_v30_2) (V c main_v29_1) (V c main_v30_1) (V c main_v29_3) (V c main_v30_3)) (V c main_arg5) (V c main_v27)
        (((cfg3.win 10).blk t).view.emb (ix2 r q))
  rw [emb3_10 t r q ⟨t.val * 400 + r.val, hp⟩ rfl]
  refine (k3_pay1_apply _ _ _ _ _ _ _ _ _ _ r q).trans ?_
  simp only [fun ch q' => rowPieces3_blocks V c t r ⟨t.val * 400 + r.val, hp⟩ rfl ch q', iblk3_8_apply, iblk3_9_apply]
  rfl

/-- THE ARRAY AFTER THE REGION: the head over the six channels. -/
theorem val3_10 (c : Dev nD) : (dat3 V c).arrAt 10 cfg3.N = headOf (pieces3 (V c main_v29_4) (V c main_v29_5) (V c main_v30_0) (V c main_v30_2) (V c main_v29_1) (V c main_v30_1) (V c main_v29_3) (V c main_v30_3)) (V c main_arg5) (V c main_v27) :=
  (dat3 V c).arrAt_eq_of_cover 10 _ (fun t _ => flushed3_10 V c t) covers3_10

end Cert.KernelIdeal.Val.R3

end
-- ==== Proof.KI.Val4.lean ====
/-
  Region 4 (the last propagation): what its output array holds after the region.  A grid point works on 1000 rows: it
  multiplies its 1000 × 10000 block of the smoothing matrix's copy by the whole 10000 × 128 head array and stores the
  product.  So the output is the smoothing matrix times the head.
-/
import proofs.«122926_g88072599371920_cont_sun_m_806_20_alg».proof.Proof.KI.D4
import proofs.«122926_g88072599371920_cont_sun_m_806_20_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.R4

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Bridge

theorem hz2 : (![0, 0] : Fin 2 → Nat) = fun _ => 0 := funext fun a => by fin_cases a <;> rfl

/-- A block of 1000 rows of the matrix times the whole head array, at (r, a). -/
theorem pay1_apply (x0 : Vec Ideal S1000x10000 .bf16) (x2 : Vec Ideal S10000x128 .f32) (r : Fin 1000) (a : Fin 128) :
    k4_pay1 x0 x2 (ix2 r a) = ∑ k : Fin 10000, x0 (ix2 r k) * x2 (ix2 k a) := by
  unfold k4_pay1
  simp only [shapeCast_self]
  exact matmul_zero_plain dot_S1000x10000_S10000x128_S1000x128_1_0_0_1_n_n rfl rfl rfl rfl rfl rfl none x0 (truncf .bf16 x2 bitsLt_bf16_f32) r a

/-! ## Where the windows' blocks sit -/

theorem idx4_0 : ∀ t : Fin cfg4.N, win4_0.index t (0 : Fin 2) = t.val ∧ win4_0.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem t_lt4 (t : Fin cfg4.N) : t.val < 10 := lt_of_lt_of_eq t.isLt N_4

variable (V : (c : Dev nD) → (b : Ref sig .tc) → Buf (Elt Ideal) ((c : Thread nD τ).loc b))

/-- The smoothing matrix's copy: the block at point t, entry (r, d), is row 1000 t + r of the array. -/
theorem iblk4_0_apply (c : Dev nD) (t : Fin cfg4.N) (r : Fin 1000) (d : Fin 10000) (p : Fin 10000) (hp : p.val = t.val * 1000 + r.val) :
    iblk4 V c 0 t (ix2 r d) = V c main_v29_4 (ix2 p d) := by
  show V c main_v29_4 (((cfg4.win 0).blk t).view.emb (ix2 r d)) = V c main_v29_4 (ix2 p d)
  refine congrArg _ ?_
  funext a; apply Fin.ext
  match a with
  | ⟨0, _⟩ => show win4_0.index t (0 : Fin 2) * 1000 + 1 * r.val = p.val; rw [(idx4_0 t).1]; omega
  | ⟨1, _⟩ => show win4_0.index t (1 : Fin 2) * 10000 + 1 * d.val = d.val; rw [(idx4_0 t).2]; omega
/-- The head array: the block at every point is the whole array. -/
theorem iblk4_1_apply (c : Dev nD) (t : Fin cfg4.N) (a : Fin 10000) (b : Fin 128) :
    iblk4 V c 1 t (ix2 a b) = V c main_v31 (ix2 a b) := by
  show V c main_v31 (((cfg4.win 1).blk t).view.emb (ix2 a b)) = V c main_v31 (ix2 a b)
  refine congrArg _ ?_
  funext e; apply Fin.ext
  match e with
  | ⟨0, _⟩ => show win4_1.index t (0 : Fin 2) * 10000 + 1 * a.val = a.val; rw [(idx4_1 t).1]; omega
  | ⟨1, _⟩ => show win4_1.index t (1 : Fin 2) * 128 + 1 * b.val = b.val; rw [(idx4_1 t).2]; omega
/-- Output window 2: entry (r, q) of point t's block is row 1000 t + r of the array. -/
theorem emb4_2 (t : Fin cfg4.N) (r : Fin 1000) (q : Fin 128) (p : Fin 10000) (hp : p.val = t.val * 1000 + r.val) :
    ((cfg4.win 2).blk t).view.emb (ix2 r q) = ix2 p q := by
  funext a; apply Fin.ext
  match a with
  | ⟨0, _⟩ => show win4_2.index t (0 : Fin 2) * 1000 + 1 * r.val = p.val; rw [(idx4_2 t).1]; omega
  | ⟨1, _⟩ => show win4_2.index t (1 : Fin 2) * 128 + 1 * q.val = q.val; rw [(idx4_2 t).2]; omega
/-- An index of that array lies in point t's block iff its row is among the point's 1000 rows. -/
theorem mem_blk4_2 (t : Fin cfg4.N) (i : S10000x128.Idx) :
    i ∈ ((cfg4.win 2).blk t).view.set ↔ ∀ a : Fin 2, win4_2.index t a * S1000x128.size a ≤ (i a).val ∧ (i a).val < win4_2.index t a * S1000x128.size a + S1000x128.size a := by
  show i ∈ ((View.whole main_v32).slice (win4_2.rect t)).set ↔ _
  rw [View.set_slice_whole, Rect.mem_set_unit]
  exact Iff.rfl
/-- Every row belongs to the point numbered by its quotient by 1000. -/
theorem covers4_2 (i : S10000x128.Idx) : ∃ t : Fin cfg4.N, (cfg4.win 2).flush t = true ∧ i ∈ ((cfg4.win 2).blk t).view.set := by
  have hi0 := idx2_lt0 i
  have hi1 := idx2_lt1 i
  have hN : (i 0).val / 1000 < cfg4.N := by rw [show cfg4.N = 10 from N_4]; omega
  refine ⟨⟨(i 0).val / 1000, hN⟩, flush4_2 _, ?_⟩
  rw [mem_blk4_2]
  have e0 := (idx4_2 ⟨(i 0).val / 1000, hN⟩).1
  have e1 := (idx4_2 ⟨(i 0).val / 1000, hN⟩).2
  intro a
  match a with
  | ⟨0, _⟩ => show win4_2.index ⟨(i 0).val / 1000, hN⟩ (0 : Fin 2) * 1000 ≤ (i 0).val ∧ (i 0).val < win4_2.index ⟨(i 0).val / 1000, hN⟩ (0 : Fin 2) * 1000 + 1000; rw [e0]; show (i 0).val / 1000 * 1000 ≤ (i 0).val ∧ (i 0).val < (i 0).val / 1000 * 1000 + 1000; omega
  | ⟨1, _⟩ => show win4_2.index ⟨(i 0).val / 1000, hN⟩ (1 : Fin 2) * 128 ≤ (i 1).val ∧ (i 1).val < win4_2.index ⟨(i 0).val / 1000, hN⟩ (1 : Fin 2) * 128 + 128; rw [e1]; omega

/-! ## The output -/

/-- A graph matrix times a 10000 × 128 array. -/
def matTimes (L : S10000x10000.Idx → EReal) (R : S10000x128.Idx → EReal) : S10000x128.Idx → EReal :=
  fun i => ∑ k : Fin 10000, L (ix2 (i 0) k) * R (ix2 k (i 1))

/-- What point t writes back into output window 2 is its 1000 rows of that array. -/
theorem flushed4_2 (c : Dev nD) (t : Fin cfg4.N) :
    (dat4 V c).flushed 2 t = ((cfg4.win 2).blk t).view.read (Elt Ideal) (matTimes (V c main_v29_4) (V c main_v31)) := by
  show (cfg4.win 2).cut (grid4.coords t) ((dat4 V c).after 2 t) = _
  rw [after4_2]
  unfold out4_2
  rw [View.canon_unit_zero hz2]
  simp only [View.ld_unit_zero (S := S1000x10000) hz2, View.ld_unit_zero (S := S10000x128) hz2]
  funext j
  obtain ⟨r, q, rfl⟩ : ∃ (r : Fin 1000) (q : Fin 128), j = ix2 r q := ⟨j 0, j 1, eq_ix2 j⟩
  have ht := t_lt4 t
  have hp : t.val * 1000 + r.val < 10000 := by have := r.isLt; omega
  show k4_pay1 (iblk4 V c 0 t) (iblk4 V c 1 t) (ix2 r q)
    = matTimes (V c main_v29_4) (V c main_v31) (((cfg4.win 2).blk t).view.emb (ix2 r q))
  rw [emb4_2 t r q ⟨t.val * 1000 + r.val, hp⟩ rfl]
  refine (pay1_apply _ _ r q).trans ?_
  simp only [fun d => iblk4_0_apply V c t r d ⟨t.val * 1000 + r.val, hp⟩ rfl, iblk4_1_apply]
  rfl

theorem val4_2 (c : Dev nD) : (dat4 V c).arrAt 2 cfg4.N = matTimes (V c main_v29_4) (V c main_v31) :=
  (dat4 V c).arrAt_eq_of_cover 2 _ (fun t _ => flushed4_2 V c t) covers4_2

end Cert.KernelIdeal.Val.R4

end
-- ==== Proof.KI.HostVal.lean ====
/-
  What the host operations before the first region leave in the three buffers the kernels read, index by index, at
  the extended reals. The six channels' 128x8 weight matrices are cut out of the stacked argument one by one and laid
  side by side along the columns in the order 2, 1, 0, 5, 4, 3 (so that within each operator's group the deeper
  chains come first); the six 8-wide biases are laid end to end in the same order; the head's bias only gains a unit
  axis. Hence column `a` of the 128x48 weight buffer is column `a % 8` of matrix `ord (a / 8)`, and likewise for
  the biases. No host operation writes an argument, so each argument's buffer is still the launch memory's when
  region 0 is entered.
-/
import proofs.«122926_g88072599371920_cont_sun_m_806_20_alg».proof.Proof.KI.Fold
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Idealize.ShloMosaic Idealize.ShloMosaic.TcCoe
open Idealize.SL Idealize.SL.Sem
open Cert.KernelIdeal Cert.KernelIdeal.Gen Cert.KernelIdeal.Fr Idealize.ShloMosaic.ValueIdx

variable (m : (ℓ : Loc nD τ sig) → Buf (Elt Ideal) ℓ) (ρ : Dev nD → PrngReg) (c : Dev nD)

/-- The order in which the channels' weights (and biases) are laid side by side. -/
def ord : Fin 6 → Fin 6 := ![2, 1, 0, 5, 4, 3]

/-! ## The buffers as terms over the launch memory -/

/-- What the host operations leave in the buffer of the channels' weights laid side by side: the six 128x8 weight
    matrices of the argument, each cut out of the stack and reshaped, in the order 2, 1, 0, 5, 4, 3 along the columns. -/
theorem v12_eq : (V1 m ρ c main_v12 : S128x48.Idx → EReal) =
    concatenate S128x48 1 [⟨S128x8, shapeCast S128x8 (extractStridedSlice S1x128x8 ![2, 0, 0] (m ((c : Thread nD τ).loc main_arg3) : S6x128x8.Idx → EReal) slices_S6x128x8_S1x128x8_2_0_0) shapeCasts_S1x128x8_S128x8⟩,
      ⟨S128x8, shapeCast S128x8 (extractStridedSlice S1x128x8 ![1, 0, 0] (m ((c : Thread nD τ).loc main_arg3) : S6x128x8.Idx → EReal) slices_S6x128x8_S1x128x8_1_0_0) shapeCasts_S1x128x8_S128x8⟩,
      ⟨S128x8, shapeCast S128x8 (extractStridedSlice S1x128x8 ![0, 0, 0] (m ((c : Thread nD τ).loc main_arg3) : S6x128x8.Idx → EReal) slices_S6x128x8_S1x128x8_0_0_0) shapeCasts_S1x128x8_S128x8⟩,
      ⟨S128x8, shapeCast S128x8 (extractStridedSlice S1x128x8 ![5, 0, 0] (m ((c : Thread nD τ).loc main_arg3) : S6x128x8.Idx → EReal) slices_S6x128x8_S1x128x8_5_0_0) shapeCasts_S1x128x8_S128x8⟩,
      ⟨S128x8, shapeCast S128x8 (extractStridedSlice S1x128x8 ![4, 0, 0] (m ((c : Thread nD τ).loc main_arg3) : S6x128x8.Idx → EReal) slices_S6x128x8_S1x128x8_4_0_0) shapeCasts_S1x128x8_S128x8⟩,
      ⟨S128x8, shapeCast S128x8 (extractStridedSlice S1x128x8 ![3, 0, 0] (m ((c : Thread nD τ).loc main_arg3) : S6x128x8.Idx → EReal) slices_S6x128x8_S1x128x8_3_0_0) shapeCasts_S1x128x8_S128x8⟩]
      concatenates_S128x8_S128x8_S128x8_S128x8_S128x8_S128x8_S128x48_d1 := by
  show StableHlo.after hostOps0 (fun b => m (c, b)) (Proc.devRef .tc main_v12) = _
  after_results
  rfl

/-- The same for the biases: the six rows of the 6x8 argument, each cut out and flattened, laid end to end in the same
    order and the 48-vector then given a leading unit axis. -/
theorem v26_eq : (V1 m ρ c main_v26 : S1x48.Idx → EReal) =
    shapeCast S1x48 (concatenate S48 0 [⟨S8, shapeCast S8 (extractStridedSlice S1x8 ![2, 0] (m ((c : Thread nD τ).loc main_arg4) : S6x8.Idx → EReal) slices_S6x8_S1x8_2_0) shapeCasts_S1x8_S8⟩,
      ⟨S8, shapeCast S8 (extractStridedSlice S1x8 ![1, 0] (m ((c : Thread nD τ).loc main_arg4) : S6x8.Idx → EReal) slices_S6x8_S1x8_1_0) shapeCasts_S1x8_S8⟩,
      ⟨S8, shapeCast S8 (extractStridedSlice S1x8 ![0, 0] (m ((c : Thread nD τ).loc main_arg4) : S6x8.Idx → EReal) slices_S6x8_S1x8_0_0) shapeCasts_S1x8_S8⟩,
      ⟨S8, shapeCast S8 (extractStridedSlice S1x8 ![5, 0] (m ((c : Thread nD τ).loc main_arg4) : S6x8.Idx → EReal) slices_S6x8_S1x8_5_0) shapeCasts_S1x8_S8⟩,
      ⟨S8, shapeCast S8 (extractStridedSlice S1x8 ![4, 0] (m ((c : Thread nD τ).loc main_arg4) : S6x8.Idx → EReal) slices_S6x8_S1x8_4_0) shapeCasts_S1x8_S8⟩,
      ⟨S8, shapeCast S8 (extractStridedSlice S1x8 ![3, 0] (m ((c : Thread nD τ).loc main_arg4) : S6x8.Idx → EReal) slices_S6x8_S1x8_3_0) shapeCasts_S1x8_S8⟩]
      concatenates_S8_S8_S8_S8_S8_S8_S48_d0) shapeCasts_S48_S1x48 := by
  show StableHlo.after hostOps0 (fun b => m (c, b)) (Proc.devRef .tc main_v26) = _
  after_results
  rfl

/-- The head's bias: the 128-vector argument given a leading unit axis. -/
theorem v27_eq : (V1 m ρ c main_v27 : S1x128.Idx → EReal) =
    shapeCast S1x128 (m ((c : Thread nD τ).loc main_arg6) : S128.Idx → EReal) shapeCasts_S128_S1x128 := by
  show StableHlo.after hostOps0 (fun b => m (c, b)) (Proc.devRef .tc main_v27) = _
  after_results
  rfl

/-! ## One channel's piece read at an index -/

/-- Cutting matrix `o` out of a stack of six is a legal slice, for each of the six. -/
theorem slicesW : ∀ o : Fin 6, S6x128x8.Slices ![o.val, 0, 0] S1x128x8
  | ⟨0, _⟩ => slices_S6x128x8_S1x128x8_0_0_0
  | ⟨1, _⟩ => slices_S6x128x8_S1x128x8_1_0_0
  | ⟨2, _⟩ => slices_S6x128x8_S1x128x8_2_0_0
  | ⟨3, _⟩ => slices_S6x128x8_S1x128x8_3_0_0
  | ⟨4, _⟩ => slices_S6x128x8_S1x128x8_4_0_0
  | ⟨5, _⟩ => slices_S6x128x8_S1x128x8_5_0_0

/-- Cutting row `o` out of six is a legal slice, for each of the six. -/
theorem slicesB : ∀ o : Fin 6, S6x8.Slices ![o.val, 0] S1x8
  | ⟨0, _⟩ => slices_S6x8_S1x8_0_0
  | ⟨1, _⟩ => slices_S6x8_S1x8_1_0
  | ⟨2, _⟩ => slices_S6x8_S1x8_2_0
  | ⟨3, _⟩ => slices_S6x8_S1x8_3_0
  | ⟨4, _⟩ => slices_S6x8_S1x8_4_0
  | ⟨5, _⟩ => slices_S6x8_S1x8_5_0

/-- Matrix `o` of a stack `X` of six 128x8 matrices, cut out and its unit axis dropped. -/
def wPiece (X : S6x128x8.Idx → EReal) (o : Fin 6) : S128x8.Idx → EReal :=
  shapeCast S128x8 (extractStridedSlice S1x128x8 ![o.val, 0, 0] X (slicesW o)) shapeCasts_S1x128x8_S128x8

/-- Row `o` of a 6x8 array `X`, cut out and flattened. -/
def bPiece (X : S6x8.Idx → EReal) (o : Fin 6) : S8.Idx → EReal :=
  shapeCast S8 (extractStridedSlice S1x8 ![o.val, 0] X (slicesB o)) shapeCasts_S1x8_S8

/-- It reads, at row `d` and column `q`, the stack at (o, d, q). -/
theorem wPiece_apply (X : S6x128x8.Idx → EReal) (o : Fin 6) (d : Fin 128) (q : Fin 8) :
    wPiece X o (ix2 d q) = X (ix3 o d q) := by
  unfold wPiece
  refine (shapeCast_1ab_ab_apply _ _ d q).trans ?_
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- It reads, at position `q`, the array at (o, q). -/
theorem bPiece_apply (X : S6x8.Idx → EReal) (o : Fin 6) (q : Fin 8) :
    bPiece X o (ix1 q) = X (ix2 o q) := by
  unfold bPiece
  refine (shapeCast_1a_a_apply _ _ q).trans ?_
  exact extractStridedSlice_apply _ _ _ _ _ (fun ax => by
    match ax with
    | ⟨0, _⟩ => exact (Nat.add_zero _).symm
    | ⟨1, _⟩ => exact (Nat.zero_add _).symm)

/-! ## Six equal pieces side by side, read at an index -/

/-- Six 128x8 pieces laid along the columns: column `a` falls in piece `a / 8`, at its column `a % 8`. -/
theorem concatW_apply (f : Fin 6 → (S128x8.Idx → EReal))
    (h : Shape.Concatenates ((List.ofFn fun n : Fin 6 => (⟨S128x8, f n⟩ : (s : Shape) × (s.Idx → EReal))).map (·.1)) S128x48 1)
    (d : Fin 128) (a : Fin 48) :
    concatenate S128x48 1 (List.ofFn fun n : Fin 6 => (⟨S128x8, f n⟩ : (s : Shape) × (s.Idx → EReal))) h (ix2 d a)
      = f ⟨a.val / 8, by omega⟩ (ix2 d ⟨a.val % 8, Nat.mod_lt _ (by decide)⟩) :=
  concatenate_ofFn_apply 1 f h rfl 8 rfl (ix2 d a) ⟨a.val / 8, by omega⟩ rfl (ix2 d ⟨a.val % 8, Nat.mod_lt _ (by decide)⟩) rfl
    (fun b hb => match b with
      | ⟨0, _⟩ => rfl
      | ⟨1, _⟩ => absurd rfl hb)

/-- Six 8-vectors laid end to end: position `a` falls in piece `a / 8`, at its position `a % 8`. -/
theorem concatB_apply (f : Fin 6 → (S8.Idx → EReal))
    (h : Shape.Concatenates ((List.ofFn fun n : Fin 6 => (⟨S8, f n⟩ : (s : Shape) × (s.Idx → EReal))).map (·.1)) S48 0)
    (a : Fin 48) :
    concatenate S48 0 (List.ofFn fun n : Fin 6 => (⟨S8, f n⟩ : (s : Shape) × (s.Idx → EReal))) h (ix1 a)
      = f ⟨a.val / 8, by omega⟩ (ix1 ⟨a.val % 8, Nat.mod_lt _ (by decide)⟩) :=
  concatenate_ofFn_apply 0 f h rfl 8 rfl (ix1 a) ⟨a.val / 8, by omega⟩ rfl (ix1 ⟨a.val % 8, Nat.mod_lt _ (by decide)⟩) rfl
    (fun b hb => match b with
      | ⟨0, _⟩ => absurd rfl hb)

/-! ## The three buffers at an index -/

/-- The weight buffer region 0 reads: row `d`, column `a` is entry (d, a % 8) of the argument's matrix `ord (a / 8)`. -/
theorem hostW (d : Fin 128) (a : Fin 48) :
    (V1 m ρ c main_v12 : S128x48.Idx → EReal) (ix2 d a)
      = (m ((c : Thread nD τ).loc main_arg3) : S6x128x8.Idx → EReal) (ix3 (ord ⟨a.val / 8, by omega⟩) d ⟨a.val % 8, Nat.mod_lt _ (by decide)⟩) := by
  rw [v12_eq]
  exact (concatW_apply (fun n => wPiece (m ((c : Thread nD τ).loc main_arg3)) (ord n))
    concatenates_S128x8_S128x8_S128x8_S128x8_S128x8_S128x8_S128x48_d1 d a).trans (wPiece_apply _ _ _ _)

/-- The bias buffer region 0 reads: position `a` is entry `a % 8` of the argument's row `ord (a / 8)`. -/
theorem hostB (a : Fin 48) :
    (V1 m ρ c main_v26 : S1x48.Idx → EReal) (ix2 (0 : Fin 1) a)
      = (m ((c : Thread nD τ).loc main_arg4) : S6x8.Idx → EReal) (ix2 (ord ⟨a.val / 8, by omega⟩) ⟨a.val % 8, Nat.mod_lt _ (by decide)⟩) := by
  rw [v26_eq]
  refine (shapeCast_a_1a_apply _ _ (0 : Fin 1) a).trans ?_
  exact (concatB_apply (fun n => bPiece (m ((c : Thread nD τ).loc main_arg4)) (ord n))
    concatenates_S8_S8_S8_S8_S8_S8_S48_d0 a).trans (bPiece_apply _ _ _)

/-- The head's bias buffer region 3 reads: position `j` is the argument's entry `j`. -/
theorem hostR (j : Fin 128) :
    (V1 m ρ c main_v27 : S1x128.Idx → EReal) (ix2 (0 : Fin 1) j)
      = (m ((c : Thread nD τ).loc main_arg6) : S128.Idx → EReal) (ix1 j) := by
  rw [v27_eq]
  exact shapeCast_a_1a_apply _ _ (0 : Fin 1) j

/-! ## The arguments at region 0's entry -/

/-- No host operation writes the buffer `r` when `r` differs from each of the 28 result buffers. -/
theorem W1_of_arg (r : Ref sig .tc)
    (hr : ∀ op ∈ (hostOps0 : List (HloOp τ sig (Elt Ideal))), (Proc.devRef .tc r : DevRef τ sig) ∉ op.writes) :
    W1 m ρ c (Proc.devRef .tc r) = m ((c : Thread nD τ).loc r) :=
  (StableHlo.after_of_forall_not_mem (b := Proc.devRef .tc r) _ _ hr).trans rfl

/-- Argument 0's buffer is as launched when region 0 is entered. -/
theorem W1_main_arg0 : W1 m ρ c (Proc.devRef .tc main_arg0) = m ((c : Thread nD τ).loc main_arg0) :=
  W1_of_arg m ρ c main_arg0 (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 1's buffer is as launched when region 0 is entered. -/
theorem W1_main_arg1 : W1 m ρ c (Proc.devRef .tc main_arg1) = m ((c : Thread nD τ).loc main_arg1) :=
  W1_of_arg m ρ c main_arg1 (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 2's buffer is as launched when region 0 is entered. -/
theorem W1_main_arg2 : W1 m ρ c (Proc.devRef .tc main_arg2) = m ((c : Thread nD τ).loc main_arg2) :=
  W1_of_arg m ρ c main_arg2 (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 3's buffer is as launched when region 0 is entered. -/
theorem W1_main_arg3 : W1 m ρ c (Proc.devRef .tc main_arg3) = m ((c : Thread nD τ).loc main_arg3) :=
  W1_of_arg m ρ c main_arg3 (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 4's buffer is as launched when region 0 is entered. -/
theorem W1_main_arg4 : W1 m ρ c (Proc.devRef .tc main_arg4) = m ((c : Thread nD τ).loc main_arg4) :=
  W1_of_arg m ρ c main_arg4 (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 5's buffer is as launched when region 0 is entered. -/
theorem W1_main_arg5 : W1 m ρ c (Proc.devRef .tc main_arg5) = m ((c : Thread nD τ).loc main_arg5) :=
  W1_of_arg m ρ c main_arg5 (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 6's buffer is as launched when region 0 is entered. -/
theorem W1_main_arg6 : W1 m ρ c (Proc.devRef .tc main_arg6) = m ((c : Thread nD τ).loc main_arg6) :=
  W1_of_arg m ρ c main_arg6 (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

end Cert.KernelIdeal.Val

end
-- ==== Proof.Spec.lean ====
/-
  The specification of the result: a two-layer graph network over 10000 nodes, stated index by index on the
  extended reals.

  Six channels, each 8 wide.  Channel ch first projects the node features, x · Wh[ch] + bh[ch], and then propagates
  the projection along the graph: channels 0, 1, 2 apply the smoothing matrix gcn once, twice and three times;
  channels 3, 4, 5 apply the wavelet matrix sct once, twice and three times and then take the absolute value,
  element by element.  The six channels stand side by side as a 10000 × 48 array (column a of it is column a % 8 of
  channel a / 8), which is clamped below at zero; the head is that array times Wr plus br, and the result is gcn times
  the head.

  Every sum is a plain finite sum of products of extended reals in the order (left factor from the matrix on the
  left); the absolute value is written max a (-a), the clamp max a 0.
-/
import Idealize.ShloMosaic.PureOps.Ideal
import Idealize.ShloMosaic.Lib.ValueIdx

noncomputable section

open scoped BigOperators

namespace Cert.Spec

open Idealize.ShloMosaic ValueIdx

/-- Node features, 10000 × 128. -/
abbrev XArr : Type := (⟨2, ![10000, 128]⟩ : Shape).Idx → EReal
/-- A graph matrix, 10000 × 10000. -/
abbrev MArr : Type := (⟨2, ![10000, 10000]⟩ : Shape).Idx → EReal
/-- The six channels' projection weights, 6 × 128 × 8. -/
abbrev WhArr : Type := (⟨3, ![6, 128, 8]⟩ : Shape).Idx → EReal
/-- The six channels' projection biases, 6 × 8. -/
abbrev BhArr : Type := (⟨2, ![6, 8]⟩ : Shape).Idx → EReal
/-- The head's weights, 48 × 128. -/
abbrev WrArr : Type := (⟨2, ![48, 128]⟩ : Shape).Idx → EReal
/-- The head's bias, 128. -/
abbrev BrArr : Type := (⟨1, ![128]⟩ : Shape).Idx → EReal
/-- The result, 10000 × 128. -/
abbrev OutArr : Type := (⟨2, ![10000, 128]⟩ : Shape).Idx → EReal

/-- Channel ch's projection of node k, column q: (x · Wh[ch] + bh[ch]) (k, q). -/
def proj (x : XArr) (Wh : WhArr) (bh : BhArr) (ch : Fin 6) (k : Fin 10000) (q : Fin 8) : EReal :=
  (∑ d : Fin 128, x (ix2 k d) * Wh (ix3 ch d q)) + bh (ix2 ch q)

/-- One propagation along the graph: (M · h) (i, q). -/
def prop (M : MArr) (h : Fin 10000 → Fin 8 → EReal) (i : Fin 10000) (q : Fin 8) : EReal :=
  ∑ k : Fin 10000, M (ix2 i k) * h k q

/-- The absolute value of an array, element by element. -/
def absArr (h : Fin 10000 → Fin 8 → EReal) (i : Fin 10000) (q : Fin 8) : EReal :=
  max (h i q) (-(h i q))

/-- The six channels: gcn once, twice, three times; |sct once|, |sct twice|, |sct three times| (the absolute value
    once, after the products). -/
def chan (x : XArr) (gcn sct : MArr) (Wh : WhArr) (bh : BhArr) : Fin 6 → Fin 10000 → Fin 8 → EReal
  | ⟨0, _⟩ => prop gcn (proj x Wh bh 0)
  | ⟨1, _⟩ => prop gcn (prop gcn (proj x Wh bh 1))
  | ⟨2, _⟩ => prop gcn (prop gcn (prop gcn (proj x Wh bh 2)))
  | ⟨3, _⟩ => absArr (prop sct (proj x Wh bh 3))
  | ⟨4, _⟩ => absArr (prop sct (prop sct (proj x Wh bh 4)))
  | ⟨5, _⟩ => absArr (prop sct (prop sct (prop sct (proj x Wh bh 5))))

/-- The channel that holds column a of the 48 side-by-side columns. -/
def chanOf (a : Fin 48) : Fin 6 := ⟨a.val / 8, by have := a.isLt; omega⟩
/-- The column of that channel. -/
def colOf (a : Fin 48) : Fin 8 := ⟨a.val % 8, by omega⟩

/-- The hidden layer: the six channels side by side, clamped below at zero. -/
def hid (x : XArr) (gcn sct : MArr) (Wh : WhArr) (bh : BhArr) (k : Fin 10000) (a : Fin 48) : EReal :=
  max (chan x gcn sct Wh bh (chanOf a) k (colOf a)) 0

/-- The head: hid · Wr + br. -/
def head (x : XArr) (gcn sct : MArr) (Wh : WhArr) (bh : BhArr) (Wr : WrArr) (br : BrArr)
    (k : Fin 10000) (j : Fin 128) : EReal :=
  (∑ a : Fin 48, hid x gcn sct Wh bh k a * Wr (ix2 a j)) + br (ix1 j)

/-- The result: gcn · head. -/
def out (x : XArr) (gcn sct : MArr) (Wh : WhArr) (bh : BhArr) (Wr : WrArr) (br : BrArr) : OutArr :=
  fun i => ∑ k : Fin 10000, gcn (ix2 (i 0) k) * head x gcn sct Wh bh Wr br k (i 1)

/-- The result at explicit coordinates. -/
theorem out_ix2 (x : XArr) (gcn sct : MArr) (Wh : WhArr) (bh : BhArr) (Wr : WrArr) (br : BrArr)
    (p : Fin 10000) (j : Fin 128) :
    out x gcn sct Wh bh Wr br (ix2 p j) = ∑ k : Fin 10000, gcn (ix2 p k) * head x gcn sct Wh bh Wr br k j := rfl

/-- Column 8 c + q of the hidden layer is channel c's column q, clamped. -/
theorem hid_mk (x : XArr) (gcn sct : MArr) (Wh : WhArr) (bh : BhArr) (k : Fin 10000) (c : Fin 6) (q : Fin 8)
    (h : 8 * c.val + q.val < 48) :
    hid x gcn sct Wh bh k ⟨8 * c.val + q.val, h⟩ = max (chan x gcn sct Wh bh c k q) 0 := by
  have hc : chanOf ⟨8 * c.val + q.val, h⟩ = c := Fin.ext (by simp only [chanOf]; omega)
  have hq : colOf ⟨8 * c.val + q.val, h⟩ = q := Fin.ext (by simp only [colOf]; omega)
  rw [hid, hc, hq]

/-- The channels, one equation each. -/
theorem chan_0 (x : XArr) (gcn sct : MArr) (Wh : WhArr) (bh : BhArr) :
    chan x gcn sct Wh bh 0 = prop gcn (proj x Wh bh 0) := rfl
theorem chan_1 (x : XArr) (gcn sct : MArr) (Wh : WhArr) (bh : BhArr) :
    chan x gcn sct Wh bh 1 = prop gcn (prop gcn (proj x Wh bh 1)) := rfl
theorem chan_2 (x : XArr) (gcn sct : MArr) (Wh : WhArr) (bh : BhArr) :
    chan x gcn sct Wh bh 2 = prop gcn (prop gcn (prop gcn (proj x Wh bh 2))) := rfl
theorem chan_3 (x : XArr) (gcn sct : MArr) (Wh : WhArr) (bh : BhArr) :
    chan x gcn sct Wh bh 3 = absArr (prop sct (proj x Wh bh 3)) := rfl
theorem chan_4 (x : XArr) (gcn sct : MArr) (Wh : WhArr) (bh : BhArr) :
    chan x gcn sct Wh bh 4 = absArr (prop sct (prop sct (proj x Wh bh 4))) := rfl
theorem chan_5 (x : XArr) (gcn sct : MArr) (Wh : WhArr) (bh : BhArr) :
    chan x gcn sct Wh bh 5 = absArr (prop sct (prop sct (prop sct (proj x Wh bh 5)))) := rfl

end Cert.Spec

end
-- ==== Proof.KI.Compose.lean ====
/-
  The kernel's result is the specification.  Region by region, each array the pipelines write is read as a function of
  the launch arrays: the projection's two halves hold the six channels' projected features (the weights laid side by
  side in the order 2, 1, 0, 5, 4, 3, so that the channels that continue deeper come first); one propagation turns
  columns of projected features into columns of "matrix times projected features", and the band that is split off at
  each level is that level's finished channel; the third level takes the absolute values of the wavelet channels, sets
  the six channels side by side in the order 0 … 5, clamps at zero and applies the head; the last region multiplies by
  the smoothing matrix.  No law of arithmetic is used: the two programs compute literally the same finite sums, and a
  column band of a matrix product is the product with that band of columns.
-/
import proofs.«122926_g88072599371920_cont_sun_m_806_20_alg».proof.Proof.KI.Fold
import proofs.«122926_g88072599371920_cont_sun_m_806_20_alg».proof.Proof.KI.Val0
import proofs.«122926_g88072599371920_cont_sun_m_806_20_alg».proof.Proof.KI.Val1
import proofs.«122926_g88072599371920_cont_sun_m_806_20_alg».proof.Proof.KI.Val2
import proofs.«122926_g88072599371920_cont_sun_m_806_20_alg».proof.Proof.KI.Val3
import proofs.«122926_g88072599371920_cont_sun_m_806_20_alg».proof.Proof.KI.Val4
import proofs.«122926_g88072599371920_cont_sun_m_806_20_alg».proof.Proof.KI.HostVal
import proofs.«122926_g88072599371920_cont_sun_m_806_20_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Bridge

open Cert.Spec
open R0 R1 R2 R3 R4

variable (m : (ℓ : Loc nD τ sig) → Buf (Elt Ideal) ℓ) (ρ : Dev nD → PrngReg) (c : Dev nD)

/-- The launch arrays, under the specification's names. -/
abbrev aX : XArr := m ((c : Thread nD τ).loc main_arg0)
abbrev aG : MArr := m ((c : Thread nD τ).loc main_arg1)
abbrev aS : MArr := m ((c : Thread nD τ).loc main_arg2)
abbrev aWh : WhArr := m ((c : Thread nD τ).loc main_arg3)
abbrev aBh : BhArr := m ((c : Thread nD τ).loc main_arg4)
abbrev aWr : WrArr := m ((c : Thread nD τ).loc main_arg5)
abbrev aBr : BrArr := m ((c : Thread nD τ).loc main_arg6)

/-! ## Region 0: the projected features -/

/-- Column a of "features times the side-by-side weights plus bias" is column a % 8 of the projection of the channel
    that sits at position a / 8. -/
theorem affine_proj (p : Fin 10000) (a : Fin 48) :
    affine (V1 m ρ c main_arg0) (V1 m ρ c main_v12) (V1 m ρ c main_v26) p a
      = proj (aX m c) (aWh m c) (aBh m c) (ord ⟨a.val / 8, by have := a.isLt; omega⟩) p ⟨a.val % 8, by omega⟩ := by
  unfold affine proj
  rw [hostB m ρ c a]
  refine congrArg₂ (· + ·) (Finset.sum_congr rfl fun d _ => ?_) rfl
  rw [hostW m ρ c d a, show V1 m ρ c main_arg0 = m ((c : Thread nD τ).loc main_arg0) from W1_main_arg0 m ρ c]

theorem ag_eq : (V2 m ρ c main_v28_0 : S10000x24.Idx → EReal)
    = leftHalf (V1 m ρ c main_arg0) (V1 m ρ c main_v12) (V1 m ρ c main_v26) :=
  (hF0 m ρ c 3).symm.trans (val0_3 (V1 m ρ) c)
theorem asx_eq : (V2 m ρ c main_v28_1 : S10000x24.Idx → EReal)
    = rightHalf (V1 m ρ c main_arg0) (V1 m ρ c main_v12) (V1 m ρ c main_v26) :=
  (hF0 m ρ c 4).symm.trans (val0_4 (V1 m ρ) c)

/-- The smoothing channels' projected features: columns 0–7, 8–15, 16–23 are channels 2, 1, 0. -/
theorem ag_apply (p : Fin 10000) (a : Fin 24) (ch : Fin 6) (q : Fin 8) (hch : (ord ⟨a.val / 8, by have := a.isLt; omega⟩) = ch) (hq : a.val % 8 = q.val) :
    (V2 m ρ c main_v28_0 : S10000x24.Idx → EReal) (ix2 p a) = proj (aX m c) (aWh m c) (aBh m c) ch p q := by
  rw [ag_eq]
  show affine _ _ _ p ⟨a.val, _⟩ = _
  rw [affine_proj]
  subst hch
  exact congrArg _ (Fin.ext hq)
/-- The wavelet channels' projected features: columns 0–7, 8–15, 16–23 are channels 5, 4, 3. -/
theorem asx_apply (p : Fin 10000) (a : Fin 24) (ch : Fin 6) (q : Fin 8) (hch : (ord ⟨(24 + a.val) / 8, by have := a.isLt; omega⟩) = ch) (hq : (24 + a.val) % 8 = q.val) :
    (V2 m ρ c main_v28_1 : S10000x24.Idx → EReal) (ix2 p a) = proj (aX m c) (aWh m c) (aBh m c) ch p q := by
  rw [asx_eq]
  show affine _ _ _ p ⟨24 + a.val, _⟩ = _
  rw [affine_proj]
  subst hch
  exact congrArg _ (Fin.ext hq)

/-! ## Region 1: one propagation -/

theorem V2_arg1 : V2 m ρ c main_arg1 = m ((c : Thread nD τ).loc main_arg1) :=
  (hrest0 m ρ c main_arg1 (by decide)).trans (W1_main_arg1 m ρ c)
theorem V2_arg2 : V2 m ρ c main_arg2 = m ((c : Thread nD τ).loc main_arg2) :=
  (hrest0 m ρ c main_arg2 (by decide)).trans (W1_main_arg2 m ρ c)

theorem g1c_eq : (V3 m ρ c main_v29_0 : S10000x16.Idx → EReal) = band16 (V2 m ρ c main_arg1) (V2 m ρ c main_v28_0) :=
  (hF1 m ρ c 4).symm.trans (val1_4 (V2 m ρ) c)
theorem g1d_eq : (V3 m ρ c main_v29_1 : S10000x8.Idx → EReal) = band8 (V2 m ρ c main_arg1) (V2 m ρ c main_v28_0) :=
  (hF1 m ρ c 5).symm.trans (val1_5 (V2 m ρ) c)
theorem s1c_eq : (V3 m ρ c main_v29_2 : S10000x16.Idx → EReal) = band16 (V2 m ρ c main_arg2) (V2 m ρ c main_v28_1) :=
  (hF1 m ρ c 6).symm.trans (val1_6 (V2 m ρ) c)
theorem s1d_eq : (V3 m ρ c main_v29_3 : S10000x8.Idx → EReal) = band8 (V2 m ρ c main_arg2) (V2 m ρ c main_v28_1) :=
  (hF1 m ρ c 7).symm.trans (val1_7 (V2 m ρ) c)
theorem gb_eq : (V3 m ρ c main_v29_4 : S10000x10000.Idx → EReal) = aG m c :=
  ((hF1 m ρ c 8).symm.trans (val1_8 (V2 m ρ) c)).trans (V2_arg1 m ρ c)
theorem sb_eq : (V3 m ρ c main_v29_5 : S10000x10000.Idx → EReal) = aS m c :=
  ((hF1 m ρ c 9).symm.trans (val1_9 (V2 m ρ) c)).trans (V2_arg2 m ρ c)

/-- Columns 0–7 and 8–15 of the smoothing side after one propagation: channels 2 and 1. -/
theorem g1c_apply (p : Fin 10000) (a : Fin 16) (ch : Fin 6) (q : Fin 8) (hch : (ord ⟨a.val / 8, by have := a.isLt; omega⟩) = ch) (hq : a.val % 8 = q.val) :
    (V3 m ρ c main_v29_0 : S10000x16.Idx → EReal) (ix2 p a) = prop (aG m c) (proj (aX m c) (aWh m c) (aBh m c) ch) p q := by
  rw [g1c_eq, V2_arg1]
  unfold band16 prop
  show @Eq EReal _ _
  exact Finset.sum_congr rfl fun k _ => congrArg _ (ag_apply m ρ c k ⟨a.val, by have := a.isLt; omega⟩ ch q hch hq)
/-- The smoothing side's finished band after one propagation: channel 0. -/
theorem g1d_apply (p : Fin 10000) (q : Fin 8) :
    (V3 m ρ c main_v29_1 : S10000x8.Idx → EReal) (ix2 p q) = prop (aG m c) (proj (aX m c) (aWh m c) (aBh m c) 0) p q := by
  rw [g1d_eq, V2_arg1]
  unfold band8 prop
  show @Eq EReal _ _
  exact Finset.sum_congr rfl fun k _ => congrArg _ (ag_apply m ρ c k ⟨16 + q.val, by have := q.isLt; omega⟩ 0 q
    (by have : (⟨(16 + q.val) / 8, by have := q.isLt; omega⟩ : Fin 6) = 2 := Fin.ext (by show (16 + q.val) / 8 = 2; have := q.isLt; omega)
        rw [this]; rfl)
    (by show (16 + q.val) % 8 = q.val; have := q.isLt; omega))
theorem s1c_apply (p : Fin 10000) (a : Fin 16) (ch : Fin 6) (q : Fin 8) (hch : (ord ⟨(24 + a.val) / 8, by have := a.isLt; omega⟩) = ch) (hq : (24 + a.val) % 8 = q.val) :
    (V3 m ρ c main_v29_2 : S10000x16.Idx → EReal) (ix2 p a) = prop (aS m c) (proj (aX m c) (aWh m c) (aBh m c) ch) p q := by
  rw [s1c_eq, V2_arg2]
  unfold band16 prop
  show @Eq EReal _ _
  exact Finset.sum_congr rfl fun k _ => congrArg _ (asx_apply m ρ c k ⟨a.val, by have := a.isLt; omega⟩ ch q hch hq)
theorem s1d_apply (p : Fin 10000) (q : Fin 8) :
    (V3 m ρ c main_v29_3 : S10000x8.Idx → EReal) (ix2 p q) = prop (aS m c) (proj (aX m c) (aWh m c) (aBh m c) 3) p q := by
  rw [s1d_eq, V2_arg2]
  unfold band8 prop
  show @Eq EReal _ _
  exact Finset.sum_congr rfl fun k _ => congrArg _ (asx_apply m ρ c k ⟨16 + q.val, by have := q.isLt; omega⟩ 3 q
    (by have : (⟨(24 + (16 + q.val)) / 8, by have := q.isLt; omega⟩ : Fin 6) = 5 := Fin.ext (by show (24 + (16 + q.val)) / 8 = 5; have := q.isLt; omega)
        rw [this]; rfl)
    (by show (24 + (16 + q.val)) % 8 = q.val; have := q.isLt; omega))

/-! ## Region 2: two propagations -/

theorem g2c_eq : (V4 m ρ c main_v30_0 : S10000x8.Idx → EReal) = lowBand (V3 m ρ c main_v29_4) (V3 m ρ c main_v29_0) :=
  (hF2 m ρ c 4).symm.trans (val2_4 (V3 m ρ) c)
theorem g2d_eq : (V4 m ρ c main_v30_1 : S10000x8.Idx → EReal) = highBand (V3 m ρ c main_v29_4) (V3 m ρ c main_v29_0) :=
  (hF2 m ρ c 5).symm.trans (val2_5 (V3 m ρ) c)
theorem s2c_eq : (V4 m ρ c main_v30_2 : S10000x8.Idx → EReal) = lowBand (V3 m ρ c main_v29_5) (V3 m ρ c main_v29_2) :=
  (hF2 m ρ c 6).symm.trans (val2_6 (V3 m ρ) c)
theorem s2d_eq : (V4 m ρ c main_v30_3 : S10000x8.Idx → EReal) = highBand (V3 m ρ c main_v29_5) (V3 m ρ c main_v29_2) :=
  (hF2 m ρ c 7).symm.trans (val2_7 (V3 m ρ) c)

/-- The smoothing side after two propagations: the band that continues is channel 2 … -/
theorem g2c_apply (p : Fin 10000) (q : Fin 8) :
    (V4 m ρ c main_v30_0 : S10000x8.Idx → EReal) (ix2 p q)
      = prop (aG m c) (prop (aG m c) (proj (aX m c) (aWh m c) (aBh m c) 2)) p q := by
  rw [g2c_eq, gb_eq]
  unfold lowBand
  conv_rhs => unfold prop
  show @Eq EReal _ _
  exact Finset.sum_congr rfl fun k _ => congrArg _ (g1c_apply m ρ c k ⟨q.val, by have := q.isLt; omega⟩ 2 q
    (by have : (⟨q.val / 8, by have := q.isLt; omega⟩ : Fin 6) = 0 := Fin.ext (by show q.val / 8 = 0; have := q.isLt; omega)
        rw [this]; rfl)
    (by show q.val % 8 = q.val; have := q.isLt; omega))
/-- … and the finished band is channel 1. -/
theorem g2d_apply (p : Fin 10000) (q : Fin 8) :
    (V4 m ρ c main_v30_1 : S10000x8.Idx → EReal) (ix2 p q)
      = prop (aG m c) (prop (aG m c) (proj (aX m c) (aWh m c) (aBh m c) 1)) p q := by
  rw [g2d_eq, gb_eq]
  unfold highBand
  conv_rhs => unfold prop
  show @Eq EReal _ _
  exact Finset.sum_congr rfl fun k _ => congrArg _ (g1c_apply m ρ c k ⟨8 + q.val, by have := q.isLt; omega⟩ 1 q
    (by have : (⟨(8 + q.val) / 8, by have := q.isLt; omega⟩ : Fin 6) = 1 := Fin.ext (by show (8 + q.val) / 8 = 1; have := q.isLt; omega)
        rw [this]; rfl)
    (by show (8 + q.val) % 8 = q.val; have := q.isLt; omega))
theorem s2c_apply (p : Fin 10000) (q : Fin 8) :
    (V4 m ρ c main_v30_2 : S10000x8.Idx → EReal) (ix2 p q)
      = prop (aS m c) (prop (aS m c) (proj (aX m c) (aWh m c) (aBh m c) 5)) p q := by
  rw [s2c_eq, sb_eq]
  unfold lowBand
  conv_rhs => unfold prop
  show @Eq EReal _ _
  exact Finset.sum_congr rfl fun k _ => congrArg _ (s1c_apply m ρ c k ⟨q.val, by have := q.isLt; omega⟩ 5 q
    (by have : (⟨(24 + q.val) / 8, by have := q.isLt; omega⟩ : Fin 6) = 3 := Fin.ext (by show (24 + q.val) / 8 = 3; have := q.isLt; omega)
        rw [this]; rfl)
    (by show (24 + q.val) % 8 = q.val; have := q.isLt; omega))
theorem s2d_apply (p : Fin 10000) (q : Fin 8) :
    (V4 m ρ c main_v30_3 : S10000x8.Idx → EReal) (ix2 p q)
      = prop (aS m c) (prop (aS m c) (proj (aX m c) (aWh m c) (aBh m c) 4)) p q := by
  rw [s2d_eq, sb_eq]
  unfold highBand
  conv_rhs => unfold prop
  show @Eq EReal _ _
  exact Finset.sum_congr rfl fun k _ => congrArg _ (s1c_apply m ρ c k ⟨8 + q.val, by have := q.isLt; omega⟩ 4 q
    (by have : (⟨(24 + (8 + q.val)) / 8, by have := q.isLt; omega⟩ : Fin 6) = 4 := Fin.ext (by show (24 + (8 + q.val)) / 8 = 4; have := q.isLt; omega)
        rw [this]; rfl)
    (by show (24 + (8 + q.val)) % 8 = q.val; have := q.isLt; omega))

/-! ## Region 3: the third propagation, the six channels side by side, the clamp and the head -/

/-- A region leaves the arrays it only reads as it found them. -/
theorem V4_gb : (V4 m ρ c main_v29_4 : S10000x10000.Idx → EReal) = aG m c :=
  (hF2 m ρ c 0).symm.trans <| ((dat2 (V3 m ρ) c).arrAt_in 0 rfl _).trans <| (A_eq2 (V3 m ρ) c 0).trans (gb_eq m ρ c)
theorem V4_sb : (V4 m ρ c main_v29_5 : S10000x10000.Idx → EReal) = aS m c :=
  (hF2 m ρ c 1).symm.trans <| ((dat2 (V3 m ρ) c).arrAt_in 1 rfl _).trans <| (A_eq2 (V3 m ρ) c 1).trans (sb_eq m ρ c)
theorem V4_g1d : V4 m ρ c main_v29_1 = V3 m ρ c main_v29_1 := hrest2 m ρ c main_v29_1 (by decide)
theorem V4_s1d : V4 m ρ c main_v29_3 = V3 m ρ c main_v29_3 := hrest2 m ρ c main_v29_3 (by decide)
theorem V4_arg5 : V4 m ρ c main_arg5 = m ((c : Thread nD τ).loc main_arg5) :=
  (hrest2 m ρ c main_arg5 (by decide)).trans <| (hrest1 m ρ c main_arg5 (by decide)).trans <|
    (hrest0 m ρ c main_arg5 (by decide)).trans (W1_main_arg5 m ρ c)
theorem V4_v27 : V4 m ρ c main_v27 = V1 m ρ c main_v27 :=
  (hrest2 m ρ c main_v27 (by decide)).trans <| (hrest1 m ρ c main_v27 (by decide)).trans (hrest0 m ρ c main_v27 (by decide))

theorem z_eq : (V5 m ρ c main_v31 : S10000x128.Idx → EReal)
    = headOf (pieces3 (V4 m ρ c main_v29_4) (V4 m ρ c main_v29_5) (V4 m ρ c main_v30_0) (V4 m ρ c main_v30_2)
        (V4 m ρ c main_v29_1) (V4 m ρ c main_v30_1) (V4 m ρ c main_v29_3) (V4 m ρ c main_v30_3)) (V4 m ρ c main_arg5) (V4 m ρ c main_v27) :=
  (hF3 m ρ c 10).symm.trans (val3_10 (V4 m ρ) c)

section Pieces
variable (GB SB : S10000x10000.Idx → EReal) (G2C S2C G1D G2D S1D S2D : S10000x8.Idx → EReal) (p : Fin 10000) (q : Fin 8)
theorem piece0 (h : 0 < 6) : pieces3 GB SB G2C S2C G1D G2D S1D S2D ⟨0, h⟩ p q = G1D (ix2 p q) := rfl
theorem piece1 (h : 1 < 6) : pieces3 GB SB G2C S2C G1D G2D S1D S2D ⟨1, h⟩ p q = G2D (ix2 p q) := rfl
theorem piece2 (h : 2 < 6) : pieces3 GB SB G2C S2C G1D G2D S1D S2D ⟨2, h⟩ p q = ∑ k : Fin 10000, GB (ix2 p k) * G2C (ix2 k q) := rfl
theorem piece3 (h : 3 < 6) : pieces3 GB SB G2C S2C G1D G2D S1D S2D ⟨3, h⟩ p q = max (S1D (ix2 p q)) (-(S1D (ix2 p q))) := rfl
theorem piece4 (h : 4 < 6) : pieces3 GB SB G2C S2C G1D G2D S1D S2D ⟨4, h⟩ p q = max (S2D (ix2 p q)) (-(S2D (ix2 p q))) := rfl
theorem piece5 (h : 5 < 6) : pieces3 GB SB G2C S2C G1D G2D S1D S2D ⟨5, h⟩ p q
    = max (∑ k : Fin 10000, SB (ix2 p k) * S2C (ix2 k q)) (-(∑ k : Fin 10000, SB (ix2 p k) * S2C (ix2 k q))) := rfl
/-- A matrix times an array whose entries are h's is the propagation of h. -/
theorem sum_prop (M : MArr) (R : S10000x8.Idx → EReal) (h : Fin 10000 → Fin 8 → EReal) (hR : ∀ k q, R (ix2 k q) = h k q) :
    ∑ k : Fin 10000, M (ix2 p k) * R (ix2 k q) = prop M h p q :=
  Finset.sum_congr rfl fun k _ => congrArg _ (hR k q)
end Pieces

/-- The six pieces the third level sets side by side are the specification's six channels. -/
theorem pieces_chan (ch : Fin 6) (p : Fin 10000) (q : Fin 8) :
    pieces3 (V4 m ρ c main_v29_4) (V4 m ρ c main_v29_5) (V4 m ρ c main_v30_0) (V4 m ρ c main_v30_2)
        (V4 m ρ c main_v29_1) (V4 m ρ c main_v30_1) (V4 m ρ c main_v29_3) (V4 m ρ c main_v30_3) ch p q
      = chan (aX m c) (aG m c) (aS m c) (aWh m c) (aBh m c) ch p q := by
  match ch with
  | ⟨0, h⟩ =>
    refine (piece0 _ _ _ _ _ _ _ _ p q h).trans ?_
    rw [V4_g1d]; exact g1d_apply m ρ c p q
  | ⟨1, h⟩ =>
    refine (piece1 _ _ _ _ _ _ _ _ p q h).trans ?_
    exact g2d_apply m ρ c p q
  | ⟨2, h⟩ =>
    refine (piece2 _ _ _ _ _ _ _ _ p q h).trans ?_
    rw [V4_gb]
    show _ = prop (aG m c) (prop (aG m c) (prop (aG m c) (proj (aX m c) (aWh m c) (aBh m c) 2))) p q
    conv_rhs => unfold prop
    exact Finset.sum_congr rfl fun k _ => congrArg _ (g2c_apply m ρ c k q)
  | ⟨3, h⟩ =>
    refine (piece3 _ _ _ _ _ _ _ _ p q h).trans ?_
    rw [V4_s1d, s1d_apply m ρ c p q]; rfl
  | ⟨4, h⟩ =>
    refine (piece4 _ _ _ _ _ _ _ _ p q h).trans ?_
    rw [s2d_apply m ρ c p q]; rfl
  | ⟨5, h⟩ =>
    refine (piece5 _ _ _ _ _ _ _ _ p q h).trans ?_
    rw [V4_sb, sum_prop p q (aS m c) (V4 m ρ c main_v30_2) _ (fun k q => s2c_apply m ρ c k q)]; rfl
  | ⟨n + 6, h⟩ => exact absurd h (by omega)

/-- The head array is the specification's head. -/
theorem z_apply (p : Fin 10000) (j : Fin 128) :
    (V5 m ρ c main_v31 : S10000x128.Idx → EReal) (ix2 p j) = head (aX m c) (aG m c) (aS m c) (aWh m c) (aBh m c) (aWr m c) (aBr m c) p j := by
  rw [z_eq]
  unfold headOf head hid
  show @Eq EReal _ _
  refine congrArg₂ (· + ·) (Finset.sum_congr rfl fun a _ => ?_) ?_
  · rw [pieces_chan, V4_arg5]; rfl
  · rw [V4_v27]; exact hostR m ρ c j

/-! ## Region 4: the last propagation -/

theorem V5_gb : (V5 m ρ c main_v29_4 : S10000x10000.Idx → EReal) = aG m c :=
  (hF3 m ρ c 0).symm.trans <| ((dat3 (V4 m ρ) c).arrAt_in 0 rfl _).trans <| (A_eq3 (V4 m ρ) c 0).trans (V4_gb m ρ c)

/-- THE RESULT: the array the program returns is the specification's. -/
theorem result_spec : (W6 m ρ c (Proc.devRef .tc main_v32) : OutArr)
    = out (aX m c) (aG m c) (aS m c) (aWh m c) (aBh m c) (aWr m c) (aBr m c) := by
  have e : (V6 m ρ c main_v32 : S10000x128.Idx → EReal) = matTimes (V5 m ρ c main_v29_4) (V5 m ρ c main_v31) :=
    (hF4 m ρ c 2).symm.trans (val4_2 (V5 m ρ) c)
  refine e.trans ?_
  rw [V5_gb]
  funext i
  obtain ⟨p, j, rfl⟩ : ∃ (p : Fin 10000) (j : Fin 128), i = ix2 p j := ⟨i 0, i 1, eq_ix2 i⟩
  rw [out_ix2]
  unfold matTimes
  show @Eq EReal _ _
  exact Finset.sum_congr rfl fun k _ => congrArg _ (z_apply m ρ c k j)

end Cert.KernelIdeal.Val

end
-- ==== Proof.RefProj.lean ====
/-
  The six channels' projections in the reference, read at an index: each is the product of the node features with
  the channel's 128 × 8 slice of the weights, plus the channel's row of the bias spread over the nodes.
-/
import proofs.«122926_g88072599371920_cont_sun_m_806_20_alg».proof.Proof.Gen.ReferenceIdeal.Read
import proofs.«122926_g88072599371920_cont_sun_m_806_20_alg».proof.Proof.Spec

noncomputable section

open scoped BigOperators

namespace Cert.RefSpec

open Cert.ReferenceIdeal Cert.ReferenceIdeal.Gen Cert.ReferenceIdeal.Read Idealize.ShloMosaic Idealize.ShloMosaic.ValueIdx

/-- Channel 0's projection, read at (k, q): the slice of the weights and of the bias at channel 0, the
    product with the features and the broadcast bias added. -/
theorem proj0 (x0 : Spec.XArr) (x3 : Spec.WhArr) (x4 : Spec.BhArr) (k : Fin 10000) (q : Fin 8) :
    val_main_v7 (F := Ideal) x0 x3 x4 (ix2 k q) = Spec.proj x0 x3 x4 0 k q := by
  have hq := q.isLt
  have eW : ∀ d : Fin 128, idx_main_v0 (idx_main_v1 (ridx_main_v2 (ix2 k q) d)) = ix3 (0 : Fin 6) d q := fun d =>
    funext fun a => Fin.ext (by
      have hd := d.isLt
      match a with
      | ⟨0, _⟩ => rfl
      | ⟨1, _⟩ => show (d.val * 8 + q.val) / 8 % 128 = d.val; omega
      | ⟨2, _⟩ => show (d.val * 8 + q.val) % 8 = q.val; omega)
  have eX : ∀ d : Fin 128, lidx_main_v2 (ix2 k q) d = ix2 k d := fun d =>
    funext fun a => Fin.ext (by
      match a with
      | ⟨0, _⟩ => rfl
      | ⟨1, _⟩ => rfl)
  have eB : idx_main_v3 (idx_main_v4 (idx_main_v5 (idx_main_v6 (ix2 k q)))) = ix2 (0 : Fin 6) q :=
    funext fun a => Fin.ext (by
      match a with
      | ⟨0, _⟩ => rfl
      | ⟨1, _⟩ => show q.val % 8 = q.val; omega)
  rw [val_main_v7_apply, val_main_v2_apply, val_main_v6_apply, val_main_v5_apply, val_main_v4_apply,
    val_main_v3_apply, eB]
  simp only [val_main_v1_apply, val_main_v0_apply, eW, eX]
  rfl

/-- Channel 1's projection, read at (k, q): the slice of the weights and of the bias at channel 1, the
    product with the features and the broadcast bias added. -/
theorem proj1 (x0 : Spec.XArr) (x3 : Spec.WhArr) (x4 : Spec.BhArr) (k : Fin 10000) (q : Fin 8) :
    val_main_v16 (F := Ideal) x0 x3 x4 (ix2 k q) = Spec.proj x0 x3 x4 1 k q := by
  have hq := q.isLt
  have eW : ∀ d : Fin 128, idx_main_v9 (idx_main_v10 (ridx_main_v11 (ix2 k q) d)) = ix3 (1 : Fin 6) d q := fun d =>
    funext fun a => Fin.ext (by
      have hd := d.isLt
      match a with
      | ⟨0, _⟩ => rfl
      | ⟨1, _⟩ => show (d.val * 8 + q.val) / 8 % 128 = d.val; omega
      | ⟨2, _⟩ => show (d.val * 8 + q.val) % 8 = q.val; omega)
  have eX : ∀ d : Fin 128, lidx_main_v11 (ix2 k q) d = ix2 k d := fun d =>
    funext fun a => Fin.ext (by
      match a with
      | ⟨0, _⟩ => rfl
      | ⟨1, _⟩ => rfl)
  have eB : idx_main_v12 (idx_main_v13 (idx_main_v14 (idx_main_v15 (ix2 k q)))) = ix2 (1 : Fin 6) q :=
    funext fun a => Fin.ext (by
      match a with
      | ⟨0, _⟩ => rfl
      | ⟨1, _⟩ => show q.val % 8 = q.val; omega)
  rw [val_main_v16_apply, val_main_v11_apply, val_main_v15_apply, val_main_v14_apply, val_main_v13_apply,
    val_main_v12_apply, eB]
  simp only [val_main_v10_apply, val_main_v9_apply, eW, eX]
  rfl

/-- Channel 2's projection, read at (k, q): the slice of the weights and of the bias at channel 2, the
    product with the features and the broadcast bias added. -/
theorem proj2 (x0 : Spec.XArr) (x3 : Spec.WhArr) (x4 : Spec.BhArr) (k : Fin 10000) (q : Fin 8) :
    val_main_v26 (F := Ideal) x0 x3 x4 (ix2 k q) = Spec.proj x0 x3 x4 2 k q := by
  have hq := q.isLt
  have eW : ∀ d : Fin 128, idx_main_v19 (idx_main_v20 (ridx_main_v21 (ix2 k q) d)) = ix3 (2 : Fin 6) d q := fun d =>
    funext fun a => Fin.ext (by
      have hd := d.isLt
      match a with
      | ⟨0, _⟩ => rfl
      | ⟨1, _⟩ => show (d.val * 8 + q.val) / 8 % 128 = d.val; omega
      | ⟨2, _⟩ => show (d.val * 8 + q.val) % 8 = q.val; omega)
  have eX : ∀ d : Fin 128, lidx_main_v21 (ix2 k q) d = ix2 k d := fun d =>
    funext fun a => Fin.ext (by
      match a with
      | ⟨0, _⟩ => rfl
      | ⟨1, _⟩ => rfl)
  have eB : idx_main_v22 (idx_main_v23 (idx_main_v24 (idx_main_v25 (ix2 k q)))) = ix2 (2 : Fin 6) q :=
    funext fun a => Fin.ext (by
      match a with
      | ⟨0, _⟩ => rfl
      | ⟨1, _⟩ => show q.val % 8 = q.val; omega)
  rw [val_main_v26_apply, val_main_v21_apply, val_main_v25_apply, val_main_v24_apply, val_main_v23_apply,
    val_main_v22_apply, eB]
  simp only [val_main_v20_apply, val_main_v19_apply, eW, eX]
  rfl

/-- Channel 3's projection, read at (k, q): the slice of the weights and of the bias at channel 3, the
    product with the features and the broadcast bias added. -/
theorem proj3 (x0 : Spec.XArr) (x3 : Spec.WhArr) (x4 : Spec.BhArr) (k : Fin 10000) (q : Fin 8) :
    val_main_v37 (F := Ideal) x0 x3 x4 (ix2 k q) = Spec.proj x0 x3 x4 3 k q := by
  have hq := q.isLt
  have eW : ∀ d : Fin 128, idx_main_v30 (idx_main_v31 (ridx_main_v32 (ix2 k q) d)) = ix3 (3 : Fin 6) d q := fun d =>
    funext fun a => Fin.ext (by
      have hd := d.isLt
      match a with
      | ⟨0, _⟩ => rfl
      | ⟨1, _⟩ => show (d.val * 8 + q.val) / 8 % 128 = d.val; omega
      | ⟨2, _⟩ => show (d.val * 8 + q.val) % 8 = q.val; omega)
  have eX : ∀ d : Fin 128, lidx_main_v32 (ix2 k q) d = ix2 k d := fun d =>
    funext fun a => Fin.ext (by
      match a with
      | ⟨0, _⟩ => rfl
      | ⟨1, _⟩ => rfl)
  have eB : idx_main_v33 (idx_main_v34 (idx_main_v35 (idx_main_v36 (ix2 k q)))) = ix2 (3 : Fin 6) q :=
    funext fun a => Fin.ext (by
      match a with
      | ⟨0, _⟩ => rfl
      | ⟨1, _⟩ => show q.val % 8 = q.val; omega)
  rw [val_main_v37_apply, val_main_v32_apply, val_main_v36_apply, val_main_v35_apply, val_main_v34_apply,
    val_main_v33_apply, eB]
  simp only [val_main_v31_apply, val_main_v30_apply, eW, eX]
  rfl

/-- Channel 4's projection, read at (k, q): the slice of the weights and of the bias at channel 4, the
    product with the features and the broadcast bias added. -/
theorem proj4 (x0 : Spec.XArr) (x3 : Spec.WhArr) (x4 : Spec.BhArr) (k : Fin 10000) (q : Fin 8) :
    val_main_v47 (F := Ideal) x0 x3 x4 (ix2 k q) = Spec.proj x0 x3 x4 4 k q := by
  have hq := q.isLt
  have eW : ∀ d : Fin 128, idx_main_v40 (idx_main_v41 (ridx_main_v42 (ix2 k q) d)) = ix3 (4 : Fin 6) d q := fun d =>
    funext fun a => Fin.ext (by
      have hd := d.isLt
      match a with
      | ⟨0, _⟩ => rfl
      | ⟨1, _⟩ => show (d.val * 8 + q.val) / 8 % 128 = d.val; omega
      | ⟨2, _⟩ => show (d.val * 8 + q.val) % 8 = q.val; omega)
  have eX : ∀ d : Fin 128, lidx_main_v42 (ix2 k q) d = ix2 k d := fun d =>
    funext fun a => Fin.ext (by
      match a with
      | ⟨0, _⟩ => rfl
      | ⟨1, _⟩ => rfl)
  have eB : idx_main_v43 (idx_main_v44 (idx_main_v45 (idx_main_v46 (ix2 k q)))) = ix2 (4 : Fin 6) q :=
    funext fun a => Fin.ext (by
      match a with
      | ⟨0, _⟩ => rfl
      | ⟨1, _⟩ => show q.val % 8 = q.val; omega)
  rw [val_main_v47_apply, val_main_v42_apply, val_main_v46_apply, val_main_v45_apply, val_main_v44_apply,
    val_main_v43_apply, eB]
  simp only [val_main_v41_apply, val_main_v40_apply, eW, eX]
  rfl

/-- Channel 5's projection, read at (k, q): the slice of the weights and of the bias at channel 5, the
    product with the features and the broadcast bias added. -/
theorem proj5 (x0 : Spec.XArr) (x3 : Spec.WhArr) (x4 : Spec.BhArr) (k : Fin 10000) (q : Fin 8) :
    val_main_v58 (F := Ideal) x0 x3 x4 (ix2 k q) = Spec.proj x0 x3 x4 5 k q := by
  have hq := q.isLt
  have eW : ∀ d : Fin 128, idx_main_v51 (idx_main_v52 (ridx_main_v53 (ix2 k q) d)) = ix3 (5 : Fin 6) d q := fun d =>
    funext fun a => Fin.ext (by
      have hd := d.isLt
      match a with
      | ⟨0, _⟩ => rfl
      | ⟨1, _⟩ => show (d.val * 8 + q.val) / 8 % 128 = d.val; omega
      | ⟨2, _⟩ => show (d.val * 8 + q.val) % 8 = q.val; omega)
  have eX : ∀ d : Fin 128, lidx_main_v53 (ix2 k q) d = ix2 k d := fun d =>
    funext fun a => Fin.ext (by
      match a with
      | ⟨0, _⟩ => rfl
      | ⟨1, _⟩ => rfl)
  have eB : idx_main_v54 (idx_main_v55 (idx_main_v56 (idx_main_v57 (ix2 k q)))) = ix2 (5 : Fin 6) q :=
    funext fun a => Fin.ext (by
      match a with
      | ⟨0, _⟩ => rfl
      | ⟨1, _⟩ => show q.val % 8 = q.val; omega)
  rw [val_main_v58_apply, val_main_v53_apply, val_main_v57_apply, val_main_v56_apply, val_main_v55_apply,
    val_main_v54_apply, eB]
  simp only [val_main_v52_apply, val_main_v51_apply, eW, eX]
  rfl

end Cert.RefSpec

end
-- ==== Proof.RefChan.lean ====
/-
  The six channels in the reference, read at an index: each propagation is the sum over the nodes of the graph
  matrix's entry times the previous array's; the wavelet channels end with the absolute value.
-/
import proofs.«122926_g88072599371920_cont_sun_m_806_20_alg».proof.Proof.Gen.ReferenceIdeal.Read
import proofs.«122926_g88072599371920_cont_sun_m_806_20_alg».proof.Proof.Spec
import proofs.«122926_g88072599371920_cont_sun_m_806_20_alg».proof.Proof.RefProj

noncomputable section

open scoped BigOperators

namespace Cert.RefSpec

open Cert.ReferenceIdeal Cert.ReferenceIdeal.Gen Cert.ReferenceIdeal.Read Idealize.ShloMosaic Idealize.ShloMosaic.ValueIdx

/-- Channel 0 after 1 propagation, read at (i, q). -/
theorem stage8 (x0 : Spec.XArr) (x1 : Spec.MArr) (x3 : Spec.WhArr) (x4 : Spec.BhArr) (i : Fin 10000) (q : Fin 8) :
    val_main_v8 (F := Ideal) x0 x1 x3 x4 (ix2 i q) = Spec.prop x1 (Spec.proj x0 x3 x4 0) i q := by
  rw [val_main_v8_apply]
  refine Finset.sum_congr rfl fun k _ => ?_
  have eL : lidx_main_v8 (ix2 i q) k = ix2 i k := funext fun a => Fin.ext (by
    match a with
    | ⟨0, _⟩ => rfl
    | ⟨1, _⟩ => rfl)
  have eR : ridx_main_v8 (ix2 i q) k = ix2 k q := funext fun a => Fin.ext (by
    match a with
    | ⟨0, _⟩ => rfl
    | ⟨1, _⟩ => rfl)
  rw [eL, eR, proj0 x0 x3 x4 k q]

/-- Channel 0 of the specification is the reference's array. -/
theorem chan0 (x0 : Spec.XArr) (x1 x2 : Spec.MArr) (x3 : Spec.WhArr) (x4 : Spec.BhArr) (i : Fin 10000) (q : Fin 8) :
    val_main_v8 (F := Ideal) x0 x1 x3 x4 (ix2 i q) = Spec.chan x0 x1 x2 x3 x4 0 i q :=
  stage8 x0 x1 x3 x4 i q

/-- Channel 1 after 1 propagation, read at (i, q). -/
theorem stage17 (x0 : Spec.XArr) (x1 : Spec.MArr) (x3 : Spec.WhArr) (x4 : Spec.BhArr) (i : Fin 10000) (q : Fin 8) :
    val_main_v17 (F := Ideal) x0 x1 x3 x4 (ix2 i q) = Spec.prop x1 (Spec.proj x0 x3 x4 1) i q := by
  rw [val_main_v17_apply]
  refine Finset.sum_congr rfl fun k _ => ?_
  have eL : lidx_main_v17 (ix2 i q) k = ix2 i k := funext fun a => Fin.ext (by
    match a with
    | ⟨0, _⟩ => rfl
    | ⟨1, _⟩ => rfl)
  have eR : ridx_main_v17 (ix2 i q) k = ix2 k q := funext fun a => Fin.ext (by
    match a with
    | ⟨0, _⟩ => rfl
    | ⟨1, _⟩ => rfl)
  rw [eL, eR, proj1 x0 x3 x4 k q]

/-- Channel 1 after 2 propagations, read at (i, q). -/
theorem stage18 (x0 : Spec.XArr) (x1 : Spec.MArr) (x3 : Spec.WhArr) (x4 : Spec.BhArr) (i : Fin 10000) (q : Fin 8) :
    val_main_v18 (F := Ideal) x0 x1 x3 x4 (ix2 i q) = Spec.prop x1 (Spec.prop x1 (Spec.proj x0 x3 x4 1)) i q := by
  rw [val_main_v18_apply]
  refine Finset.sum_congr rfl fun k _ => ?_
  have eL : lidx_main_v18 (ix2 i q) k = ix2 i k := funext fun a => Fin.ext (by
    match a with
    | ⟨0, _⟩ => rfl
    | ⟨1, _⟩ => rfl)
  have eR : ridx_main_v18 (ix2 i q) k = ix2 k q := funext fun a => Fin.ext (by
    match a with
    | ⟨0, _⟩ => rfl
    | ⟨1, _⟩ => rfl)
  rw [eL, eR, stage17 x0 x1 x3 x4 k q]

/-- Channel 1 of the specification is the reference's array. -/
theorem chan1 (x0 : Spec.XArr) (x1 x2 : Spec.MArr) (x3 : Spec.WhArr) (x4 : Spec.BhArr) (i : Fin 10000) (q : Fin 8) :
    val_main_v18 (F := Ideal) x0 x1 x3 x4 (ix2 i q) = Spec.chan x0 x1 x2 x3 x4 1 i q :=
  stage18 x0 x1 x3 x4 i q

/-- Channel 2 after 1 propagation, read at (i, q). -/
theorem stage27 (x0 : Spec.XArr) (x1 : Spec.MArr) (x3 : Spec.WhArr) (x4 : Spec.BhArr) (i : Fin 10000) (q : Fin 8) :
    val_main_v27 (F := Ideal) x0 x1 x3 x4 (ix2 i q) = Spec.prop x1 (Spec.proj x0 x3 x4 2) i q := by
  rw [val_main_v27_apply]
  refine Finset.sum_congr rfl fun k _ => ?_
  have eL : lidx_main_v27 (ix2 i q) k = ix2 i k := funext fun a => Fin.ext (by
    match a with
    | ⟨0, _⟩ => rfl
    | ⟨1, _⟩ => rfl)
  have eR : ridx_main_v27 (ix2 i q) k = ix2 k q := funext fun a => Fin.ext (by
    match a with
    | ⟨0, _⟩ => rfl
    | ⟨1, _⟩ => rfl)
  rw [eL, eR, proj2 x0 x3 x4 k q]

/-- Channel 2 after 2 propagations, read at (i, q). -/
theorem stage28 (x0 : Spec.XArr) (x1 : Spec.MArr) (x3 : Spec.WhArr) (x4 : Spec.BhArr) (i : Fin 10000) (q : Fin 8) :
    val_main_v28 (F := Ideal) x0 x1 x3 x4 (ix2 i q) = Spec.prop x1 (Spec.prop x1 (Spec.proj x0 x3 x4 2)) i q := by
  rw [val_main_v28_apply]
  refine Finset.sum_congr rfl fun k _ => ?_
  have eL : lidx_main_v28 (ix2 i q) k = ix2 i k := funext fun a => Fin.ext (by
    match a with
    | ⟨0, _⟩ => rfl
    | ⟨1, _⟩ => rfl)
  have eR : ridx_main_v28 (ix2 i q) k = ix2 k q := funext fun a => Fin.ext (by
    match a with
    | ⟨0, _⟩ => rfl
    | ⟨1, _⟩ => rfl)
  rw [eL, eR, stage27 x0 x1 x3 x4 k q]

/-- Channel 2 after 3 propagations, read at (i, q). -/
theorem stage29 (x0 : Spec.XArr) (x1 : Spec.MArr) (x3 : Spec.WhArr) (x4 : Spec.BhArr) (i : Fin 10000) (q : Fin 8) :
    val_main_v29 (F := Ideal) x0 x1 x3 x4 (ix2 i q) = Spec.prop x1 (Spec.prop x1 (Spec.prop x1 (Spec.proj x0 x3 x4 2))) i q := by
  rw [val_main_v29_apply]
  refine Finset.sum_congr rfl fun k _ => ?_
  have eL : lidx_main_v29 (ix2 i q) k = ix2 i k := funext fun a => Fin.ext (by
    match a with
    | ⟨0, _⟩ => rfl
    | ⟨1, _⟩ => rfl)
  have eR : ridx_main_v29 (ix2 i q) k = ix2 k q := funext fun a => Fin.ext (by
    match a with
    | ⟨0, _⟩ => rfl
    | ⟨1, _⟩ => rfl)
  rw [eL, eR, stage28 x0 x1 x3 x4 k q]

/-- Channel 2 of the specification is the reference's array. -/
theorem chan2 (x0 : Spec.XArr) (x1 x2 : Spec.MArr) (x3 : Spec.WhArr) (x4 : Spec.BhArr) (i : Fin 10000) (q : Fin 8) :
    val_main_v29 (F := Ideal) x0 x1 x3 x4 (ix2 i q) = Spec.chan x0 x1 x2 x3 x4 2 i q :=
  stage29 x0 x1 x3 x4 i q

/-- Channel 3 after 1 propagation, read at (i, q). -/
theorem stage38 (x0 : Spec.XArr) (x2 : Spec.MArr) (x3 : Spec.WhArr) (x4 : Spec.BhArr) (i : Fin 10000) (q : Fin 8) :
    val_main_v38 (F := Ideal) x0 x2 x3 x4 (ix2 i q) = Spec.prop x2 (Spec.proj x0 x3 x4 3) i q := by
  rw [val_main_v38_apply]
  refine Finset.sum_congr rfl fun k _ => ?_
  have eL : lidx_main_v38 (ix2 i q) k = ix2 i k := funext fun a => Fin.ext (by
    match a with
    | ⟨0, _⟩ => rfl
    | ⟨1, _⟩ => rfl)
  have eR : ridx_main_v38 (ix2 i q) k = ix2 k q := funext fun a => Fin.ext (by
    match a with
    | ⟨0, _⟩ => rfl
    | ⟨1, _⟩ => rfl)
  rw [eL, eR, proj3 x0 x3 x4 k q]

/-- Channel 3: the absolute value after the propagations, read at (i, q). -/
theorem stage39 (x0 : Spec.XArr) (x2 : Spec.MArr) (x3 : Spec.WhArr) (x4 : Spec.BhArr) (i : Fin 10000) (q : Fin 8) :
    val_main_v39 (F := Ideal) x0 x2 x3 x4 (ix2 i q) = Spec.absArr (Spec.prop x2 (Spec.proj x0 x3 x4 3)) i q := by
  rw [val_main_v39_apply, stage38 x0 x2 x3 x4 i q]
  rfl

/-- Channel 3 of the specification is the reference's array. -/
theorem chan3 (x0 : Spec.XArr) (x1 x2 : Spec.MArr) (x3 : Spec.WhArr) (x4 : Spec.BhArr) (i : Fin 10000) (q : Fin 8) :
    val_main_v39 (F := Ideal) x0 x2 x3 x4 (ix2 i q) = Spec.chan x0 x1 x2 x3 x4 3 i q :=
  stage39 x0 x2 x3 x4 i q

/-- Channel 4 after 1 propagation, read at (i, q). -/
theorem stage48 (x0 : Spec.XArr) (x2 : Spec.MArr) (x3 : Spec.WhArr) (x4 : Spec.BhArr) (i : Fin 10000) (q : Fin 8) :
    val_main_v48 (F := Ideal) x0 x2 x3 x4 (ix2 i q) = Spec.prop x2 (Spec.proj x0 x3 x4 4) i q := by
  rw [val_main_v48_apply]
  refine Finset.sum_congr rfl fun k _ => ?_
  have eL : lidx_main_v48 (ix2 i q) k = ix2 i k := funext fun a => Fin.ext (by
    match a with
    | ⟨0, _⟩ => rfl
    | ⟨1, _⟩ => rfl)
  have eR : ridx_main_v48 (ix2 i q) k = ix2 k q := funext fun a => Fin.ext (by
    match a with
    | ⟨0, _⟩ => rfl
    | ⟨1, _⟩ => rfl)
  rw [eL, eR, proj4 x0 x3 x4 k q]

/-- Channel 4 after 2 propagations, read at (i, q). -/
theorem stage49 (x0 : Spec.XArr) (x2 : Spec.MArr) (x3 : Spec.WhArr) (x4 : Spec.BhArr) (i : Fin 10000) (q : Fin 8) :
    val_main_v49 (F := Ideal) x0 x2 x3 x4 (ix2 i q) = Spec.prop x2 (Spec.prop x2 (Spec.proj x0 x3 x4 4)) i q := by
  rw [val_main_v49_apply]
  refine Finset.sum_congr rfl fun k _ => ?_
  have eL : lidx_main_v49 (ix2 i q) k = ix2 i k := funext fun a => Fin.ext (by
    match a with
    | ⟨0, _⟩ => rfl
    | ⟨1, _⟩ => rfl)
  have eR : ridx_main_v49 (ix2 i q) k = ix2 k q := funext fun a => Fin.ext (by
    match a with
    | ⟨0, _⟩ => rfl
    | ⟨1, _⟩ => rfl)
  rw [eL, eR, stage48 x0 x2 x3 x4 k q]

/-- Channel 4: the absolute value after the propagations, read at (i, q). -/
theorem stage50 (x0 : Spec.XArr) (x2 : Spec.MArr) (x3 : Spec.WhArr) (x4 : Spec.BhArr) (i : Fin 10000) (q : Fin 8) :
    val_main_v50 (F := Ideal) x0 x2 x3 x4 (ix2 i q) = Spec.absArr (Spec.prop x2 (Spec.prop x2 (Spec.proj x0 x3 x4 4))) i q := by
  rw [val_main_v50_apply, stage49 x0 x2 x3 x4 i q]
  rfl

/-- Channel 4 of the specification is the reference's array. -/
theorem chan4 (x0 : Spec.XArr) (x1 x2 : Spec.MArr) (x3 : Spec.WhArr) (x4 : Spec.BhArr) (i : Fin 10000) (q : Fin 8) :
    val_main_v50 (F := Ideal) x0 x2 x3 x4 (ix2 i q) = Spec.chan x0 x1 x2 x3 x4 4 i q :=
  stage50 x0 x2 x3 x4 i q

/-- Channel 5 after 1 propagation, read at (i, q). -/
theorem stage59 (x0 : Spec.XArr) (x2 : Spec.MArr) (x3 : Spec.WhArr) (x4 : Spec.BhArr) (i : Fin 10000) (q : Fin 8) :
    val_main_v59 (F := Ideal) x0 x2 x3 x4 (ix2 i q) = Spec.prop x2 (Spec.proj x0 x3 x4 5) i q := by
  rw [val_main_v59_apply]
  refine Finset.sum_congr rfl fun k _ => ?_
  have eL : lidx_main_v59 (ix2 i q) k = ix2 i k := funext fun a => Fin.ext (by
    match a with
    | ⟨0, _⟩ => rfl
    | ⟨1, _⟩ => rfl)
  have eR : ridx_main_v59 (ix2 i q) k = ix2 k q := funext fun a => Fin.ext (by
    match a with
    | ⟨0, _⟩ => rfl
    | ⟨1, _⟩ => rfl)
  rw [eL, eR, proj5 x0 x3 x4 k q]

/-- Channel 5 after 2 propagations, read at (i, q). -/
theorem stage60 (x0 : Spec.XArr) (x2 : Spec.MArr) (x3 : Spec.WhArr) (x4 : Spec.BhArr) (i : Fin 10000) (q : Fin 8) :
    val_main_v60 (F := Ideal) x0 x2 x3 x4 (ix2 i q) = Spec.prop x2 (Spec.prop x2 (Spec.proj x0 x3 x4 5)) i q := by
  rw [val_main_v60_apply]
  refine Finset.sum_congr rfl fun k _ => ?_
  have eL : lidx_main_v60 (ix2 i q) k = ix2 i k := funext fun a => Fin.ext (by
    match a with
    | ⟨0, _⟩ => rfl
    | ⟨1, _⟩ => rfl)
  have eR : ridx_main_v60 (ix2 i q) k = ix2 k q := funext fun a => Fin.ext (by
    match a with
    | ⟨0, _⟩ => rfl
    | ⟨1, _⟩ => rfl)
  rw [eL, eR, stage59 x0 x2 x3 x4 k q]

/-- Channel 5 after 3 propagations, read at (i, q). -/
theorem stage61 (x0 : Spec.XArr) (x2 : Spec.MArr) (x3 : Spec.WhArr) (x4 : Spec.BhArr) (i : Fin 10000) (q : Fin 8) :
    val_main_v61 (F := Ideal) x0 x2 x3 x4 (ix2 i q) = Spec.prop x2 (Spec.prop x2 (Spec.prop x2 (Spec.proj x0 x3 x4 5))) i q := by
  rw [val_main_v61_apply]
  refine Finset.sum_congr rfl fun k _ => ?_
  have eL : lidx_main_v61 (ix2 i q) k = ix2 i k := funext fun a => Fin.ext (by
    match a with
    | ⟨0, _⟩ => rfl
    | ⟨1, _⟩ => rfl)
  have eR : ridx_main_v61 (ix2 i q) k = ix2 k q := funext fun a => Fin.ext (by
    match a with
    | ⟨0, _⟩ => rfl
    | ⟨1, _⟩ => rfl)
  rw [eL, eR, stage60 x0 x2 x3 x4 k q]

/-- Channel 5: the absolute value after the propagations, read at (i, q). -/
theorem stage62 (x0 : Spec.XArr) (x2 : Spec.MArr) (x3 : Spec.WhArr) (x4 : Spec.BhArr) (i : Fin 10000) (q : Fin 8) :
    val_main_v62 (F := Ideal) x0 x2 x3 x4 (ix2 i q) = Spec.absArr (Spec.prop x2 (Spec.prop x2 (Spec.prop x2 (Spec.proj x0 x3 x4 5)))) i q := by
  rw [val_main_v62_apply, stage61 x0 x2 x3 x4 i q]
  rfl

/-- Channel 5 of the specification is the reference's array. -/
theorem chan5 (x0 : Spec.XArr) (x1 x2 : Spec.MArr) (x3 : Spec.WhArr) (x4 : Spec.BhArr) (i : Fin 10000) (q : Fin 8) :
    val_main_v62 (F := Ideal) x0 x2 x3 x4 (ix2 i q) = Spec.chan x0 x1 x2 x3 x4 5 i q :=
  stage62 x0 x2 x3 x4 i q

end Cert.RefSpec

end
-- ==== Proof.RefHid.lean ====
/-
  The hidden layer in the reference, read at an index: the six channels laid side by side along the columns (column
  a is column a % 8 of channel a / 8), clamped below at zero.
-/
import proofs.«122926_g88072599371920_cont_sun_m_806_20_alg».proof.Proof.Gen.ReferenceIdeal.Read
import proofs.«122926_g88072599371920_cont_sun_m_806_20_alg».proof.Proof.Spec
import proofs.«122926_g88072599371920_cont_sun_m_806_20_alg».proof.Proof.RefChan

noncomputable section

open scoped BigOperators

namespace Cert.RefSpec

open Cert.ReferenceIdeal Cert.ReferenceIdeal.Gen Cert.ReferenceIdeal.Read Idealize.ShloMosaic Idealize.ShloMosaic.ValueIdx

/-- The six channels side by side, read at (k, a): channel a / 8 at column a % 8. -/
theorem cat_read (x0 : Spec.XArr) (x1 x2 : Spec.MArr) (x3 : Spec.WhArr) (x4 : Spec.BhArr) (k : Fin 10000) (a : Fin 48) :
    val_main_v63 (F := Ideal) x0 x1 x2 x3 x4 (ix2 k a)
      = Spec.chan x0 x1 x2 x3 x4 (Spec.chanOf a) k (Spec.colOf a) := by
  have ha := a.isLt
  have hsplit : 8 * (Spec.chanOf a).val + (Spec.colOf a).val = a.val := by
    simp only [Spec.chanOf, Spec.colOf]; omega
  unfold val_main_v63
  generalize Spec.chanOf a = c at hsplit ⊢
  match c, hsplit with
  | ⟨0, _⟩, hs =>
    exact (concatenate_apply_piece (1 : Fin 2) _ _ (ix2 k a) 0 (by show (0 : Nat) < 6; omega) S10000x8 (val_main_v8 (F := Ideal) x0 x1 x3 x4) rfl rfl 0 rfl
      (ix2 k (Spec.colOf a)) (fun b hb => match b, hb with
        | ⟨0, _⟩, _ => rfl
        | ⟨1, _⟩, hb => absurd rfl hb) hs).trans (chan0 x0 x1 x2 x3 x4 k (Spec.colOf a))
  | ⟨1, _⟩, hs =>
    exact (concatenate_apply_piece (1 : Fin 2) _ _ (ix2 k a) 1 (by show (1 : Nat) < 6; omega) S10000x8 (val_main_v18 (F := Ideal) x0 x1 x3 x4) rfl rfl 8 rfl
      (ix2 k (Spec.colOf a)) (fun b hb => match b, hb with
        | ⟨0, _⟩, _ => rfl
        | ⟨1, _⟩, hb => absurd rfl hb) hs).trans (chan1 x0 x1 x2 x3 x4 k (Spec.colOf a))
  | ⟨2, _⟩, hs =>
    exact (concatenate_apply_piece (1 : Fin 2) _ _ (ix2 k a) 2 (by show (2 : Nat) < 6; omega) S10000x8 (val_main_v29 (F := Ideal) x0 x1 x3 x4) rfl rfl 16 rfl
      (ix2 k (Spec.colOf a)) (fun b hb => match b, hb with
        | ⟨0, _⟩, _ => rfl
        | ⟨1, _⟩, hb => absurd rfl hb) hs).trans (chan2 x0 x1 x2 x3 x4 k (Spec.colOf a))
  | ⟨3, _⟩, hs =>
    exact (concatenate_apply_piece (1 : Fin 2) _ _ (ix2 k a) 3 (by show (3 : Nat) < 6; omega) S10000x8 (val_main_v39 (F := Ideal) x0 x2 x3 x4) rfl rfl 24 rfl
      (ix2 k (Spec.colOf a)) (fun b hb => match b, hb with
        | ⟨0, _⟩, _ => rfl
        | ⟨1, _⟩, hb => absurd rfl hb) hs).trans (chan3 x0 x1 x2 x3 x4 k (Spec.colOf a))
  | ⟨4, _⟩, hs =>
    exact (concatenate_apply_piece (1 : Fin 2) _ _ (ix2 k a) 4 (by show (4 : Nat) < 6; omega) S10000x8 (val_main_v50 (F := Ideal) x0 x2 x3 x4) rfl rfl 32 rfl
      (ix2 k (Spec.colOf a)) (fun b hb => match b, hb with
        | ⟨0, _⟩, _ => rfl
        | ⟨1, _⟩, hb => absurd rfl hb) hs).trans (chan4 x0 x1 x2 x3 x4 k (Spec.colOf a))
  | ⟨5, _⟩, hs =>
    exact (concatenate_apply_piece (1 : Fin 2) _ _ (ix2 k a) 5 (by show (5 : Nat) < 6; omega) S10000x8 (val_main_v62 (F := Ideal) x0 x2 x3 x4) rfl rfl 40 rfl
      (ix2 k (Spec.colOf a)) (fun b hb => match b, hb with
        | ⟨0, _⟩, _ => rfl
        | ⟨1, _⟩, hb => absurd rfl hb) hs).trans (chan5 x0 x1 x2 x3 x4 k (Spec.colOf a))

/-- The hidden layer, read at (k, a): the side-by-side channels clamped below at zero. -/
theorem hid_read (x0 : Spec.XArr) (x1 x2 : Spec.MArr) (x3 : Spec.WhArr) (x4 : Spec.BhArr) (k : Fin 10000) (a : Fin 48) :
    val_main_v64 (F := Ideal) x0 x1 x2 x3 x4 (ix2 k a) = Spec.hid x0 x1 x2 x3 x4 k a := by
  rw [val_main_v64_apply, val_main_call0_v0_apply, val_main_call0_cst_apply, cat_read]
  show max _ (Ideal.ofBits .f32 0x00000000#32) = _
  rw [Ideal.ofBits_zero_f32]
  rfl

end Cert.RefSpec

end
-- ==== Proof.RefSpec.lean ====
/-
  The reference computes the specification: the head and the result read at an index, the reference's run with its
  result named by the specification's function of the arguments, and the reference's frame.
-/
import proofs.«122926_g88072599371920_cont_sun_m_806_20_alg».proof.Proof.Gen.ReferenceIdeal.Read
import proofs.«122926_g88072599371920_cont_sun_m_806_20_alg».proof.Proof.Spec
import proofs.«122926_g88072599371920_cont_sun_m_806_20_alg».proof.Proof.RefHid

noncomputable section

open scoped BigOperators

namespace Cert.RefSpec

open Cert.ReferenceIdeal Cert.ReferenceIdeal.Gen Cert.ReferenceIdeal.Read Idealize.ShloMosaic Idealize.ShloMosaic.ValueIdx

/-- The head, read at (k, j): the hidden layer times the head's weights plus its bias. -/
theorem head_read (x0 : Spec.XArr) (x1 x2 : Spec.MArr) (x3 : Spec.WhArr) (x4 : Spec.BhArr) (x5 : Spec.WrArr) (x6 : Spec.BrArr)
    (k : Fin 10000) (j : Fin 128) :
    val_main_v68 (F := Ideal) x0 x1 x2 x3 x4 x5 x6 (ix2 k j) = Spec.head x0 x1 x2 x3 x4 x5 x6 k j := by
  have eB : idx_main_v66 (idx_main_v67 (ix2 k j)) = ix1 j := funext fun a => Fin.ext (by
    match a with
    | ⟨0, _⟩ => rfl)
  have eL : ∀ a : Fin 48, lidx_main_v65 (ix2 k j) a = ix2 k a := fun a => funext fun b => Fin.ext (by
    match b with
    | ⟨0, _⟩ => rfl
    | ⟨1, _⟩ => rfl)
  have eR : ∀ a : Fin 48, ridx_main_v65 (ix2 k j) a = ix2 a j := fun a => funext fun b => Fin.ext (by
    match b with
    | ⟨0, _⟩ => rfl
    | ⟨1, _⟩ => rfl)
  rw [val_main_v68_apply, val_main_v65_apply, val_main_v67_apply, val_main_v66_apply, eB]
  simp only [eL, eR, hid_read]
  rfl

/-- The reference's result is the specification's, index by index. -/
theorem result_eq (x0 : Spec.XArr) (x1 x2 : Spec.MArr) (x3 : Spec.WhArr) (x4 : Spec.BhArr) (x5 : Spec.WrArr) (x6 : Spec.BrArr) :
    val_main_v69 (F := Ideal) x0 x1 x2 x3 x4 x5 x6 = Spec.out x0 x1 x2 x3 x4 x5 x6 := by
  funext i
  obtain ⟨p, j, rfl⟩ : ∃ (p : Fin 10000) (j : Fin 128), i = ix2 p j := ⟨i 0, i 1, eq_ix2 i⟩
  rw [val_main_v69_apply, Spec.out_ix2]
  refine Finset.sum_congr rfl fun k _ => ?_
  have eL : lidx_main_v69 (ix2 p j) k = ix2 p k := funext fun b => Fin.ext (by
    match b with
    | ⟨0, _⟩ => rfl
    | ⟨1, _⟩ => rfl)
  have eR : ridx_main_v69 (ix2 p j) k = ix2 k j := funext fun b => Fin.ext (by
    match b with
    | ⟨0, _⟩ => rfl
    | ⟨1, _⟩ => rfl)
  rw [eL, eR, head_read]

open Idealize.ShloMosaic.TcCoe Idealize.SL.Sem in
/-- Every weakly fair execution of the reference terminates with the result at the specification's function of the
    arguments, the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v69)
          = Spec.out (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono
    (fun _ h c => ⟨((h c).1.trans (Cert.ReferenceIdeal.Read.val_main_v69_eq (F := Ideal) m' c)).trans (result_eq _ _ _ _ _ _ _), (h c).2⟩)
    (Cert.ReferenceIdeal.Value.run (F := Ideal) m' ρ')

open Idealize.ShloMosaic.TcCoe Idealize.SL.Sem in
/-- The reference's frame: every weakly fair execution terminates, faults nowhere and leaves the arguments
    unchanged (the run with the result dropped). -/
theorem frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono (fun _ h c => (h c).2) (Cert.ReferenceIdeal.Value.run (F := Ideal) m g)

end Cert.RefSpec

end
-- ==== Proof.lean ====
/-
  The certificate: a graph network's forward pass computed by five pipelined kernels against its plain reference.

  The kernel batches the six channels' propagations by level.  It lays the channels' projection weights side by side
  (deeper chains first), projects once, and at each level multiplies a graph matrix by ALL the columns that still
  have propagations to go, splitting off the band that is finished; the third level also takes the wavelet channels'
  absolute values, sets the six channels side by side, clamps at zero and applies the head; a last kernel multiplies
  by the smoothing matrix.  The reference handles one channel at a time.  On the extended reals the two are the same
  finite sums, term by term: a column band of a matrix product is the product with that band of columns, and the
  narrowed copies of the matrices the kernel makes for itself are the matrices.  So no finiteness of the inputs is
  used; the precondition is never opened.

  frame (both printed kernels): every region's body is run once at a symbolic grid point and the five regions are
  chained over the contents each leaves (Proof/K, Proof/KI: D = a region's proof data, B = its body, Fold/Run = the
  chain).  frame (reference): its run with the result dropped.  preserves: the idealization rewrote nothing.
  algebraic: the kernel's returned array is the specification (Proof/KI/Val0–4, HostVal, Compose) and so is the
  reference's (Proof/RefSpec), at arguments that agree.
-/
import proofs.«122926_g88072599371920_cont_sun_m_806_20_alg».proof.Defs
import proofs.«122926_g88072599371920_cont_sun_m_806_20_alg».proof.Proof.Gen.Kernel
import proofs.«122926_g88072599371920_cont_sun_m_806_20_alg».proof.Proof.Gen.KernelIdeal
import proofs.«122926_g88072599371920_cont_sun_m_806_20_alg».proof.Proof.Gen.ReferenceIdeal
import proofs.«122926_g88072599371920_cont_sun_m_806_20_alg».proof.Proof.Gen.Pre_finite_inputs
import proofs.«122926_g88072599371920_cont_sun_m_806_20_alg».proof.Proof.K.B0
import proofs.«122926_g88072599371920_cont_sun_m_806_20_alg».proof.Proof.K.B1
import proofs.«122926_g88072599371920_cont_sun_m_806_20_alg».proof.Proof.K.B2
import proofs.«122926_g88072599371920_cont_sun_m_806_20_alg».proof.Proof.K.B3
import proofs.«122926_g88072599371920_cont_sun_m_806_20_alg».proof.Proof.K.B4
import proofs.«122926_g88072599371920_cont_sun_m_806_20_alg».proof.Proof.K.Run
import proofs.«122926_g88072599371920_cont_sun_m_806_20_alg».proof.Proof.KI.B0
import proofs.«122926_g88072599371920_cont_sun_m_806_20_alg».proof.Proof.KI.B1
import proofs.«122926_g88072599371920_cont_sun_m_806_20_alg».proof.Proof.KI.B2
import proofs.«122926_g88072599371920_cont_sun_m_806_20_alg».proof.Proof.KI.B3
import proofs.«122926_g88072599371920_cont_sun_m_806_20_alg».proof.Proof.KI.B4
import proofs.«122926_g88072599371920_cont_sun_m_806_20_alg».proof.Proof.KI.Run
import proofs.«122926_g88072599371920_cont_sun_m_806_20_alg».proof.Proof.KI.Compose
import proofs.«122926_g88072599371920_cont_sun_m_806_20_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : @Cert.frame_Kernel Cert.Kernel.Gen.facts Cert.Pre_finite_inputs.Gen.facts := fun m ρ _ =>
  Cert.Kernel.Fr.frame (F := Bits) m ρ
    (fun V c => Cert.Kernel.Fr.body_obligation0 V c) (fun V c => Cert.Kernel.Fr.body_obligation1 V c)
    (fun V c => Cert.Kernel.Fr.body_obligation2 V c) (fun V c => Cert.Kernel.Fr.body_obligation3 V c)
    (fun V c => Cert.Kernel.Fr.body_obligation4 V c)

/-- So does the idealized kernel. -/
theorem frame_ki : @Cert.frame_KernelIdeal Cert.KernelIdeal.Gen.facts Cert.Pre_finite_inputs.Gen.facts := fun m ρ _ =>
  Cert.KernelIdeal.Fr.frame (F := Ideal) m ρ
    (fun V c => Cert.KernelIdeal.Fr.body_obligation0 V c) (fun V c => Cert.KernelIdeal.Fr.body_obligation1 V c)
    (fun V c => Cert.KernelIdeal.Fr.body_obligation2 V c) (fun V c => Cert.KernelIdeal.Fr.body_obligation3 V c)
    (fun V c => Cert.KernelIdeal.Fr.body_obligation4 V c)

/-- The idealized kernel and the idealized reference, from memories that agree on the arguments, both end with the
    specification's array of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Fr.run_result (F := Ideal) m ρ
        (fun V c => Cert.KernelIdeal.Fr.body_obligation0 V c) (fun V c => Cert.KernelIdeal.Fr.body_obligation1 V c)
        (fun V c => Cert.KernelIdeal.Fr.body_obligation2 V c) (fun V c => Cert.KernelIdeal.Fr.body_obligation3 V c)
        (fun V c => Cert.KernelIdeal.Fr.body_obligation4 V c))
    exact Cert.KernelIdeal.Val.result_spec m ρ c
  · refine (θ_run Cert.ReferenceIdeal.defs _ _).mono (fun r h c => ⟨(h c).1.trans ?_, (h c).2⟩)
      (Cert.RefSpec.run m' ρ')
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, fun m g _ => Cert.RefSpec.frame m g, trivial, algebraic⟩

end Cert.Proof

end
